-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x50x500 : Shape := ⟨4, ![8, 200, 50, 500]⟩
abbrev S8x50 : Shape := ⟨2, ![8, 50]⟩
abbrev S8 : Shape := ⟨1, ![8]⟩
abbrev S_ : Shape := ⟨0, ![]⟩

class Facts : Prop where
  bcast_S_S8x200x50x500 : S_.BroadcastsInDim S8x200x50x500 (![] : Fin 0 → Fin S8x200x50x500.rank)
  reducesTo_S8x200x50x500_S_d0_1_2_3 : S8x200x50x500.ReducesTo [0, 1, 2, 3] S_
  h_S_ : 0 < S_.numel
  bcast_S_S8x50 : S_.BroadcastsInDim S8x50 (![] : Fin 0 → Fin S8x50.rank)
  reducesTo_S8x50_S_d0_1 : S8x50.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x200x50x500 .f32) (main_arg1 : FVec F S8x200x50x500 .f32) (main_arg2 : IVec S8x50 32) (main_arg3 : IVec S8 32) (main_arg4 : IVec S8 32) : IVec S_ 1 :=
  let main_v0 : FVec F S8x200x50x500 .f32 := Host.absf main_arg0
  let main_cst : FVec F S_ .f32 := constant S_ .f32 0x7F800000#32
  let main_v1 : FVec F S8x200x50x500 .f32 := broadcastInDim S8x200x50x500 ![] bcast_S_S8x200x50x500 main_cst
  let main_v2 : IVec S8x200x50x500 1 := cmpf .olt main_v0 main_v1
  let main_c : IVec S_ 1 := constantI S_ 1 1#1
  let main_v3 : IVec S_ 1 := (fun x v => Host.reduce IntOp.andi x v reducesTo_S8x200x50x500_S_d0_1_2_3 h_S_) main_v2 main_c
  let main_v4 : FVec F S8x200x50x500 .f32 := Host.absf main_arg1
  let main_cst_0 : FVec F S_ .f32 := constant S_ .f32 0x7F800000#32
  let main_v5 : FVec F S8x200x50x500 .f32 := broadcastInDim S8x200x50x500 ![] bcast_S_S8x200x50x500 main_cst_0
  let main_v6 : IVec S8x200x50x500 1 := cmpf .olt main_v4 main_v5
  let main_c_1 : IVec S_ 1 := constantI S_ 1 1#1
  let main_v7 : IVec S_ 1 := (fun x v => Host.reduce IntOp.andi x v reducesTo_S8x200x50x500_S_d0_1_2_3 h_S_) main_v6 main_c_1
  let main_v8 : IVec S_ 1 := andi main_v3 main_v7
  let main_c_2 : IVec S_ 32 := constantI S_ 32 0#32
  let main_v9 : IVec S8x50 32 := broadcastInDim S8x50 ![] bcast_S_S8x50 main_c_2
  let main_v10 : IVec S8x50 1 := cmpi .sge main_arg2 main_v9
  let main_c_3 : IVec S_ 1 := constantI S_ 1 1#1
  let main_v11 : IVec S_ 1 := (fun x v => Host.reduce IntOp.andi x v reducesTo_S8x50_S_d0_1 h_S_) main_v10 main_c_3
  let main_v12 : IVec S_ 1 := andi main_v8 main_v11
  let main_c_4 : IVec S_ 32 := constantI S_ 32 500#32
  let main_v13 : IVec S8x50 32 := broadcastInDim S8x50 ![] bcast_S_S8x50 main_c_4
  let main_v14 : IVec S8x50 1 := cmpi .slt main_arg2 main_v13
  let main_c_5 : IVec S_ 1 := constantI S_ 1 1#1
  let main_v15 : IVec S_ 1 := (fun x v => Host.reduce IntOp.andi x v reducesTo_S8x50_S_d0_1 h_S_) main_v14 main_c_5
  fn_part1 (F := F) main_v12 main_v15
-- ==== Kernel.lean ====
abbrev S8x200x50x500 : Shape := ⟨4, ![8, 200, 50, 500]⟩
abbrev S8x50 : Shape := ⟨2, ![8, 50]⟩
abbrev S8 : Shape := ⟨1, ![8]⟩
abbrev S8x1x50x1 : Shape := ⟨4, ![8, 1, 50, 1]⟩
abbrev S8x1x1x1 : Shape := ⟨4, ![8, 1, 1, 1]⟩
abbrev S8x200x3x50 : Shape := ⟨4, ![8, 200, 3, 50]⟩
abbrev S8x8x50x500 : Shape := ⟨4, ![8, 8, 50, 500]⟩
abbrev S8x8x3x50 : Shape := ⟨4, ![8, 8, 3, 50]⟩
abbrev S8x1x1 : Shape := ⟨3, ![8, 1, 1]⟩
abbrev S1x1x50 : Shape := ⟨3, ![1, 1, 50]⟩
abbrev S1x50x500 : Shape := ⟨3, ![1, 50, 500]⟩
abbrev S1x8x50x500 : Shape := ⟨4, ![1, 8, 50, 500]⟩
abbrev S8x50x500 : Shape := ⟨3, ![8, 50, 500]⟩
abbrev S1x1x50x1 : Shape := ⟨4, ![1, 1, 50, 1]⟩
abbrev S1x50x1 : Shape := ⟨3, ![1, 50, 1]⟩
abbrev S1x1x1x1 : Shape := ⟨4, ![1, 1, 1, 1]⟩
abbrev S1x1x1 : Shape := ⟨3, ![1, 1, 1]⟩
abbrev S8x50x1 : Shape := ⟨3, ![8, 50, 1]⟩
abbrev S8x1x50 : Shape := ⟨3, ![8, 1, 50]⟩
abbrev S8x3x50 : Shape := ⟨3, ![8, 3, 50]⟩
abbrev S1x8x3x50 : Shape := ⟨4, ![1, 8, 3, 50]⟩
abbrev S8x200x50x3 : Shape := ⟨4, ![8, 200, 50, 3]⟩
abbrev S1x8x200x50x3 : Shape := ⟨5, ![1, 8, 200, 50, 3]⟩
abbrev S2x8x200x50x3 : Shape := ⟨5, ![2, 8, 200, 50, 3]⟩

abbrev nBuf : Space → Nat
  | .hbm => 15
  | .vmem => 11
  | .smem => 0
  | _ => 0

abbrev bufTy : (tb : Table) → Fin (tcTables nBuf tb) → BufTy
  | .hbm, ⟨0, _⟩ => ⟨S8x200x50x500, .f32⟩
  | .hbm, ⟨1, _⟩ => ⟨S8x200x50x500, .f32⟩
  | .hbm, ⟨2, _⟩ => ⟨S8x50, .i32⟩
  | .hbm, ⟨3, _⟩ => ⟨S8, .i32⟩
  | .hbm, ⟨4, _⟩ => ⟨S8, .i32⟩
  | .hbm, ⟨5, _⟩ => ⟨S8x1x50x1, .i32⟩
  | .hbm, ⟨6, _⟩ => ⟨S8x1x1x1, .i32⟩
  | .hbm, ⟨7, _⟩ => ⟨S8x1x1x1, .i32⟩
  | .hbm, ⟨8, _⟩ => ⟨S8x200x3x50, .f32⟩
  | .hbm, ⟨9, _⟩ => ⟨S8x200x3x50, .f32⟩
  | .hbm, ⟨10, _⟩ => ⟨S8x200x50x3, .f32⟩
  | .hbm, ⟨11, _⟩ => ⟨S8x200x50x3, .f32⟩
  | .hbm, ⟨12, _⟩ => ⟨S1x8x200x50x3, .f32⟩
  | .hbm, ⟨13, _⟩ => ⟨S1x8x200x50x3, .f32⟩
  | .hbm, ⟨14, _⟩ => ⟨S2x8x200x50x3, .f32⟩
  | .local _ .vmem, ⟨0, _⟩ => ⟨S8x8x50x500, .f32⟩
  | .local _ .vmem, ⟨1, _⟩ => ⟨S8x8x50x500, .f32⟩
  | .local _ .vmem, ⟨2, _⟩ => ⟨S8x8x50x500, .f32⟩
  | .local _ .vmem, ⟨3, _⟩ => ⟨S8x8x50x500, .f32⟩
  | .local _ .vmem, ⟨4, _⟩ => ⟨S8x1x50x1, .i32⟩
  | .local _ .vmem, ⟨5, _⟩ => ⟨S8x1x1x1, .i32⟩
  | .local _ .vmem, ⟨6, _⟩ => ⟨S8x1x1x1, .i32⟩
  | .local _ .vmem, ⟨7, _⟩ => ⟨S8x8x3x50, .f32⟩
  | .local _ .vmem, ⟨8, _⟩ => ⟨S8x8x3x50, .f32⟩
  | .local _ .vmem, ⟨9, _⟩ => ⟨S8x8x3x50, .f32⟩
  | .local _ .vmem, ⟨10, _⟩ => ⟨S8x8x3x50, .f32⟩
  | _, _ => ⟨S8x200x50x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32 : BitVec 32 := 0#32
  let c8_i32_0 : BitVec 32 := 8#32
  let v6 : BitVec 32 := Scalar.addi c0_i32 c8_i32_0
  let c1_i32 : BitVec 32 := 1#32
  ⟨c0_i32, v6, c1_i32⟩
def k0_off1 (k0_t1 : Fin k0_t1_loop.trips) : Fin 4 → Nat :=
  let c0_i32 : BitVec 32 := 0#32
  let c1_i32 : BitVec 32 := 1#32
  let arg8 : BitVec 32 := Scf.iv c0_i32 c1_i32 k0_t1
  let v7 : Index := Scalar.indexCast arg8
  let c0 : Index := 0#32
  let c0_2 : Index := 0#32
  let c0_3 : Index := 0#32
  ![v7.toNat, 0, 0, 0]
def k0_off2 (k0_t1 : Fin k0_t1_loop.trips) : Fin 4 → Nat :=
  let c0_i32 : BitVec 32 := 0#32
  let c1_i32 : BitVec 32 := 1#32
  let arg8 : BitVec 32 := Scf.iv c0_i32 c1_i32 k0_t1
  let v13 : Index := Scalar.indexCast arg8
  let c0_7 : Index := 0#32
  let c0_8 : Index := 0#32
  let c0_9 : Index := 0#32
  ![v13.toNat, 0, 0, 0]
def k0_off3 (k0_t1 : Fin k0_t1_loop.trips) : Fin 4 → Nat :=
  let c0_i32 : BitVec 32 := 0#32
  let c1_i32 : BitVec 32 := 1#32
  let arg8 : BitVec 32 := Scf.iv c0_i32 c1_i32 k0_t1
  let v16 : Index := Scalar.indexCast arg8
  let c0_10 : Index := 0#32
  let c0_11 : Index := 0#32
  let c0_12 : Index := 0#32
  ![v16.toNat, 0, 0, 0]
def k0_off4 (k0_t1 : Fin k0_t1_loop.trips) : Fin 4 → Nat :=
  let c0_i32 : BitVec 32 := 0#32
  let c1_i32 : BitVec 32 := 1#32
  let arg8 : BitVec 32 := Scf.iv c0_i32 c1_i32 k0_t1
  let v90 : Index := Scalar.indexCast arg8
  let c0_27 : Index := 0#32
  let c0_28 : Index := 0#32
  let c0_29 : Index := 0#32
  ![v90.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x8x50x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x50x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x50x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x8x3x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x3x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x50_S8x1x50x1 : S8x50.ShapeCasts S8x1x50x1
  shapeCasts_S8_S8x1x1x1 : S8.ShapeCasts S8x1x1x1
  iota_S8x1x1_d0_w32 : S8x1x1.Iotas .tc 32 [0]
  iota_S1x1x50_d2_w32 : S1x1x50.Iotas .tc 32 [2]
  iota_S1x50x500_d2_w32 : S1x50x500.Iotas .tc 32 [2]
  h_S1x8x50x500 : 0 < S1x8x50x500.numel
  shapeCasts_S1x8x50x500_S8x50x500 : S1x8x50x500.ShapeCasts S8x50x500
  h_S1x1x50x1 : 0 < S1x1x50x1.numel
  shapeCasts_S1x1x50x1_S1x50x1 : S1x1x50x1.ShapeCasts S1x50x1
  h_S1x1x1x1 : 0 < S1x1x1x1.numel
  shapeCasts_S1x1x1x1_S1x1x1 : S1x1x1x1.ShapeCasts S1x1x1
  broadcasts_S1x50x1_S1x50x500 : S1x50x1.Broadcasts S1x50x500
  natLt_1_32 : 1 < 32
  reduces_S8x50x500_S8x50 : S8x50x500.Reduces [2] S8x50
  shapeCasts_S8x50_S8x50x1 : S8x50.ShapeCasts S8x50x1
  broadcasts_S8x50x1_S8x50x500 : S8x50x1.Broadcasts S8x50x500
  broadcasts_S1x50x500_S8x50x500 : S1x50x500.Broadcasts S8x50x500
  slices_S8x50x500_o0_0_0_S8x50x1 : S8x50x500.Slices ![0, 0, 0] S8x50x1
  transposes_S8x50x1_p0_2_1_S8x1x50 : S8x50x1.Transposes [0, 2, 1] S8x1x50
  concatenates_S8x1x50_S8x1x50_S8x1x50_S8x3x50_d1 : Shape.Concatenates [S8x1x50, S8x1x50, S8x1x50] S8x3x50 1
  broadcasts_S1x1x1_S8x1x1 : S1x1x1.Broadcasts S8x1x1
  broadcasts_S1x1x1_S1x1x50 : S1x1x1.Broadcasts S1x1x50
  broadcasts_S8x1x1_S8x1x50 : S8x1x1.Broadcasts S8x1x50
  broadcasts_S1x1x50_S8x1x50 : S1x1x50.Broadcasts S8x1x50
  broadcasts_S8x1x50_S8x3x50 : S8x1x50.Broadcasts S8x3x50
  h_S1x8x3x50 : 0 < S1x8x3x50.numel
  shapeCasts_S1x8x3x50_S8x3x50 : S1x8x3x50.ShapeCasts S8x3x50
  shapeCasts_S8x3x50_S1x8x3x50 : S8x3x50.ShapeCasts S1x8x3x50
  transposes_S8x200x3x50_S8x200x50x3_0_1_3_2 : S8x200x3x50.Transposes [0, 1, 3, 2] S8x200x50x3
  bcast_S8x200x50x3_S1x8x200x50x3_1_2_3_4 : S8x200x50x3.BroadcastsInDim S1x8x200x50x3 (![1, 2, 3, 4] : Fin 4 → Fin S1x8x200x50x3.rank)
  concatenates_S1x8x200x50x3_S1x8x200x50x3_S2x8x200x50x3_d0 : Shape.Concatenates [S1x8x200x50x3, S1x8x200x50x3] S2x8x200x50x3 0
  hrank0 : 0 < grid0.rank
  k0_t1_ok : k0_t1_loop.OK
  k0_off1_inb : ∀ k0_t1 : Fin k0_t1_loop.trips, ∀ a, (k0_off1 k0_t1) a + S1x8x50x500.size a ≤ S8x8x50x500.size a
  k0_off2_inb : ∀ k0_t1 : Fin k0_t1_loop.trips, ∀ a, (k0_off2 k0_t1) a + S1x1x50x1.size a ≤ S8x1x50x1.size a
  k0_off3_inb : ∀ k0_t1 : Fin k0_t1_loop.trips, ∀ a, (k0_off3 k0_t1) a + S1x1x1x1.size a ≤ S8x1x1x1.size a
  k0_off4_inb : ∀ k0_t1 : Fin k0_t1_loop.trips, ∀ a, (k0_off4 k0_t1) a + S1x8x3x50.size a ≤ S8x8x3x50.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x50x500.size a ≤ S8x200x50x500.size a
  hwx0_0 : ∀ i : grid0.Coords, EltTy.bits .f32 = 32 ∨ (Rect.block (s := S8x200x50x500) S8x8x50x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x50x500.size a ≤ S8x200x50x500.size a
  hwx0_1 : ∀ i : grid0.Coords, EltTy.bits .f32 = 32 ∨ (Rect.block (s := S8x200x50x500) S8x8x50x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x50x1.size a ≤ S8x1x50x1.size a
  hwx0_2 : ∀ i : grid0.Coords, EltTy.bits .i32 = 32 ∨ (Rect.block (s := S8x1x50x1) S8x1x50x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1x1x1.size a ≤ S8x1x1x1.size a
  hwx0_3 : ∀ i : grid0.Coords, EltTy.bits .i32 = 32 ∨ (Rect.block (s := S8x1x1x1) S8x1x1x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1x1x1.size a ≤ S8x1x1x1.size a
  hwx0_4 : ∀ i : grid0.Coords, EltTy.bits .i32 = 32 ∨ (Rect.block (s := S8x1x1x1) S8x1x1x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x8x3x50.size a ≤ S8x200x3x50.size a
  hwx0_5 : ∀ i : grid0.Coords, EltTy.bits .f32 = 32 ∨ (Rect.block (s := S8x200x3x50) S8x8x3x50.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x8x3x50.size a ≤ S8x200x3x50.size a
  hwx0_6 : ∀ i : grid0.Coords, EltTy.bits .f32 = 32 ∨ (Rect.block (s := S8x200x3x50) S8x8x3x50.size (cc0_transform_6 i) (hinb0_6 i)).WholeWords (EltTy.packing .f32)

variable [Facts₀]

abbrev win0_0 : Pipeline.Window sig grid0 :=
  Pipeline.Window.ofSpec (Memref.whole main_arg0) S8x8x50x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8x50x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x50x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x1x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S8x8x3x50.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S8x8x3x50.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x200x50x500 : Shape := ⟨4, ![8, 200, 50, 500]⟩
abbrev S8x50 : Shape := ⟨2, ![8, 50]⟩
abbrev S8 : Shape := ⟨1, ![8]⟩
abbrev S_ : Shape := ⟨0, ![]⟩
abbrev S8x200x50 : Shape := ⟨3, ![8, 200, 50]⟩
abbrev S8x200x50x1 : Shape := ⟨4, ![8, 200, 50, 1]⟩
abbrev S8x1x50x1 : Shape := ⟨4, ![8, 1, 50, 1]⟩
abbrev S8x200x50x1x1 : Shape := ⟨5, ![8, 200, 50, 1, 1]⟩
abbrev S1 : Shape := ⟨1, ![1]⟩
abbrev S1x1x1x1x1 : Shape := ⟨5, ![1, 1, 1, 1, 1]⟩
abbrev S8x200x50x3 : Shape := ⟨4, ![8, 200, 50, 3]⟩
abbrev S200 : Shape := ⟨1, ![200]⟩
abbrev S1x200 : Shape := ⟨2, ![1, 200]⟩
abbrev S8x1 : Shape := ⟨2, ![8, 1]⟩
abbrev S8x200 : Shape := ⟨2, ![8, 200]⟩
abbrev S8x200x1x1 : Shape := ⟨4, ![8, 200, 1, 1]⟩
abbrev S50 : Shape := ⟨1, ![50]⟩
abbrev S1x50 : Shape := ⟨2, ![1, 50]⟩
abbrev S1x8x200x50x3 : Shape := ⟨5, ![1, 8, 200, 50, 3]⟩
abbrev S2x8x200x50x3 : Shape := ⟨5, ![2, 8, 200, 50, 3]⟩

abbrev nBuf : Space → Nat
  | .hbm => 133
  | .vmem => 0
  | .smem => 0
  | _ => 0

abbrev hbmTy0_0 (i : Nat) : BufTy := match i % 128 with
  | 0 => ⟨S8x200x50x500, .f32⟩
  | 1 => ⟨S8x200x50x500, .f32⟩
  | 2 => ⟨S8x50, .i32⟩
  | 3 => ⟨S8, .i32⟩
  | 4 => ⟨S8, .i32⟩
  | 5 => ⟨S_, .f32⟩
  | 6 => ⟨S8x200x50, .f32⟩
  | 7 => ⟨S_, .f32⟩
  | 8 => ⟨S8x200x50, .f32⟩
  | 9 => ⟨S8x200x50, .f32⟩
  | 10 => ⟨S8x200x50x1, .f32⟩
  | 11 => ⟨S8x200x50x500, .f32⟩
  | 12 => ⟨S8x200x50x500, .f32⟩
  | 13 => ⟨S8x200x50x500, .f32⟩
  | 14 => ⟨S_, .f32⟩
  | 15 => ⟨S8x200x50, .f32⟩
  | 16 => ⟨S8x200x50x1, .f32⟩
  | 17 => ⟨S8x200x50x500, .f32⟩
  | 18 => ⟨S8x200x50x500, .f32⟩
  | 19 => ⟨S_, .f32⟩
  | 20 => ⟨S8x200x50, .f32⟩
  | 21 => ⟨S_, .f32⟩
  | 22 => ⟨S8x200x50, .f32⟩
  | 23 => ⟨S8x200x50, .f32⟩
  | 24 => ⟨S8x200x50x1, .f32⟩
  | 25 => ⟨S8x200x50x500, .f32⟩
  | 26 => ⟨S8x200x50x500, .f32⟩
  | 27 => ⟨S8x200x50x500, .f32⟩
  | 28 => ⟨S_, .f32⟩
  | 29 => ⟨S8x200x50, .f32⟩
  | 30 => ⟨S8x200x50x1, .f32⟩
  | 31 => ⟨S8x200x50x500, .f32⟩
  | 32 => ⟨S8x200x50x500, .f32⟩
  | 33 => ⟨S8x1x50x1, .i32⟩
  | 34 => ⟨S8x200x50x1, .i32⟩
  | 35 => ⟨S_, .i32⟩
  | 36 => ⟨S8x200x50x1, .i32⟩
  | 37 => ⟨S8x200x50x1, .i1⟩
  | 38 => ⟨S_, .i32⟩
  | 39 => ⟨S8x200x50x1, .i32⟩
  | 40 => ⟨S8x200x50x1, .i32⟩
  | 41 => ⟨S8x200x50x1, .i32⟩
  | 42 => ⟨S8x200x50x1x1, .i32⟩
  | 43 => ⟨S1, .i32⟩
  | 44 => ⟨S_, .i32⟩
  | 45 => ⟨S8x200x50x1x1, .i32⟩
  | 46 => ⟨S8x200x50x1x1, .i1⟩
  | 47 => ⟨S1x1x1x1x1, .i32⟩
  | 48 => ⟨S8x200x50x1x1, .i32⟩
  | 49 => ⟨S8x200x50x1x1, .i1⟩
  | 50 => ⟨S8x200x50x1x1, .i1⟩
  | 51 => ⟨S_, .i1⟩
  | 52 => ⟨S8x200x50x1, .i1⟩
  | 53 => ⟨S8x200x50x1, .f32⟩
  | 54 => ⟨S_, .f32⟩
  | 55 => ⟨S8x200x50x1, .f32⟩
  | 56 => ⟨S8x200x50x1, .f32⟩
  | 57 => ⟨S_, .i32⟩
  | 58 => ⟨S8x200x50x1, .i32⟩
  | 59 => ⟨S8x200x50x1, .i1⟩
  | 60 => ⟨S_, .i32⟩
  | 61 => ⟨S8x200x50x1, .i32⟩
  | 62 => ⟨S8x200x50x1, .i32⟩
  | 63 => ⟨S8x200x50x1, .i32⟩
  | 64 => ⟨S8x200x50x1x1, .i32⟩
  | 65 => ⟨S1, .i32⟩
  | 66 => ⟨S_, .i32⟩
  | 67 => ⟨S8x200x50x1x1, .i32⟩
  | 68 => ⟨S8x200x50x1x1, .i1⟩
  | 69 => ⟨S1x1x1x1x1, .i32⟩
  | 70 => ⟨S8x200x50x1x1, .i32⟩
  | 71 => ⟨S8x200x50x1x1, .i1⟩
  | 72 => ⟨S8x200x50x1x1, .i1⟩
  | 73 => ⟨S_, .i1⟩
  | 74 => ⟨S8x200x50x1, .i1⟩
  | 75 => ⟨S8x200x50x1, .f32⟩
  | 76 => ⟨S_, .f32⟩
  | 77 => ⟨S8x200x50x1, .f32⟩
  | 78 => ⟨S8x200x50x1, .f32⟩
  | 79 => ⟨S8x200x50x1, .f32⟩
  | 80 => ⟨S8x200x50x1, .f32⟩
  | 81 => ⟨S_, .f32⟩
  | 82 => ⟨S8x200x50x1, .f32⟩
  | 83 => ⟨S8x200x50x1, .f32⟩
  | 84 => ⟨S8x200x50x1, .f32⟩
  | 85 => ⟨S_, .f32⟩
  | 86 => ⟨S8x200x50x1, .f32⟩
  | 87 => ⟨S8x200x50x1, .f32⟩
  | 88 => ⟨S8x200x50x1, .f32⟩
  | 89 => ⟨S_, .f32⟩
  | 90 => ⟨S8x200x50x1, .f32⟩
  | 91 => ⟨S8x200x50x1, .i1⟩
  | 92 => ⟨S_, .f32⟩
  | 93 => ⟨S_, .f32⟩
  | 94 => ⟨S8x200x50x1, .f32⟩
  | 95 => ⟨S8x200x50x1, .f32⟩
  | 96 => ⟨S8x200x50x3, .f32⟩
  | 97 => ⟨S_, .f32⟩
  | 98 => ⟨S_, .f32⟩
  | 99 => ⟨S_, .f32⟩
  | 100 => ⟨S8x200x50x3, .f32⟩
  | 101 => ⟨S8x200x50x3, .f32⟩
  | 102 => ⟨S_, .f32⟩
  | 103 => ⟨S8x200x50x3, .f32⟩
  | 104 => ⟨S8x200x50x3, .f32⟩
  | 105 => ⟨S8x200x50x3, .f32⟩
  | 106 => ⟨S8x200x50x3, .f32⟩
  | 107 => ⟨S200, .i32⟩
  | 108 => ⟨S1x200, .i32⟩
  | 109 => ⟨S8x1, .i32⟩
  | 110 => ⟨S8x200, .i32⟩
  | 111 => ⟨S8x200, .i32⟩
  | 112 => ⟨S8x200, .i1⟩
  | 113 => ⟨S8x200, .f32⟩
  | 114 => ⟨S8x200x1x1, .f32⟩
  | 115 => ⟨S50, .i32⟩
  | 116 => ⟨S1x50, .i32⟩
  | 117 => ⟨S8x1, .i32⟩
  | 118 => ⟨S8x50, .i32⟩
  | 119 => ⟨S8x50, .i32⟩
  | 120 => ⟨S8x50, .i1⟩
  | 121 => ⟨S8x50, .f32⟩
  | 122 => ⟨S8x1x50x1, .f32⟩
  | 123 => ⟨S8x200x50x1, .f32⟩
  | 124 => ⟨S8x200x50x1, .f32⟩
  | 125 => ⟨S8x200x50x1, .f32⟩
  | 126 => ⟨S8x200x50x3, .f32⟩
  | 127 => ⟨S8x200x50x3, .f32⟩
  | _ => ⟨S8x200x50x500, .f32⟩

abbrev hbmTy0_1 (i : Nat) : BufTy := match i % 128 with
  | 0 => ⟨S8x200x50x3, .f32⟩
  | 1 => ⟨S8x200x50x3, .f32⟩
  | 2 => ⟨S1x8x200x50x3, .f32⟩
  | 3 => ⟨S1x8x200x50x3, .f32⟩
  | 4 => ⟨S2x8x200x50x3, .f32⟩
  | _ => ⟨S8x200x50x500, .f32⟩

abbrev hbmTy (i : Nat) : BufTy := match i / 128 with
  | 0 => hbmTy0_0 i
  | 1 => hbmTy0_1 i
  | _ => ⟨S8x200x50x500, .f32⟩

abbrev bufTy : (tb : Table) → Fin (tcTables nBuf tb) → BufTy
  | .hbm, ⟨i, _⟩ => hbmTy i
  | _, _ => ⟨S8x200x50x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_cst : Ref sig .tc := ⟨.hbm, 54, rfl⟩
abbrev main_call0_v14 : Ref sig .tc := ⟨.hbm, 55, rfl⟩
abbrev main_v24 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_5 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst_6 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_7 : Ref sig .tc := ⟨.hbm, 89, rfl⟩
abbrev main_v34 : Ref sig .tc := ⟨.hbm, 90, rfl⟩
abbrev main_v35 : Ref sig .tc := ⟨.hbm, 91, rfl⟩
abbrev main_cst_8 : Ref sig .tc := ⟨.hbm, 92, rfl⟩
abbrev main_call2_v0 : Ref sig .tc := ⟨.hbm, 93, rfl⟩
abbrev main_call2_v1 : Ref sig .tc := ⟨.hbm, 94, rfl⟩
abbrev main_v36 : Ref sig .tc := ⟨.hbm, 95, rfl⟩
abbrev main_v37 : Ref sig .tc := ⟨.hbm, 96, rfl⟩
abbrev main_cst_9 : Ref sig .tc := ⟨.hbm, 97, rfl⟩
abbrev main_cst_10 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩

abbrev nD : Nat := 1
abbrev τ : Topo := Topo.v7x

variable {F : FTy → Type} [FloatOps F]

class Facts₀ : Prop where
  reducesTo_S8x200x50x500_S8x200x50_d3 : S8x200x50x500.ReducesTo [3] S8x200x50
  h_S_ : 0 < S_.numel
  bcast_S_S8x200x50 : S_.BroadcastsInDim S8x200x50 (![] : Fin 0 → Fin S8x200x50.rank)
  bcast_S8x200x50_S8x200x50x1_0_1_2 : S8x200x50.BroadcastsInDim S8x200x50x1 (![0, 1, 2] : Fin 3 → Fin S8x200x50x1.rank)
  bcast_S8x200x50x1_S8x200x50x500_0_1_2_3 : S8x200x50x1.BroadcastsInDim S8x200x50x500 (![0, 1, 2, 3] : Fin 4 → Fin S8x200x50x500.rank)
  bcast_S8x50_S8x1x50x1_0_2 : S8x50.BroadcastsInDim S8x1x50x1 (![0, 2] : Fin 2 → Fin S8x1x50x1.rank)
  bcast_S8x1x50x1_S8x200x50x1_0_1_2_3 : S8x1x50x1.BroadcastsInDim S8x200x50x1 (![0, 1, 2, 3] : Fin 4 → Fin S8x200x50x1.rank)
  bcast_S_S8x200x50x1 : S_.BroadcastsInDim S8x200x50x1 (![] : Fin 0 → Fin S8x200x50x1.rank)
  shapeCasts_S8x200x50x1_S8x200x50x1x1 : S8x200x50x1.ShapeCasts S8x200x50x1x1
  bcast_S_S8x200x50x1x1 : S_.BroadcastsInDim S8x200x50x1x1 (![] : Fin 0 → Fin S8x200x50x1x1.rank)
  bcast_S1_S1x1x1x1x1_4 : S1.BroadcastsInDim S1x1x1x1x1 (![4] : Fin 1 → Fin S1x1x1x1x1.rank)
  bcast_S1x1x1x1x1_S8x200x50x1x1_0_1_2_3_4 : S1x1x1x1x1.BroadcastsInDim S8x200x50x1x1 (![0, 1, 2, 3, 4] : Fin 5 → Fin S8x200x50x1x1.rank)
  reducesTo_S8x200x50x1x1_S8x200x50x1_d4 : S8x200x50x1x1.ReducesTo [4] S8x200x50x1
  slices_S8x200x50x500_S8x200x50x1_0_0_0_0 : S8x200x50x500.Slices ![0, 0, 0, 0] S8x200x50x1
  concatenates_S8x200x50x1_S8x200x50x1_S8x200x50x1_S8x200x50x3_d3 : Shape.Concatenates [S8x200x50x1, S8x200x50x1, S8x200x50x1] S8x200x50x3 3
  bcast_S_S8x200x50x3 : S_.BroadcastsInDim S8x200x50x3 (![] : Fin 0 → Fin S8x200x50x3.rank)
  bcast_S200_S1x200_1 : S200.BroadcastsInDim S1x200 (![1] : Fin 1 → Fin S1x200.rank)
  bcast_S8_S8x1_0 : S8.BroadcastsInDim S8x1 (![0] : Fin 1 → Fin S8x1.rank)
  bcast_S1x200_S8x200_0_1 : S1x200.BroadcastsInDim S8x200 (![0, 1] : Fin 2 → Fin S8x200.rank)
  bcast_S8x1_S8x200_0_1 : S8x1.BroadcastsInDim S8x200 (![0, 1] : Fin 2 → Fin S8x200.rank)
  bcast_S8x200_S8x200x1x1_0_1 : S8x200.BroadcastsInDim S8x200x1x1 (![0, 1] : Fin 2 → Fin S8x200x1x1.rank)
  bcast_S50_S1x50_1 : S50.BroadcastsInDim S1x50 (![1] : Fin 1 → Fin S1x50.rank)
  bcast_S1x50_S8x50_0_1 : S1x50.BroadcastsInDim S8x50 (![0, 1] : Fin 2 → Fin S8x50.rank)
  bcast_S8x1_S8x50_0_1 : S8x1.BroadcastsInDim S8x50 (![0, 1] : Fin 2 → Fin S8x50.rank)
  bcast_S8x200x1x1_S8x200x50x1_0_1_2_3 : S8x200x1x1.BroadcastsInDim S8x200x50x1 (![0, 1, 2, 3] : Fin 4 → Fin S8x200x50x1.rank)
  bcast_S8x200x50x1_S8x200x50x3_0_1_2_3 : S8x200x50x1.BroadcastsInDim S8x200x50x3 (![0, 1, 2, 3] : Fin 4 → Fin S8x200x50x3.rank)
  bcast_S8x200x50x3_S1x8x200x50x3_1_2_3_4 : S8x200x50x3.BroadcastsInDim S1x8x200x50x3 (![1, 2, 3, 4] : Fin 4 → Fin S1x8x200x50x3.rank)
  concatenates_S1x8x200x50x3_S1x8x200x50x3_S2x8x200x50x3_d0 : Shape.Concatenates [S1x8x200x50x3, S1x8x200x50x3] S2x8x200x50x3 0
  gather_S8x200x50x500_S8x200x50x1x1_S8x200x50x1_n_3_012_012_3_4_1111_wf : GatherDims.WF S8x200x50x500 S8x200x50x1x1 S8x200x50x1 [] [3] [0, 1, 2] [3] [0, 1, 2] 4 ![1, 1, 1, 1]

variable [Facts₀]

def gather_S8x200x50x500_S8x200x50x1x1_S8x200x50x1_n_3_012_012_3_4_1111 : GatherDims S8x200x50x500 S8x200x50x1x1 S8x200x50x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S8x200x50x500_S8x200x50x1x1_S8x200x50x1_n_3_012_012_3_4_1111_wf

class Facts : Prop extends Facts₀ where

variable [Facts]
-- ==== Proof.KernelLoopPieces.lean ====
/-
  The pieces the kernel's row loop leaves in its two output blocks.

  The loop runs over the eight batch rows `k`. One trip stores, into each output block, ONE piece: the rows `k` of the
  block (a unit-stride rectangle of shape [1, 8, 3, 50] at offset `k` on the first axis), holding a payload of what the trip
  loaded from the input blocks at rows `k`.  So every piece written before trip `n` is the piece of some trip `k`, and none of them depends on what the blocks held before.
-/
import proofs.«165065_j28913719837048_2_alg».proof.Proof.Gen.Kernel.Loops

set_option maxRecDepth 16384

noncomputable section

namespace Cert.Kernel.LoopPieces

open Idealize.ShloMosaic Idealize.ShloMosaic.TcCoe Idealize.SL.Sem
open Cert.Kernel Cert.Kernel.Gen

variable {F : FTy → Type} [FloatOps F]

/-- The piece trip `k` stores into the student block. -/
def piece5 (i : grid0.Coords) (arg1 : Memref sig .tc .vmem S8x8x50x500 .f32) (arg3 : Memref sig .tc .vmem S8x1x50x1 .i32) (arg4 arg5 : Memref sig .tc .vmem S8x1x1x1 .i32)
    (v4 : IVec S1x1x50 32) (v5 : IVec S1x50x500 32) (X_arg1 : BufTy.Contents (Elt F) arg1.view.ty) (X_arg3 : BufTy.Contents (Elt F) arg3.view.ty)
    (X_arg4 : BufTy.Contents (Elt F) arg4.view.ty) (X_arg5 : BufTy.Contents (Elt F) arg5.view.ty) (k : Fin k0_t1_loop.trips) : View.Piece (Elt F) S8x8x3x50 .f32 :=
  ⟨Rect.unit (k0_off4 k) S1x8x3x50.size (k0_off4_inb k),
    k0_pay10 (k0_pay1 i) v4 (trip_k0_t1.sl.r_1 arg4 X_arg4 k) (trip_k0_t1.sl.r_2 arg5 X_arg5 k) (trip_k0_t1.sl.r_4 arg1 arg3 v5 X_arg1 X_arg3 k)⟩

/-- The piece trip `k` stores into the teacher block. -/
def piece6 (i : grid0.Coords) (arg2 : Memref sig .tc .vmem S8x8x50x500 .f32) (arg3 : Memref sig .tc .vmem S8x1x50x1 .i32) (arg4 arg5 : Memref sig .tc .vmem S8x1x1x1 .i32)
    (v4 : IVec S1x1x50 32) (v5 : IVec S1x50x500 32) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips) : View.Piece (Elt F) S8x8x3x50 .f32 :=
  ⟨Rect.unit (k0_off4 k) S1x8x3x50.size (k0_off4_inb k),
    k0_pay2 (trip_k0_t1.sl.r_5 arg2 arg3 v5 X_arg2 X_arg3 k) (trip_k0_t1.sl.r_6 i arg4 arg5 v4 X_arg4 X_arg5 k)⟩

/-- One trip's pieces, whatever it finds in the blocks it writes: the trip's definition opened, once. -/
theorem tripL_eq (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f6 : BufTy.Contents (Elt F) arg6.view.ty) (f7 : BufTy.Contents (Elt F) arg7.view.ty) :
    tripL_k0_t1 (F := F) 𝒱 c bd i arg1 harg1 arg2 harg2 arg3 harg3 arg4 harg4 arg5 harg5 arg6 harg6 arg7 harg7 v4 v5 X_arg1 X_arg2 X_arg3 X_arg4 X_arg5 k f6 f7
      = ([piece5 i arg1 arg3 arg4 arg5 v4 v5 X_arg1 X_arg3 X_arg4 X_arg5 k], [piece6 i arg2 arg3 arg4 arg5 v4 v5 X_arg2 X_arg3 X_arg4 X_arg5 k]) := by
  unfold tripL_k0_t1 trip_k0_t1
  rfl

/-- So a trip's pieces do not depend on what it finds in the blocks it writes, -/
theorem tripL_indep (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f6 g6 : BufTy.Contents (Elt F) arg6.view.ty) (f7 g7 : BufTy.Contents (Elt F) arg7.view.ty) :
    tripL_k0_t1 (F := F) 𝒱 c bd i arg1 harg1 arg2 harg2 arg3 harg3 arg4 harg4 arg5 harg5 arg6 harg6 arg7 harg7 v4 v5 X_arg1 X_arg2 X_arg3 X_arg4 X_arg5 k f6 f7 = tripL_k0_t1 (F := F) 𝒱 c bd i arg1 harg1 arg2 harg2 arg3 harg3 arg4 harg4 arg5 harg5 arg6 harg6 arg7 harg7 v4 v5 X_arg1 X_arg2 X_arg3 X_arg4 X_arg5 k g6 g7 := by
  rw [tripL_eq, tripL_eq]

/-- nor do the pieces of the trips before `n` depend on what the blocks hold when the loop is entered. -/
theorem pb_indep (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)
    (G6 G6' : BufTy.Contents (Elt F) arg6.view.ty) (G7 G7' : BufTy.Contents (Elt F) arg7.view.ty) :
    ∀ n : ℕ, pb_k0_t1 (F := F) 𝒱 c bd i arg1 harg1 arg2 harg2 arg3 harg3 arg4 harg4 arg5 harg5 arg6 harg6 arg7 harg7 v4 v5 X_arg1 X_arg2 X_arg3 X_arg4 X_arg5 G6 G7 n = pb_k0_t1 (F := F) 𝒱 c bd i arg1 harg1 arg2 harg2 arg3 harg3 arg4 harg4 arg5 harg5 arg6 harg6 arg7 harg7 v4 v5 X_arg1 X_arg2 X_arg3 X_arg4 X_arg5 G6' G7' n
  | 0 => rfl
  | n + 1 => by
    rw [pb_k0_t1.eq_2, pb_k0_t1.eq_2, pb_indep 𝒱 c bd i arg1 harg1 arg2 harg2 arg3 harg3 arg4 harg4 arg5 harg5 arg6 harg6 arg7 harg7 v4 v5 X_arg1 X_arg2 X_arg3 X_arg4 X_arg5 G6 G6' G7 G7' n]
    unfold pb_k0_t1Step
    split
    · rw [tripL_indep 𝒱 c bd i arg1 harg1 arg2 harg2 arg3 harg3 arg4 harg4 arg5 harg5 arg6 harg6 arg7 harg7 v4 v5 X_arg1 X_arg2 X_arg3 X_arg4 X_arg5 _ (arg6.view.writes (Elt F) G6 _) (arg6.view.writes (Elt F) G6' _) (arg7.view.writes (Elt F) G7 _) (arg7.view.writes (Elt F) G7' _)]
    · rfl

/-- Every piece the trips before `n` wrote is some trip's piece: the student block, -/
theorem mem_pb5 (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G6 : BufTy.Contents (Elt F) arg6.view.ty) (G7 : BufTy.Contents (Elt F) arg7.view.ty) :
    ∀ n : ℕ, n ≤ k0_t1_loop.trips → ∀ p ∈ (pb_k0_t1 (F := F) 𝒱 c bd i arg1 harg1 arg2 harg2 arg3 harg3 arg4 harg4 arg5 harg5 arg6 harg6 arg7 harg7 v4 v5 X_arg1 X_arg2 X_arg3 X_arg4 X_arg5 G6 G7 n).1,
      ∃ k : Fin k0_t1_loop.trips, p = piece5 i arg1 arg3 arg4 arg5 v4 v5 X_arg1 X_arg3 X_arg4 X_arg5 k
  | 0, _, p, hp => by
    rw [pb_k0_t1.eq_1] at hp
    exact absurd hp List.not_mem_nil
  | n + 1, hn, p, hp => by
    have h : pb_k0_t1 (F := F) 𝒱 c bd i arg1 harg1 arg2 harg2 arg3 harg3 arg4 harg4 arg5 harg5 arg6 harg6 arg7 harg7 v4 v5 X_arg1 X_arg2 X_arg3 X_arg4 X_arg5 G6 G7 (n + 1) = _ := pb_k0_t1_succ 𝒱 c bd i arg1 harg1 arg2 harg2 arg3 harg3 arg4 harg4 arg5 harg5 arg6 harg6 arg7 harg7 v4 v5 X_arg1 X_arg2 X_arg3 X_arg4 X_arg5 G6 G7 ⟨n, hn⟩
    rw [h, tripL_eq] at hp
    rcases List.mem_append.mp hp with h1 | h2
    · exact ⟨⟨n, hn⟩, List.mem_singleton.mp h1⟩
    · exact mem_pb5 𝒱 c bd i arg1 harg1 arg2 harg2 arg3 harg3 arg4 harg4 arg5 harg5 arg6 harg6 arg7 harg7 v4 v5 X_arg1 X_arg2 X_arg3 X_arg4 X_arg5 G6 G7 n (Nat.le_of_succ_le hn) p h2

/-- and the teacher block. -/
theorem mem_pb6 (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G6 : BufTy.Contents (Elt F) arg6.view.ty) (G7 : BufTy.Contents (Elt F) arg7.view.ty) :
    ∀ n : ℕ, n ≤ k0_t1_loop.trips → ∀ p ∈ (pb_k0_t1 (F := F) 𝒱 c bd i arg1 harg1 arg2 harg2 arg3 harg3 arg4 harg4 arg5 harg5 arg6 harg6 arg7 harg7 v4 v5 X_arg1 X_arg2 X_arg3 X_arg4 X_arg5 G6 G7 n).2,
      ∃ k : Fin k0_t1_loop.trips, p = piece6 i arg2 arg3 arg4 arg5 v4 v5 X_arg2 X_arg3 X_arg4 X_arg5 k
  | 0, _, p, hp => by
    rw [pb_k0_t1.eq_1] at hp
    exact absurd hp List.not_mem_nil
  | n + 1, hn, p, hp => by
    have h : pb_k0_t1 (F := F) 𝒱 c bd i arg1 harg1 arg2 harg2 arg3 harg3 arg4 harg4 arg5 harg5 arg6 harg6 arg7 harg7 v4 v5 X_arg1 X_arg2 X_arg3 X_arg4 X_arg5 G6 G7 (n + 1) = _ := pb_k0_t1_succ 𝒱 c bd i arg1 harg1 arg2 harg2 arg3 harg3 arg4 harg4 arg5 harg5 arg6 harg6 arg7 harg7 v4 v5 X_arg1 X_arg2 X_arg3 X_arg4 X_arg5 G6 G7 ⟨n, hn⟩
    rw [h, tripL_eq] at hp
    rcases List.mem_append.mp hp with h1 | h2
    · exact ⟨⟨n, hn⟩, List.mem_singleton.mp h1⟩
    · exact mem_pb6 𝒱 c bd i arg1 harg1 arg2 harg2 arg3 harg3 arg4 harg4 arg5 harg5 arg6 harg6 arg7 harg7 v4 v5 X_arg1 X_arg2 X_arg3 X_arg4 X_arg5 G6 G7 n (Nat.le_of_succ_le hn) p h2

end Cert.Kernel.LoopPieces

end
-- ==== Proof.LoopPieces.lean ====
/-
  The pieces the kernel's row loop leaves in its two output blocks.

  The loop runs over the eight batch rows `k`. One trip stores, into each output block, ONE piece: the rows `k` of the
  block (a unit-stride rectangle of shape [1, 8, 3, 50] at offset `k` on the first axis), holding a payload of what the trip
  loaded from the input blocks at rows `k`.  So every piece written before trip `n` is the piece of some trip `k`, and none of them depends on what the blocks held before.
-/
import proofs.«165065_j28913719837048_2_alg».proof.Proof.Gen.KernelIdeal.Loops

set_option maxRecDepth 16384

noncomputable section

namespace Cert.KernelIdeal.LoopPieces

open Idealize.ShloMosaic Idealize.ShloMosaic.TcCoe Idealize.SL.Sem
open Cert.KernelIdeal Cert.KernelIdeal.Gen

variable {F : FTy → Type} [FloatOps F]

/-- The piece trip `k` stores into the student block. -/
def piece5 (i : grid0.Coords) (arg1 : Memref sig .tc .vmem S8x8x50x500 .f32) (arg3 : Memref sig .tc .vmem S8x1x50x1 .i32) (arg4 arg5 : Memref sig .tc .vmem S8x1x1x1 .i32)
    (v4 : IVec S1x1x50 32) (v5 : IVec S1x50x500 32) (X_arg1 : BufTy.Contents (Elt F) arg1.view.ty) (X_arg3 : BufTy.Contents (Elt F) arg3.view.ty)
    (X_arg4 : BufTy.Contents (Elt F) arg4.view.ty) (X_arg5 : BufTy.Contents (Elt F) arg5.view.ty) (k : Fin k0_t1_loop.trips) : View.Piece (Elt F) S8x8x3x50 .f32 :=
  ⟨Rect.unit (k0_off4 k) S1x8x3x50.size (k0_off4_inb k),
    k0_pay10 (k0_pay1 i) v4 (trip_k0_t1.sl.r_1 arg4 X_arg4 k) (trip_k0_t1.sl.r_2 arg5 X_arg5 k) (trip_k0_t1.sl.r_4 arg1 arg3 v5 X_arg1 X_arg3 k)⟩

/-- The piece trip `k` stores into the teacher block. -/
def piece6 (i : grid0.Coords) (arg2 : Memref sig .tc .vmem S8x8x50x500 .f32) (arg3 : Memref sig .tc .vmem S8x1x50x1 .i32) (arg4 arg5 : Memref sig .tc .vmem S8x1x1x1 .i32)
    (v4 : IVec S1x1x50 32) (v5 : IVec S1x50x500 32) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (k : Fin k0_t1_loop.trips) : View.Piece (Elt F) S8x8x3x50 .f32 :=
  ⟨Rect.unit (k0_off4 k) S1x8x3x50.size (k0_off4_inb k),
    k0_pay2 (trip_k0_t1.sl.r_5 arg2 arg3 v5 X_arg2 X_arg3 k) (trip_k0_t1.sl.r_6 i arg4 arg5 v4 X_arg4 X_arg5 k)⟩

/-- One trip's pieces, whatever it finds in the blocks it writes: the trip's definition opened, once. -/
theorem tripL_eq (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f6 : BufTy.Contents (Elt F) arg6.view.ty) (f7 : BufTy.Contents (Elt F) arg7.view.ty) :
    tripL_k0_t1 (F := F) 𝒱 c bd i arg1 harg1 arg2 harg2 arg3 harg3 arg4 harg4 arg5 harg5 arg6 harg6 arg7 harg7 v4 v5 X_arg1 X_arg2 X_arg3 X_arg4 X_arg5 k f6 f7
      = ([piece5 i arg1 arg3 arg4 arg5 v4 v5 X_arg1 X_arg3 X_arg4 X_arg5 k], [piece6 i arg2 arg3 arg4 arg5 v4 v5 X_arg2 X_arg3 X_arg4 X_arg5 k]) := by
  unfold tripL_k0_t1 trip_k0_t1
  rfl

/-- So a trip's pieces do not depend on what it finds in the blocks it writes, -/
theorem tripL_indep (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f6 g6 : BufTy.Contents (Elt F) arg6.view.ty) (f7 g7 : BufTy.Contents (Elt F) arg7.view.ty) :
    tripL_k0_t1 (F := F) 𝒱 c bd i arg1 harg1 arg2 harg2 arg3 harg3 arg4 harg4 arg5 harg5 arg6 harg6 arg7 harg7 v4 v5 X_arg1 X_arg2 X_arg3 X_arg4 X_arg5 k f6 f7 = tripL_k0_t1 (F := F) 𝒱 c bd i arg1 harg1 arg2 harg2 arg3 harg3 arg4 harg4 arg5 harg5 arg6 harg6 arg7 harg7 v4 v5 X_arg1 X_arg2 X_arg3 X_arg4 X_arg5 k g6 g7 := by
  rw [tripL_eq, tripL_eq]

/-- nor do the pieces of the trips before `n` depend on what the blocks hold when the loop is entered. -/
theorem pb_indep (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)
    (G6 G6' : BufTy.Contents (Elt F) arg6.view.ty) (G7 G7' : BufTy.Contents (Elt F) arg7.view.ty) :
    ∀ n : ℕ, pb_k0_t1 (F := F) 𝒱 c bd i arg1 harg1 arg2 harg2 arg3 harg3 arg4 harg4 arg5 harg5 arg6 harg6 arg7 harg7 v4 v5 X_arg1 X_arg2 X_arg3 X_arg4 X_arg5 G6 G7 n = pb_k0_t1 (F := F) 𝒱 c bd i arg1 harg1 arg2 harg2 arg3 harg3 arg4 harg4 arg5 harg5 arg6 harg6 arg7 harg7 v4 v5 X_arg1 X_arg2 X_arg3 X_arg4 X_arg5 G6' G7' n
  | 0 => rfl
  | n + 1 => by
    rw [pb_k0_t1.eq_2, pb_k0_t1.eq_2, pb_indep 𝒱 c bd i arg1 harg1 arg2 harg2 arg3 harg3 arg4 harg4 arg5 harg5 arg6 harg6 arg7 harg7 v4 v5 X_arg1 X_arg2 X_arg3 X_arg4 X_arg5 G6 G6' G7 G7' n]
    unfold pb_k0_t1Step
    split
    · rw [tripL_indep 𝒱 c bd i arg1 harg1 arg2 harg2 arg3 harg3 arg4 harg4 arg5 harg5 arg6 harg6 arg7 harg7 v4 v5 X_arg1 X_arg2 X_arg3 X_arg4 X_arg5 _ (arg6.view.writes (Elt F) G6 _) (arg6.view.writes (Elt F) G6' _) (arg7.view.writes (Elt F) G7 _) (arg7.view.writes (Elt F) G7' _)]
    · rfl

/-- Every piece the trips before `n` wrote is some trip's piece: the student block, -/
theorem mem_pb5 (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G6 : BufTy.Contents (Elt F) arg6.view.ty) (G7 : BufTy.Contents (Elt F) arg7.view.ty) :
    ∀ n : ℕ, n ≤ k0_t1_loop.trips → ∀ p ∈ (pb_k0_t1 (F := F) 𝒱 c bd i arg1 harg1 arg2 harg2 arg3 harg3 arg4 harg4 arg5 harg5 arg6 harg6 arg7 harg7 v4 v5 X_arg1 X_arg2 X_arg3 X_arg4 X_arg5 G6 G7 n).1,
      ∃ k : Fin k0_t1_loop.trips, p = piece5 i arg1 arg3 arg4 arg5 v4 v5 X_arg1 X_arg3 X_arg4 X_arg5 k
  | 0, _, p, hp => by
    rw [pb_k0_t1.eq_1] at hp
    exact absurd hp List.not_mem_nil
  | n + 1, hn, p, hp => by
    have h : pb_k0_t1 (F := F) 𝒱 c bd i arg1 harg1 arg2 harg2 arg3 harg3 arg4 harg4 arg5 harg5 arg6 harg6 arg7 harg7 v4 v5 X_arg1 X_arg2 X_arg3 X_arg4 X_arg5 G6 G7 (n + 1) = _ := pb_k0_t1_succ 𝒱 c bd i arg1 harg1 arg2 harg2 arg3 harg3 arg4 harg4 arg5 harg5 arg6 harg6 arg7 harg7 v4 v5 X_arg1 X_arg2 X_arg3 X_arg4 X_arg5 G6 G7 ⟨n, hn⟩
    rw [h, tripL_eq] at hp
    rcases List.mem_append.mp hp with h1 | h2
    · exact ⟨⟨n, hn⟩, List.mem_singleton.mp h1⟩
    · exact mem_pb5 𝒱 c bd i arg1 harg1 arg2 harg2 arg3 harg3 arg4 harg4 arg5 harg5 arg6 harg6 arg7 harg7 v4 v5 X_arg1 X_arg2 X_arg3 X_arg4 X_arg5 G6 G7 n (Nat.le_of_succ_le hn) p h2

/-- and the teacher block. -/
theorem mem_pb6 (𝒱 : Variants) (c : Dev nD) (bd : Option 𝒱.V) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (v4 : IVec S1x1x50 32) (v5 : IVec S1x50x500 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G6 : BufTy.Contents (Elt F) arg6.view.ty) (G7 : BufTy.Contents (Elt F) arg7.view.ty) :
    ∀ n : ℕ, n ≤ k0_t1_loop.trips → ∀ p ∈ (pb_k0_t1 (F := F) 𝒱 c bd i arg1 harg1 arg2 harg2 arg3 harg3 arg4 harg4 arg5 harg5 arg6 harg6 arg7 harg7 v4 v5 X_arg1 X_arg2 X_arg3 X_arg4 X_arg5 G6 G7 n).2,
      ∃ k : Fin k0_t1_loop.trips, p = piece6 i arg2 arg3 arg4 arg5 v4 v5 X_arg2 X_arg3 X_arg4 X_arg5 k
  | 0, _, p, hp => by
    rw [pb_k0_t1.eq_1] at hp
    exact absurd hp List.not_mem_nil
  | n + 1, hn, p, hp => by
    have h : pb_k0_t1 (F := F) 𝒱 c bd i arg1 harg1 arg2 harg2 arg3 harg3 arg4 harg4 arg5 harg5 arg6 harg6 arg7 harg7 v4 v5 X_arg1 X_arg2 X_arg3 X_arg4 X_arg5 G6 G7 (n + 1) = _ := pb_k0_t1_succ 𝒱 c bd i arg1 harg1 arg2 harg2 arg3 harg3 arg4 harg4 arg5 harg5 arg6 harg6 arg7 harg7 v4 v5 X_arg1 X_arg2 X_arg3 X_arg4 X_arg5 G6 G7 ⟨n, hn⟩
    rw [h, tripL_eq] at hp
    rcases List.mem_append.mp hp with h1 | h2
    · exact ⟨⟨n, hn⟩, List.mem_singleton.mp h1⟩
    · exact mem_pb6 𝒱 c bd i arg1 harg1 arg2 harg2 arg3 harg3 arg4 harg4 arg5 harg5 arg6 harg6 arg7 harg7 v4 v5 X_arg1 X_arg2 X_arg3 X_arg4 X_arg5 G6 G7 n (Nat.le_of_succ_le hn) p h2

end Cert.KernelIdeal.LoopPieces

end
-- ==== Proof.LoopValue.lean ====
/-
  What the kernel body leaves in its two output blocks, read at one element.

  The body's row loop writes, at trip `k`, rows `k` of each output block with a payload of rows `k` of the input blocks.
  The pieces tile the block, so the block read back at (n, tt, kk, u) is the payload of trip `n` at (0, tt, kk, u).
-/
import proofs.«165065_j28913719837048_2_alg».proof.Proof.KernelIdealFrameP
import proofs.«165065_j28913719837048_2_alg».proof.Proof.LoopPieces
import Idealize.ShloMosaic.Lib.Pipeline.Value
import Idealize.ShloMosaic.Lib.ValueIdx

set_option maxRecDepth 16384

noncomputable section

namespace Cert.KernelIdeal.LoopValue

open Idealize.ShloMosaic Idealize.ShloMosaic.TcCoe Idealize.ShloMosaic.ValueIdx Idealize.SL.Sem
open Cert.KernelIdeal Cert.KernelIdeal.Gen Cert.KernelIdeal.GenP Cert.KernelIdeal.LoopPieces

variable {F : FTy → Type} [FloatOps F]

/-- The loop has eight trips. -/
theorem trips_eq : k0_t1_loop.trips = 8 := by decide

/-- Trip `k` addresses row `k` of every buffer it touches, at zero offsets on the other axes. -/
theorem off1_eq : ∀ (k : Fin k0_t1_loop.trips) (a : Fin 4), k0_off1 k a = (![k.val, 0, 0, 0] : Fin 4 → Nat) a := by decide +kernel
theorem off2_eq : ∀ (k : Fin k0_t1_loop.trips) (a : Fin 4), k0_off2 k a = (![k.val, 0, 0, 0] : Fin 4 → Nat) a := by decide +kernel
theorem off3_eq : ∀ (k : Fin k0_t1_loop.trips) (a : Fin 4), k0_off3 k a = (![k.val, 0, 0, 0] : Fin 4 → Nat) a := by decide +kernel
theorem off4_eq : ∀ (k : Fin k0_t1_loop.trips) (a : Fin 4), k0_off4 k a = (![k.val, 0, 0, 0] : Fin 4 → Nat) a := by decide +kernel

/-- The two coordinate vectors the body builds before the loop: the label position along the last axis of [1,1,50], and
    the vocabulary entry along the last axis of [1,50,500]. -/
abbrev iotaU : IVec S1x1x50 32 := iota .tc S1x1x50 32 [2] iota_S1x1x50_d2_w32
abbrev iotaV : IVec S1x50x500 32 := iota .tc S1x50x500 32 [2] iota_S1x50x500_d2_w32

/-- The rows `k` of the four kinds of input block, as the trip loads them. -/
abbrev rows1 (x : Vec F S8x8x50x500 .f32) (k : Fin k0_t1_loop.trips) : Vec F S1x8x50x500 .f32 :=
  View.ld x (Rect.unit (k0_off1 k) S1x8x50x500.size (k0_off1_inb k))
abbrev rows2 (x : Vec F S8x1x50x1 .i32) (k : Fin k0_t1_loop.trips) : Vec F S1x1x50x1 .i32 :=
  View.ld x (Rect.unit (k0_off2 k) S1x1x50x1.size (k0_off2_inb k))
abbrev rows3 (x : Vec F S8x1x1x1 .i32) (k : Fin k0_t1_loop.trips) : Vec F S1x1x1x1 .i32 :=
  View.ld x (Rect.unit (k0_off3 k) S1x1x1x1.size (k0_off3_inb k))

/-- The student payload of trip `k`, of whole input blocks. -/
def pay5 (i : grid0.Coords) (x0 : Vec F S8x8x50x500 .f32) (x2 : Vec F S8x1x50x1 .i32) (x3 x4 : Vec F S8x1x1x1 .i32)
    (k : Fin k0_t1_loop.trips) : FVec F S1x8x3x50 .f32 :=
  k0_pay10 (k0_pay1 i) iotaU (k0_pay4 (rows3 x3 k)) (k0_pay5 (rows3 x4 k)) (k0_pay7 iotaV (rows1 x0 k) (rows2 x2 k))

/-- The teacher payload of trip `k`, of whole input blocks. -/
def pay6 (i : grid0.Coords) (x1 : Vec F S8x8x50x500 .f32) (x2 : Vec F S8x1x50x1 .i32) (x3 x4 : Vec F S8x1x1x1 .i32)
    (k : Fin k0_t1_loop.trips) : FVec F S1x8x3x50 .f32 :=
  k0_pay2 (k0_pay8 (k0_pay3 (rows1 x1 k)) (k0_pay6 iotaV (rows2 x2 k))) (k0_pay11 (k0_pay1 i) iotaU (k0_pay4 (rows3 x3 k)) (k0_pay5 (rows3 x4 k)))

/-- Every piece the body leaves in the student block is some trip's rows, holding that trip's payload. -/
theorem run_piece5 (c : Dev nD) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (x0 : Vec F S8x8x50x500 .f32) (x1 : Vec F S8x8x50x500 .f32) (x2 : Vec F S8x1x50x1 .i32) (x3 : Vec F S8x1x1x1 .i32) (x4 : Vec F S8x1x1x1 .i32) :
    ∀ p ∈ (kernelRun0_A c i arg1 harg1 arg2 harg2 arg3 harg3 arg4 harg4 arg5 harg5 arg6 harg6 arg7 harg7 x0 x1 x2 x3 x4).1,
      ∃ k : Fin k0_t1_loop.trips, p = ⟨Rect.unit (k0_off4 k) S1x8x3x50.size (k0_off4_inb k), pay5 i x0 x2 x3 x4 k⟩ := by
  intro p hp
  unfold kernelRun0_A at hp
  dsimp only at hp
  obtain ⟨k, rfl⟩ := mem_pb5 _ _ _ _ _ _ _ _ _ _ _ _ _ _ _ _ _ _ _ _ _ _ _ _ _ _ _ _ (le_refl _) p hp
  refine ⟨k, ?_⟩
  unfold piece5 pay5 trip_k0_t1.sl.r_1 trip_k0_t1.sl.r_2 trip_k0_t1.sl.r_4 kernelRun0_A.sl.v4 kernelRun0_A.sl.v5
  simp only [View.readAt_eq_ld, harg1.read_unread, harg3.read_unread, harg4.read_unread, harg5.read_unread]

/-- The same of the teacher block. -/
theorem run_piece6 (c : Dev nD) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (x0 : Vec F S8x8x50x500 .f32) (x1 : Vec F S8x8x50x500 .f32) (x2 : Vec F S8x1x50x1 .i32) (x3 : Vec F S8x1x1x1 .i32) (x4 : Vec F S8x1x1x1 .i32) :
    ∀ p ∈ (kernelRun0_A c i arg1 harg1 arg2 harg2 arg3 harg3 arg4 harg4 arg5 harg5 arg6 harg6 arg7 harg7 x0 x1 x2 x3 x4).2.1,
      ∃ k : Fin k0_t1_loop.trips, p = ⟨Rect.unit (k0_off4 k) S1x8x3x50.size (k0_off4_inb k), pay6 i x1 x2 x3 x4 k⟩ := by
  intro p hp
  unfold kernelRun0_A at hp
  dsimp only at hp
  obtain ⟨k, rfl⟩ := mem_pb6 _ _ _ _ _ _ _ _ _ _ _ _ _ _ _ _ _ _ _ _ _ _ _ _ _ _ _ _ (le_refl _) p hp
  refine ⟨k, ?_⟩
  unfold piece6 pay6 trip_k0_t1.sl.r_5 trip_k0_t1.sl.r_6 trip_k0_t1.sl.r trip_k0_t1.sl.r_3 trip_k0_t1.sl.r_1 trip_k0_t1.sl.r_2 kernelRun0_A.sl.v4 kernelRun0_A.sl.v5
  simp only [View.readAt_eq_ld, harg2.read_unread, harg3.read_unread, harg4.read_unread, harg5.read_unread]

/-- The one function of the block's index that every piece is a restriction of: at (n, tt, kk, u), trip `n`'s payload at
    (0, tt, kk, u). -/
def whole (pay : Fin k0_t1_loop.trips → FVec F S1x8x3x50 .f32) : S8x8x3x50.Idx → F .f32 := fun y =>
  pay (Fin.cast trips_eq.symm ⟨(y 0).val, (y 0).isLt⟩)
    (ix4 (0 : Fin 1) (⟨(y 1).val, (y 1).isLt⟩ : Fin 8) (⟨(y 2).val, (y 2).isLt⟩ : Fin 3) (⟨(y 3).val, (y 3).isLt⟩ : Fin 50))

/-- Trip `k`'s rows of the block hold `whole pay` there. -/
theorem piece_is_whole (pay : Fin k0_t1_loop.trips → FVec F S1x8x3x50 .f32) (k : Fin k0_t1_loop.trips)
    (x : (Rect.unit (s := S8x8x3x50) (k0_off4 k) S1x8x3x50.size (k0_off4_inb k)).shape.Idx) :
    pay k x = whole pay ((Rect.unit (s := S8x8x3x50) (k0_off4 k) S1x8x3x50.size (k0_off4_inb k)).emb x) := by
  unfold whole
  have h0 : (x 0).val = 0 := by
    have h := (x 0).isLt
    change (x 0).val < 1 at h
    omega
  have hk : (Fin.cast trips_eq.symm ⟨(((Rect.unit (s := S8x8x3x50) (k0_off4 k) S1x8x3x50.size (k0_off4_inb k)).emb x) 0).val,
      (((Rect.unit (s := S8x8x3x50) (k0_off4 k) S1x8x3x50.size (k0_off4_inb k)).emb x) 0).isLt⟩ : Fin k0_t1_loop.trips) = k := by
    apply Fin.ext
    show k0_off4 k 0 + 1 * (x 0).val = k.val
    rw [off4_eq k 0, h0]; show k.val + 1 * 0 = k.val; omega
  rw [hk]
  refine congrArg (pay k) (funext fun a => Fin.ext ?_)
  match a with
  | ⟨0, _⟩ => exact h0
  | ⟨1, _⟩ => show (x 1).val = k0_off4 k 1 + 1 * (x 1).val; rw [off4_eq k 1]; show (x 1).val = 0 + 1 * (x 1).val; omega
  | ⟨2, _⟩ => show (x 2).val = k0_off4 k 2 + 1 * (x 2).val; rw [off4_eq k 2]; show (x 2).val = 0 + 1 * (x 2).val; omega
  | ⟨3, _⟩ => show (x 3).val = k0_off4 k 3 + 1 * (x 3).val; rw [off4_eq k 3]; show (x 3).val = 0 + 1 * (x 3).val; omega

/-- THE STUDENT BLOCK after the body: trip `n`'s payload at each (n, ·). -/
theorem out5_eq (c : Dev nD) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (x0 : Vec F S8x8x50x500 .f32) (x1 : Vec F S8x8x50x500 .f32) (x2 : Vec F S8x1x50x1 .i32) (x3 : Vec F S8x1x1x1 .i32) (x4 : Vec F S8x1x1x1 .i32) : out0_A_5 c i arg1 harg1 arg2 harg2 arg3 harg3 arg4 harg4 arg5 harg5 arg6 harg6 arg7 harg7 x0 x1 x2 x3 x4 = whole (pay5 i x0 x2 x3 x4) := by
  unfold out0_A_5
  rw [View.read_writes_eq_canon _ _ _ (cover0_A_5 c i arg1 harg1 arg2 harg2 arg3 harg3 arg4 harg4 arg5 harg5 arg6 harg6 arg7 harg7 x0 x1 x2 x3 x4)]
  funext y
  refine View.canon_apply_of_pieces (whole (pay5 i x0 x2 x3 x4)) _ (fun p hp x => ?_) y (cover0_A_5 c i arg1 harg1 arg2 harg2 arg3 harg3 arg4 harg4 arg5 harg5 arg6 harg6 arg7 harg7 x0 x1 x2 x3 x4 y)
  obtain ⟨k, rfl⟩ := run_piece5 c i arg1 harg1 arg2 harg2 arg3 harg3 arg4 harg4 arg5 harg5 arg6 harg6 arg7 harg7 x0 x1 x2 x3 x4 p hp
  exact piece_is_whole (pay5 i x0 x2 x3 x4) k x

/-- THE TEACHER BLOCK after the body. -/
theorem out6_eq (c : Dev nD) (i : grid0.Coords) (arg1 : Memref sig .tc .vmem S8x8x50x500 .f32) (harg1 : arg1.IsWhole) (arg2 : Memref sig .tc .vmem S8x8x50x500 .f32) (harg2 : arg2.IsWhole) (arg3 : Memref sig .tc .vmem S8x1x50x1 .i32) (harg3 : arg3.IsWhole) (arg4 : Memref sig .tc .vmem S8x1x1x1 .i32) (harg4 : arg4.IsWhole) (arg5 : Memref sig .tc .vmem S8x1x1x1 .i32) (harg5 : arg5.IsWhole) (arg6 : Memref sig .tc .vmem S8x8x3x50 .f32) (harg6 : arg6.IsWhole) (arg7 : Memref sig .tc .vmem S8x8x3x50 .f32) (harg7 : arg7.IsWhole) (x0 : Vec F S8x8x50x500 .f32) (x1 : Vec F S8x8x50x500 .f32) (x2 : Vec F S8x1x50x1 .i32) (x3 : Vec F S8x1x1x1 .i32) (x4 : Vec F S8x1x1x1 .i32) : out0_A_6 c i arg1 harg1 arg2 harg2 arg3 harg3 arg4 harg4 arg5 harg5 arg6 harg6 arg7 harg7 x0 x1 x2 x3 x4 = whole (pay6 i x1 x2 x3 x4) := by
  unfold out0_A_6
  rw [View.read_writes_eq_canon _ _ _ (cover0_A_6 c i arg1 harg1 arg2 harg2 arg3 harg3 arg4 harg4 arg5 harg5 arg6 harg6 arg7 harg7 x0 x1 x2 x3 x4)]
  funext y
  refine View.canon_apply_of_pieces (whole (pay6 i x1 x2 x3 x4)) _ (fun p hp x => ?_) y (cover0_A_6 c i arg1 harg1 arg2 harg2 arg3 harg3 arg4 harg4 arg5 harg5 arg6 harg6 arg7 harg7 x0 x1 x2 x3 x4 y)
  obtain ⟨k, rfl⟩ := run_piece6 c i arg1 harg1 arg2 harg2 arg3 harg3 arg4 harg4 arg5 harg5 arg6 harg6 arg7 harg7 x0 x1 x2 x3 x4 p hp
  exact piece_is_whole (pay6 i x1 x2 x3 x4) k x

end Cert.KernelIdeal.LoopValue

end
-- ==== Proof.BlockRead.lean ====
/-
  The input blocks the body loads, read at one element in terms of the argument arrays.

  Grid point `t` stages frames [8t, 8t+8) of the two logit arrays (all batch rows, all label positions, the whole
  vocabulary) and the whole label / length arrays, which the host has reshaped from [8,50] to [8,1,50,1] and from [8] to
  [8,1,1,1].  Trip `k` of the body then loads batch row `k` of each.  So row `k`'s element (0, tt, u, v) of the staged logits
  is the array's element (k, 8t + tt, u, v); its label at position u is y[k, u]; its two length words are x_lens[k], y_lens[k].
-/
import proofs.«165065_j28913719837048_2_alg».proof.Proof.LoopValue
import Idealize.ShloMosaic.Lib.StableHlo.Run

set_option maxRecDepth 16384

noncomputable section

namespace Cert.KernelIdeal.BlockRead

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.LoopValue

variable {F : FTy → Type} [FloatOps F]
variable (m : (ℓ : Loc nD τ sig) → Buf (Elt F) ℓ)

/-- The grid has 25 points; point `t`'s one coordinate is `t`. -/
theorem coords_val : ∀ t : Fin cfg0.N, (grid0.coords t 0).val = t.val := (by decide +kernel : ∀ t : Fin grid0.N, _)

/-- The printed index maps over the grid: the logit windows move along the frame axis with the point; the label and
    length windows do not move. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = 0 ∧ win0_2.index t (2 : Fin 4) = 0 ∧ win0_2.index t (3 : Fin 4) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 4) = 0 ∧ win0_4.index t (1 : Fin 4) = 0 ∧ win0_4.index t (2 : Fin 4) = 0 ∧ win0_4.index t (3 : Fin 4) = 0)
    ∧ (win0_5.index t (0 : Fin 4) = 0 ∧ win0_5.index t (1 : Fin 4) = t.val ∧ win0_5.index t (2 : Fin 4) = 0 ∧ win0_5.index t (3 : Fin 4) = 0)
    ∧ (win0_6.index t (0 : Fin 4) = 0 ∧ win0_6.index t (1 : Fin 4) = t.val ∧ win0_6.index t (2 : Fin 4) = 0 ∧ win0_6.index t (3 : Fin 4) = 0) :=
  (by decide +kernel : ∀ t : Fin grid0.N, _)

/-- The frame a staged row `tt` of point `t` is. -/
def frameOf (t : Fin cfg0.N) (tt : Fin 8) : Fin 200 := ⟨t.val * 8 + tt.val, by
  have h := t.isLt
  have e : cfg0.N = 25 := N_0
  have := tt.isLt; omega⟩

/-- Row `k` of the staged student logits at (0, tt, u, v) is the array at (k, 8t + tt, u, v). -/
theorem logits_read (c : Dev nD) (t : Fin cfg0.N) (k : Fin k0_t1_loop.trips) (tt : Fin 8) (u : Fin 50) (v : Fin 500) :
    rows1 (F := F) (iblk m c 0 t) k (ix4 (0 : Fin 1) tt u v)
      = m ((c : Thread nD τ).loc main_arg0) (ix4 (Fin.cast trips_eq k) (frameOf t tt) u v) := by
  show V m c main_arg0 (((cfg0.win 0).blk t).view.emb ((Rect.unit (s := S8x8x50x500) (k0_off1 k) S1x8x50x500.size (k0_off1_inb k)).idx (ix4 (0 : Fin 1) tt u v))) = _
  rw [V_main_arg0]
  obtain ⟨⟨e0, e1, e2, e3⟩, -⟩ := idx_facts t
  refine congrArg _ (funext fun a => Fin.ext ?_)
  match a with
  | ⟨0, _⟩ => show win0_0.index t (0 : Fin 4) * 8 + 1 * (k0_off1 k 0 + 1 * 0) = k.val; rw [e0, off1_eq k 0]; show 0 * 8 + 1 * (k.val + 1 * 0) = k.val; omega
  | ⟨1, _⟩ => show win0_0.index t (1 : Fin 4) * 8 + 1 * (k0_off1 k 1 + 1 * tt.val) = t.val * 8 + tt.val; rw [e1, off1_eq k 1]; show t.val * 8 + 1 * (0 + 1 * tt.val) = t.val * 8 + tt.val; omega
  | ⟨2, _⟩ => show win0_0.index t (2 : Fin 4) * 50 + 1 * (k0_off1 k 2 + 1 * u.val) = u.val; rw [e2, off1_eq k 2]; show 0 * 50 + 1 * (0 + 1 * u.val) = u.val; omega
  | ⟨3, _⟩ => show win0_0.index t (3 : Fin 4) * 500 + 1 * (k0_off1 k 3 + 1 * v.val) = v.val; rw [e3, off1_eq k 3]; show 0 * 500 + 1 * (0 + 1 * v.val) = v.val; omega

/-- The same of the staged teacher logits. -/
theorem teacher_read (c : Dev nD) (t : Fin cfg0.N) (k : Fin k0_t1_loop.trips) (tt : Fin 8) (u : Fin 50) (v : Fin 500) :
    rows1 (F := F) (iblk m c 1 t) k (ix4 (0 : Fin 1) tt u v)
      = m ((c : Thread nD τ).loc main_arg1) (ix4 (Fin.cast trips_eq k) (frameOf t tt) u v) := by
  show V m c main_arg1 (((cfg0.win 1).blk t).view.emb ((Rect.unit (s := S8x8x50x500) (k0_off1 k) S1x8x50x500.size (k0_off1_inb k)).idx (ix4 (0 : Fin 1) tt u v))) = _
  rw [V_main_arg1]
  obtain ⟨-, ⟨e0, e1, e2, e3⟩, -⟩ := idx_facts t
  refine congrArg _ (funext fun a => Fin.ext ?_)
  match a with
  | ⟨0, _⟩ => show win0_1.index t (0 : Fin 4) * 8 + 1 * (k0_off1 k 0 + 1 * 0) = k.val; rw [e0, off1_eq k 0]; show 0 * 8 + 1 * (k.val + 1 * 0) = k.val; omega
  | ⟨1, _⟩ => show win0_1.index t (1 : Fin 4) * 8 + 1 * (k0_off1 k 1 + 1 * tt.val) = t.val * 8 + tt.val; rw [e1, off1_eq k 1]; show t.val * 8 + 1 * (0 + 1 * tt.val) = t.val * 8 + tt.val; omega
  | ⟨2, _⟩ => show win0_1.index t (2 : Fin 4) * 50 + 1 * (k0_off1 k 2 + 1 * u.val) = u.val; rw [e2, off1_eq k 2]; show 0 * 50 + 1 * (0 + 1 * u.val) = u.val; omega
  | ⟨3, _⟩ => show win0_1.index t (3 : Fin 4) * 500 + 1 * (k0_off1 k 3 + 1 * v.val) = v.val; rw [e3, off1_eq k 3]; show 0 * 500 + 1 * (0 + 1 * v.val) = v.val; omega

/-- What the region finds in the three reshaped arrays: the argument arrays, reshaped. -/
theorem V_labels (c : Dev nD) :
    V m c main_v0 = shapeCast S8x1x50x1 (m ((c : Thread nD τ).loc main_arg2)) shapeCasts_S8x50_S8x1x50x1 := by
  show StableHlo.after hostOps0 (fun b => m (c, b)) (Proc.devRef .tc main_v0) = _
  after_results
  rfl
theorem V_xlens (c : Dev nD) :
    V m c main_v1 = shapeCast S8x1x1x1 (m ((c : Thread nD τ).loc main_arg3)) shapeCasts_S8_S8x1x1x1 := by
  show StableHlo.after hostOps0 (fun b => m (c, b)) (Proc.devRef .tc main_v1) = _
  after_results
  rfl
theorem V_ylens (c : Dev nD) :
    V m c main_v2 = shapeCast S8x1x1x1 (m ((c : Thread nD τ).loc main_arg4)) shapeCasts_S8_S8x1x1x1 := by
  show StableHlo.after hostOps0 (fun b => m (c, b)) (Proc.devRef .tc main_v2) = _
  after_results
  rfl

/-- Row `k`'s label at position `u` is y[k, u]. -/
theorem labels_read (c : Dev nD) (t : Fin cfg0.N) (k : Fin k0_t1_loop.trips) (u : Fin 50) :
    rows2 (F := F) (iblk m c 2 t) k (ix4 (0 : Fin 1) (0 : Fin 1) u (0 : Fin 1))
      = m ((c : Thread nD τ).loc main_arg2) (ix2 (Fin.cast trips_eq k) u) := by
  show V m c main_v0 (((cfg0.win 2).blk t).view.emb ((Rect.unit (s := S8x1x50x1) (k0_off2 k) S1x1x50x1.size (k0_off2_inb k)).idx (ix4 (0 : Fin 1) (0 : Fin 1) u (0 : Fin 1)))) = _
  rw [V_labels]
  obtain ⟨-, -, ⟨e0, e1, e2, e3⟩, -⟩ := idx_facts t
  refine shapeCast_apply _ _ _ (ix2 (Fin.cast trips_eq k) u) ?_
  rw [Shape.rowMajor_val_two, Shape.rowMajor_val_four]
  show k.val * 50 + u.val
    = (((win0_2.index t (0 : Fin 4) * 8 + 1 * (k0_off2 k 0 + 1 * 0)) * 1 + (win0_2.index t (1 : Fin 4) * 1 + 1 * (k0_off2 k 1 + 1 * 0))) * 50
        + (win0_2.index t (2 : Fin 4) * 50 + 1 * (k0_off2 k 2 + 1 * u.val))) * 1 + (win0_2.index t (3 : Fin 4) * 1 + 1 * (k0_off2 k 3 + 1 * 0))
  rw [e0, e1, e2, e3, off2_eq k 0, off2_eq k 1, off2_eq k 2, off2_eq k 3]
  show k.val * 50 + u.val = (((0 * 8 + 1 * (k.val + 1 * 0)) * 1 + (0 * 1 + 1 * (0 + 1 * 0))) * 50 + (0 * 50 + 1 * (0 + 1 * u.val))) * 1 + (0 * 1 + 1 * (0 + 1 * 0))
  omega

/-- Row `k`'s frame-count word is x_lens[k]. -/
theorem xlen_read (c : Dev nD) (t : Fin cfg0.N) (k : Fin k0_t1_loop.trips) :
    rows3 (F := F) (iblk m c 3 t) k (ix4 (0 : Fin 1) (0 : Fin 1) (0 : Fin 1) (0 : Fin 1))
      = m ((c : Thread nD τ).loc main_arg3) (ix1 (Fin.cast trips_eq k)) := by
  show V m c main_v1 (((cfg0.win 3).blk t).view.emb ((Rect.unit (s := S8x1x1x1) (k0_off3 k) S1x1x1x1.size (k0_off3_inb k)).idx (ix4 (0 : Fin 1) (0 : Fin 1) (0 : Fin 1) (0 : Fin 1)))) = _
  rw [V_xlens]
  obtain ⟨-, -, -, ⟨e0, e1, e2, e3⟩, -⟩ := idx_facts t
  refine shapeCast_apply _ _ _ (ix1 (Fin.cast trips_eq k)) ?_
  rw [Shape.rowMajor_val_one, Shape.rowMajor_val_four]
  show k.val
    = (((win0_3.index t (0 : Fin 4) * 8 + 1 * (k0_off3 k 0 + 1 * 0)) * 1 + (win0_3.index t (1 : Fin 4) * 1 + 1 * (k0_off3 k 1 + 1 * 0))) * 1
        + (win0_3.index t (2 : Fin 4) * 1 + 1 * (k0_off3 k 2 + 1 * 0))) * 1 + (win0_3.index t (3 : Fin 4) * 1 + 1 * (k0_off3 k 3 + 1 * 0))
  rw [e0, e1, e2, e3, off3_eq k 0, off3_eq k 1, off3_eq k 2, off3_eq k 3]
  show k.val = (((0 * 8 + 1 * (k.val + 1 * 0)) * 1 + (0 * 1 + 1 * (0 + 1 * 0))) * 1 + (0 * 1 + 1 * (0 + 1 * 0))) * 1 + (0 * 1 + 1 * (0 + 1 * 0))
  omega

/-- Row `k`'s label-count word is y_lens[k]. -/
theorem ylen_read (c : Dev nD) (t : Fin cfg0.N) (k : Fin k0_t1_loop.trips) :
    rows3 (F := F) (iblk m c 4 t) k (ix4 (0 : Fin 1) (0 : Fin 1) (0 : Fin 1) (0 : Fin 1))
      = m ((c : Thread nD τ).loc main_arg4) (ix1 (Fin.cast trips_eq k)) := by
  show V m c main_v2 (((cfg0.win 4).blk t).view.emb ((Rect.unit (s := S8x1x1x1) (k0_off3 k) S1x1x1x1.size (k0_off3_inb k)).idx (ix4 (0 : Fin 1) (0 : Fin 1) (0 : Fin 1) (0 : Fin 1)))) = _
  rw [V_ylens]
  obtain ⟨-, -, -, -, ⟨e0, e1, e2, e3⟩, -⟩ := idx_facts t
  refine shapeCast_apply _ _ _ (ix1 (Fin.cast trips_eq k)) ?_
  rw [Shape.rowMajor_val_one, Shape.rowMajor_val_four]
  show k.val
    = (((win0_4.index t (0 : Fin 4) * 8 + 1 * (k0_off3 k 0 + 1 * 0)) * 1 + (win0_4.index t (1 : Fin 4) * 1 + 1 * (k0_off3 k 1 + 1 * 0))) * 1
        + (win0_4.index t (2 : Fin 4) * 1 + 1 * (k0_off3 k 2 + 1 * 0))) * 1 + (win0_4.index t (3 : Fin 4) * 1 + 1 * (k0_off3 k 3 + 1 * 0))
  rw [e0, e1, e2, e3, off3_eq k 0, off3_eq k 1, off3_eq k 2, off3_eq k 3]
  show k.val = (((0 * 8 + 1 * (k.val + 1 * 0)) * 1 + (0 * 1 + 1 * (0 + 1 * 0))) * 1 + (0 * 1 + 1 * (0 + 1 * 0))) * 1 + (0 * 1 + 1 * (0 + 1 * 0))
  omega

end Cert.KernelIdeal.BlockRead

end
-- ==== Proof.PayLayout.lean ====
/-
  The layout operations the kernel body applies around its arithmetic, each read at explicit coordinates of the
  literal shapes: the keepdims column forms [8,50] → [8,50,1] → [8,50,500], the row block [1,50,500] repeated over
  the eight frames, the reduced index (t, u) with the vocabulary coordinate put back, the first-column slice, the
  three-piece concatenation along axis 1, and the broadcasts that assemble the validity mask.
-/
import proofs.«165065_j28913719837048_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

variable {α : Type}

/-! ## Keepdims columns -/

/-- An [8,50] array cast to [8,50,1] reads, at (t, u, z), the operand at (t, u). -/
theorem col_of_mat (r : S8x50.Idx → α) (h : S8x50.ShapeCasts S8x50x1) (tt : Fin 8) (u : Fin 50) (z : Fin 1) :
    shapeCast S8x50x1 r h (ix3 tt u z) = r (ix2 tt u) :=
  shapeCast_apply r h _ _ (by
    have hz : z.val = 0 := by omega
    rw [Shape.rowMajor_val_two, Shape.rowMajor_val_three]
    show tt.val * 50 + u.val = (tt.val * 50 + u.val) * 1 + z.val
    omega)

/-- An [8,50,1] column broadcast to [8,50,500] reads, at (t, u, v), the column at (t, u, 0). -/
theorem bcast_col (c : S8x50x1.Idx → α) (h : S8x50x1.Broadcasts S8x50x500) (tt : Fin 8) (u : Fin 50) (v : Fin 500) :
    broadcastTo S8x50x500 c h (ix3 tt u v) = c (ix3 tt u (0 : Fin 1)) := by
  refine broadcastTo_apply c h (ix3 tt u v) (ix3 tt u (0 : Fin 1)) fun ax => ?_
  match ax with
  | ⟨0, _⟩ => rfl
  | ⟨1, _⟩ => rfl
  | ⟨2, _⟩ => rfl

/-- A [1,50,500] block broadcast to [8,50,500] reads, at (t, u, v), the block at (0, u, v). -/
theorem bcast_rows (y : S1x50x500.Idx → α) (h : S1x50x500.Broadcasts S8x50x500) (tt : Fin 8) (u : Fin 50) (v : Fin 500) :
    broadcastTo S8x50x500 y h (ix3 tt u v) = y (ix3 (0 : Fin 1) u v) := by
  refine broadcastTo_apply y h (ix3 tt u v) (ix3 (0 : Fin 1) u v) fun ax => ?_
  match ax with
  | ⟨0, _⟩ => rfl
  | ⟨1, _⟩ => rfl
  | ⟨2, _⟩ => rfl

/-- A [1,50,1] column broadcast to [1,50,500] reads, at (0, u, v), the column at (0, u, 0). -/
theorem bcast_label (c : S1x50x1.Idx → α) (h : S1x50x1.Broadcasts S1x50x500) (z : Fin 1) (u : Fin 50) (v : Fin 500) :
    broadcastTo S1x50x500 c h (ix3 z u v) = c (ix3 (0 : Fin 1) u (0 : Fin 1)) := by
  refine broadcastTo_apply c h (ix3 z u v) (ix3 (0 : Fin 1) u (0 : Fin 1)) fun ax => ?_
  match ax with
  | ⟨0, _⟩ => rfl
  | ⟨1, _⟩ => rfl
  | ⟨2, _⟩ => rfl

/-! ## The reduced index with the vocabulary coordinate put back -/

/-- The reduced index (t, u) with the vocabulary coordinate k put back is (t, u, k). -/
theorem lift_ix2 (h : S8x50x500.Reduces [2] S8x50) (tt : Fin 8) (u : Fin 50) (k : Fin (S8x50x500.size 2)) :
    h.lift (ix2 tt u) k = ix3 tt u (⟨k.val, k.isLt⟩ : Fin 500) := by
  funext c; apply Fin.ext
  match c with
  | ⟨0, _⟩ => rfl
  | ⟨1, _⟩ => rfl
  | ⟨2, _⟩ => rfl

/-! ## The first column of a block -/

/-- The slice [8,50,500] → [8,50,1] at offsets (0,0,0) reads, at (t, u, 0), the block at (t, u, 0). -/
theorem slice_col0 (e : S8x50x500.Idx → α) (h : S8x50x500.Slices ![0, 0, 0] S8x50x1) (tt : Fin 8) (u : Fin 50) (z : Fin 1) :
    extractStridedSlice S8x50x1 ![0, 0, 0] e h (ix3 tt u z) = e (ix3 tt u (⟨0, by decide⟩ : Fin 500)) :=
  extractStridedSlice_apply _ e h _ _ (fun ax => by
    have hz : z.val = 0 := by omega
    match ax with
    | ⟨0, _⟩ => exact (Nat.zero_add _).symm
    | ⟨1, _⟩ => exact (Nat.zero_add _).symm
    | ⟨2, _⟩ => show 0 = 0 + z.val; omega)

/-! ## Three [8,1,50] pieces laid along axis 1 -/

theorem concat3_at0 (A B C : S8x1x50.Idx → α) (h : Shape.Concatenates [S8x1x50, S8x1x50, S8x1x50] S8x3x50 1)
    (tt : Fin 8) (u : Fin 50) :
    concatenate S8x3x50 1 [⟨S8x1x50, A⟩, ⟨S8x1x50, B⟩, ⟨S8x1x50, C⟩] h (ix3 tt (⟨0, by decide⟩ : Fin 3) u) = A (ix3 tt (0 : Fin 1) u) :=
  concatenate_apply_piece (t := S8x3x50) 1 [⟨S8x1x50, A⟩, ⟨S8x1x50, B⟩, ⟨S8x1x50, C⟩] h _ 0 (Nat.zero_lt_succ _) S8x1x50 A rfl rfl 0 rfl (ix3 tt (0 : Fin 1) u)
    (fun b hb => by
      match b with
      | ⟨0, _⟩ => rfl
      | ⟨1, _⟩ => exact absurd rfl hb
      | ⟨2, _⟩ => rfl) rfl

theorem concat3_at1 (A B C : S8x1x50.Idx → α) (h : Shape.Concatenates [S8x1x50, S8x1x50, S8x1x50] S8x3x50 1)
    (tt : Fin 8) (u : Fin 50) :
    concatenate S8x3x50 1 [⟨S8x1x50, A⟩, ⟨S8x1x50, B⟩, ⟨S8x1x50, C⟩] h (ix3 tt (⟨1, by decide⟩ : Fin 3) u) = B (ix3 tt (0 : Fin 1) u) :=
  concatenate_apply_piece (t := S8x3x50) 1 [⟨S8x1x50, A⟩, ⟨S8x1x50, B⟩, ⟨S8x1x50, C⟩] h _ 1 (Nat.succ_lt_succ (Nat.zero_lt_succ _)) S8x1x50 B rfl rfl 1 rfl (ix3 tt (0 : Fin 1) u)
    (fun b hb => by
      match b with
      | ⟨0, _⟩ => rfl
      | ⟨1, _⟩ => exact absurd rfl hb
      | ⟨2, _⟩ => rfl) rfl

theorem concat3_at2 (A B C : S8x1x50.Idx → α) (h : Shape.Concatenates [S8x1x50, S8x1x50, S8x1x50] S8x3x50 1)
    (tt : Fin 8) (u : Fin 50) :
    concatenate S8x3x50 1 [⟨S8x1x50, A⟩, ⟨S8x1x50, B⟩, ⟨S8x1x50, C⟩] h (ix3 tt (⟨2, by decide⟩ : Fin 3) u) = C (ix3 tt (0 : Fin 1) u) :=
  concatenate_apply_piece (t := S8x3x50) 1 [⟨S8x1x50, A⟩, ⟨S8x1x50, B⟩, ⟨S8x1x50, C⟩] h _ 2 (Nat.succ_lt_succ (Nat.succ_lt_succ (Nat.zero_lt_succ _))) S8x1x50 C rfl rfl 2 rfl (ix3 tt (0 : Fin 1) u)
    (fun b hb => by
      match b with
      | ⟨0, _⟩ => rfl
      | ⟨1, _⟩ => exact absurd rfl hb
      | ⟨2, _⟩ => rfl) rfl

/-! ## The mask's broadcasts -/

/-- An [8,1,50] array broadcast to [8,3,50] reads, at (t, k, u), the operand at (t, 0, u). -/
theorem bcast_mid (m : S8x1x50.Idx → α) (h : S8x1x50.Broadcasts S8x3x50) (tt : Fin 8) (k : Fin 3) (u : Fin 50) :
    broadcastTo S8x3x50 m h (ix3 tt k u) = m (ix3 tt (0 : Fin 1) u) := by
  refine broadcastTo_apply m h (ix3 tt k u) (ix3 tt (0 : Fin 1) u) fun ax => ?_
  match ax with
  | ⟨0, _⟩ => rfl
  | ⟨1, _⟩ => rfl
  | ⟨2, _⟩ => rfl

/-- An [8,1,1] column broadcast to [8,1,50] reads, at (t, 0, u), the column at (t, 0, 0). -/
theorem bcast_frame (m : S8x1x1.Idx → α) (h : S8x1x1.Broadcasts S8x1x50) (tt : Fin 8) (z : Fin 1) (u : Fin 50) :
    broadcastTo S8x1x50 m h (ix3 tt z u) = m (ix3 tt (0 : Fin 1) (0 : Fin 1)) := by
  refine broadcastTo_apply m h (ix3 tt z u) (ix3 tt (0 : Fin 1) (0 : Fin 1)) fun ax => ?_
  match ax with
  | ⟨0, _⟩ => rfl
  | ⟨1, _⟩ => rfl
  | ⟨2, _⟩ => rfl

/-- A [1,1,50] row broadcast to [8,1,50] reads, at (t, 0, u), the row at (0, 0, u). -/
theorem bcast_pos (m : S1x1x50.Idx → α) (h : S1x1x50.Broadcasts S8x1x50) (tt : Fin 8) (z : Fin 1) (u : Fin 50) :
    broadcastTo S8x1x50 m h (ix3 tt z u) = m (ix3 (0 : Fin 1) (0 : Fin 1) u) := by
  refine broadcastTo_apply m h (ix3 tt z u) (ix3 (0 : Fin 1) (0 : Fin 1) u) fun ax => ?_
  match ax with
  | ⟨0, _⟩ => rfl
  | ⟨1, _⟩ => rfl
  | ⟨2, _⟩ => rfl

/-- A [1,1,1] word broadcast to [8,1,1] reads the word everywhere. -/
theorem bcast_word8 (m : S1x1x1.Idx → α) (h : S1x1x1.Broadcasts S8x1x1) (tt : Fin 8) (z z' : Fin 1) :
    broadcastTo S8x1x1 m h (ix3 tt z z') = m (ix3 (0 : Fin 1) (0 : Fin 1) (0 : Fin 1)) := by
  refine broadcastTo_apply m h (ix3 tt z z') (ix3 (0 : Fin 1) (0 : Fin 1) (0 : Fin 1)) fun ax => ?_
  match ax with
  | ⟨0, _⟩ => rfl
  | ⟨1, _⟩ => rfl
  | ⟨2, _⟩ => rfl

/-- A [1,1,1] word broadcast to [1,1,50] reads the word everywhere. -/
theorem bcast_word50 (m : S1x1x1.Idx → α) (h : S1x1x1.Broadcasts S1x1x50) (z z' : Fin 1) (u : Fin 50) :
    broadcastTo S1x1x50 m h (ix3 z z' u) = m (ix3 (0 : Fin 1) (0 : Fin 1) (0 : Fin 1)) := by
  refine broadcastTo_apply m h (ix3 z z' u) (ix3 (0 : Fin 1) (0 : Fin 1) (0 : Fin 1)) fun ax => ?_
  match ax with
  | ⟨0, _⟩ => rfl
  | ⟨1, _⟩ => rfl
  | ⟨2, _⟩ => rfl

end Cert.KernelIdeal.PayValue

end
-- ==== Proof.Spec.lean ====
/-
  The mathematics both programs compute, over the extended reals, with no program in sight.

  For one row `x : Fin 500 → EReal` of logits and one label `l : Fin 500`:
  the row's maximum `rowMax x`, the shifted exponentials `ex x v = exp (x v - rowMax x)`, their sum `den x`,
  the label's share `py x l = ex x l / den x`, the blank's share `blank x = ex x 0 / den x` and what is left,
  `rem x l = (1 - py) - blank`.  The student's three entries are `log (min 1 (max ε ·))` of these; the teacher's are
  the shares themselves, the remainder replaced by `ε` where it is negative.  Each entry is multiplied by the
  validity mask `[t < x_len] · [u < y_len]`.

  The kernel does not pick the label's exponential out of the row: it multiplies the row by the indicator of the
  label and sums (`pySum`).  `pySum_eq` is the one law that joins the two sides: a sum against an indicator
  is the indicated term — true of every extended real, since `a * 0 = 0` and `a * 1 = a` hold at the infinities too.
-/
import Idealize.ShloMosaic.PureOps.Ideal
import Idealize.ShloMosaic.PureOps.Ideal.Laws
import Idealize.ShloMosaic.Lib.ValueIdx

noncomputable section

namespace Cert.Collapse

open Idealize.ShloMosaic

/-- The literals both programs carry, as the extended reals their words denote. -/
abbrev negInf : EReal := Ideal.ofBits .f32 0xFF800000#32
abbrev one : EReal := Ideal.ofBits .f32 0x3F800000#32
abbrev eps : EReal := Ideal.ofBits .f32 0x2EDBE6FF#32
abbrev zero : EReal := Ideal.ofBits .f32 0x00000000#32

/-- A one-bit word as the number 0 or 1. -/
def b2f (b : BitVec 1) : EReal := ((b.toNat : ℝ) : EReal)

/-- The maximum of a row, folded from `-∞`. -/
def rowMax (x : Fin 500 → EReal) : EReal := (Finset.univ : Finset (Fin 500)).fold max negInf x

/-- The row's exponentials, shifted by its maximum. -/
def ex (x : Fin 500 → EReal) (v : Fin 500) : EReal := Ideal.exp (x v - rowMax x)

/-- Their sum: the softmax denominator. -/
def den (x : Fin 500 → EReal) : EReal := ∑ v : Fin 500, ex x v

/-- The label's share of the softmax. -/
def py (x : Fin 500 → EReal) (l : Fin 500) : EReal := Ideal.div (ex x l) (den x)

/-- The same share with the numerator taken as a sum against the label's indicator `ind`. -/
def pySum (x : Fin 500 → EReal) (ind : Fin 500 → EReal) : EReal := Ideal.div (∑ v : Fin 500, ex x v * ind v) (den x)

/-- The blank's share (vocabulary entry 0). -/
def blank (x : Fin 500 → EReal) : EReal := Ideal.div (ex x ⟨0, by decide⟩) (den x)

/-- What is left of the unit mass after a share `p` and the blank's. -/
def rem (x : Fin 500 → EReal) (p : EReal) : EReal := (one - p) - blank x

/-- Clip into `[ε, 1]`, then the logarithm. -/
def clipLog (z : EReal) : EReal := Ideal.log (min one (max eps z))

/-- A negative remainder is replaced by `ε`. -/
def floorNeg (r : EReal) : EReal := Scalar.select (Ideal.cmp .olt r zero) eps r

/-- The student's entry `k` of a row, from the label's share `p`. -/
def student (x : Fin 500 → EReal) (p : EReal) (k : Fin 3) : EReal :=
  match k with
  | ⟨0, _⟩ => clipLog p
  | ⟨1, _⟩ => clipLog (blank x)
  | ⟨2, _⟩ => clipLog (rem x p)

/-- The teacher's entry `k` of a row, from the label's share `p`. -/
def teacher (x : Fin 500 → EReal) (p : EReal) (k : Fin 3) : EReal :=
  match k with
  | ⟨0, _⟩ => p
  | ⟨1, _⟩ => blank x
  | ⟨2, _⟩ => floorNeg (rem x p)

/-- The validity mask at frame `t` and label position `u`, from the two length words. -/
def mask (xl yl : BitVec 32) (t u : Nat) : EReal :=
  b2f (IntOp.cmpi .slt (BitVec.ofNat 32 t) xl) * b2f (IntOp.cmpi .slt (BitVec.ofNat 32 u) yl)

/-- The indicator of a label word over the vocabulary: 1 at the entry whose number is the word, else 0. -/
def indOf (w : BitVec 32) (v : Fin 500) : EReal := b2f (IntOp.cmpi .eq (BitVec.ofNat 32 v.val) w)

/-- The vocabulary entry a label word in range names. -/
def labOf (w : BitVec 32) : Fin 500 := ⟨min w.toInt.toNat 499, by omega⟩

theorem b2f_zero : b2f 0#1 = 0 := by simp [b2f]
theorem b2f_one : b2f 1#1 = 1 := by simp [b2f]

/-- A sum against the indicator of one entry is that entry's term. -/
theorem sum_mul_ind (e : Fin 500 → EReal) (ind : Fin 500 → EReal) (l : Fin 500)
    (h1 : ind l = 1) (h0 : ∀ v, v ≠ l → ind v = 0) : ∑ v : Fin 500, e v * ind v = e l := by
  rw [Finset.sum_eq_single l]
  · rw [h1, mul_one]
  · intro v _ hv; rw [h0 v hv, mul_zero]
  · intro h; exact absurd (Finset.mem_univ l) h

/-- A label word in `[0, 500)` (read signed) has the indicator of the entry it names. -/
theorem indOf_labOf (w : BitVec 32) (h0 : 0 ≤ w.toInt) (h1 : w.toInt < 500) :
    indOf w (labOf w) = 1 ∧ ∀ v, v ≠ labOf w → indOf w v = 0 := by
  have hw : w.toNat < 500 := by
    have := w.isLt
    unfold BitVec.toInt at h0 h1
    split at h1 <;> omega
  have hti : w.toInt.toNat = w.toNat := by
    unfold BitVec.toInt
    split <;> omega
  have hl : (labOf w).val = w.toNat := by
    show min w.toInt.toNat 499 = w.toNat
    rw [hti]; omega
  have key : ∀ v : Fin 500, IntOp.cmpi .eq (BitVec.ofNat 32 v.val) w = if v.val = w.toNat then 1#1 else 0#1 := by
    intro v
    have hv := v.isLt
    unfold IntOp.cmpi
    by_cases hvw : v.val = w.toNat
    · rw [if_pos hvw]
      have : BitVec.ofNat 32 v.val = w := by
        apply BitVec.eq_of_toNat_eq
        rw [BitVec.toNat_ofNat, hvw]; exact Nat.mod_eq_of_lt w.isLt
      rw [this]
      show BitVec.ofBool (w == w) = 1#1
      rw [beq_self_eq_true]; rfl
    · rw [if_neg hvw]
      have : BitVec.ofNat 32 v.val ≠ w := by
        intro e
        apply hvw
        have := congrArg BitVec.toNat e
        rw [BitVec.toNat_ofNat, Nat.mod_eq_of_lt (by omega)] at this
        exact this
      have hb : (BitVec.ofNat 32 v.val == w) = false := beq_eq_false_iff_ne.mpr this
      show BitVec.ofBool (BitVec.ofNat 32 v.val == w) = 0#1
      rw [hb]; rfl
  refine ⟨?_, fun v hv => ?_⟩
  · unfold indOf; rw [key, if_pos hl]; exact b2f_one
  · unfold indOf; rw [key, if_neg]
    · exact b2f_zero
    · intro e; exact hv (Fin.ext (e.trans hl.symm))

/-- THE LAW: for a label word in range, the share taken by the indicator sum is the share of the entry it names. -/
theorem pySum_eq (x : Fin 500 → EReal) (w : BitVec 32) (h0 : 0 ≤ w.toInt) (h1 : w.toInt < 500) :
    pySum x (indOf w) = py x (labOf w) := by
  unfold pySum py
  rw [sum_mul_ind (ex x) (indOf w) (labOf w) (indOf_labOf w h0 h1).1 (indOf_labOf w h0 h1).2]

end Cert.Collapse

end
-- ==== Proof.PaySoftmax.lean ====
/-
  The softmax core of one block of eight frames, read at one row (t, u): the row maximum, the shifted exponentials,
  their sum, the share taken by a sum against an indicator row, the blank's share, and what is left of the unit mass.
  Each is the specification's function of the row  x = (v ↦ X (t, u, v)).
-/
import proofs.«165065_j28913719837048_2_alg».proof.Proof.PayLayout
import proofs.«165065_j28913719837048_2_alg».proof.Proof.Spec

noncomputable section

namespace Cert.KernelIdeal.PayValue

open Cert.KernelIdeal Cert.KernelIdeal.Gen Idealize.ShloMosaic Idealize.ShloMosaic.ValueIdx

open Cert.Collapse

/-! ## The two reductions along the vocabulary axis -/

/-- The maximum-reduction over the last axis from the -∞ word, at (t, u), is the row's maximum. -/
theorem rowmax_apply (X : FVec Ideal S8x50x500 .f32) (h : S8x50x500.Reduces [2] S8x50) (hφ : FKind.Formats .f32)
    (hacc : (0xFF800000#32 : BitVec 32) = FKind.maximumf.neutral .f32 hφ) (tt : Fin 8) (u : Fin 50) :
    multiReduction .maximumf [2] S8x50 X 0xFF800000#32 h hφ hacc (ix2 tt u)
      = rowMax (fun v : Fin 500 => X (ix3 tt u v)) := by
  refine (Ideal.multiReduction_maximumf_single X _ h hφ hacc (ix2 tt u)).trans ?_
  unfold rowMax
  have hf : (X ∘ h.lift (ix2 tt u)) = fun k : Fin 500 => X (ix3 tt u k) :=
    funext fun k => congrArg X (lift_ix2 h tt u k)
  exact congrArg (fun f => Finset.fold max (Ideal.ofBits .f32 0xFF800000#32) f (Finset.univ : Finset (Fin 500))) hf

/-- The sum-reduction over the last axis from the zero word, at (t, u), is the row's sum. -/
theorem rowsum_apply (Z : FVec Ideal S8x50x500 .f32) (h : S8x50x500.Reduces [2] S8x50) (hφ : FKind.Formats .f32)
    (hacc : (0x00000000#32 : BitVec 32) = FKind.add.neutral .f32 hφ) (tt : Fin 8) (u : Fin 50) :
    multiReduction .add [2] S8x50 Z 0x00000000#32 h hφ hacc (ix2 tt u) = ∑ v : Fin 500, Z (ix3 tt u v) := by
  refine (Ideal.multiReduction_add_single Z _ h hφ hacc (ix2 tt u)).trans ?_
  exact Finset.sum_congr rfl fun k _ => congrArg Z (lift_ix2 h tt u k)

/-! ## The block's terms, as the body forms them -/

/-- The shifted exponentials: subtract the row maxima, kept as a column and repeated along the row, then exponentiate. -/
def kExp (X : FVec Ideal S8x50x500 .f32) : FVec Ideal S8x50x500 .f32 :=
  exp (subf X (broadcastTo S8x50x500 (shapeCast S8x50x1
    (multiReduction .maximumf [2] S8x50 X 0xFF800000#32 reduces_S8x50x500_S8x50 (.inl rfl) rfl)
    shapeCasts_S8x50_S8x50x1) broadcasts_S8x50x1_S8x50x500))

/-- The denominators, as a column. -/
def kDen (X : FVec Ideal S8x50x500 .f32) : FVec Ideal S8x50x1 .f32 :=
  shapeCast S8x50x1 (multiReduction .add [2] S8x50 (kExp X) 0x00000000#32 reduces_S8x50x500_S8x50 (.inl rfl) rfl)
    shapeCasts_S8x50_S8x50x1

/-- The share taken by the sum against the rows Y. -/
def kPy (X : FVec Ideal S8x50x500 .f32) (Y : FVec Ideal S1x50x500 .f32) : FVec Ideal S8x50x1 .f32 :=
  divf (shapeCast S8x50x1 (multiReduction .add [2] S8x50
      (mulf (kExp X) (broadcastTo S8x50x500 Y broadcasts_S1x50x500_S8x50x500)) 0x00000000#32 reduces_S8x50x500_S8x50 (.inl rfl) rfl)
    shapeCasts_S8x50_S8x50x1) (kDen X)

/-- The blank's share. -/
def kBlank (X : FVec Ideal S8x50x500 .f32) : FVec Ideal S8x50x1 .f32 :=
  divf (extractStridedSlice S8x50x1 ![0, 0, 0] (kExp X) slices_S8x50x500_o0_0_0_S8x50x1) (kDen X)

/-- What is left of the unit mass. -/
def kRem (X : FVec Ideal S8x50x500 .f32) (Y : FVec Ideal S1x50x500 .f32) : FVec Ideal S8x50x1 .f32 :=
  subf (subf (broadcast S8x50x1 (Scalar.ofBits (F := Ideal) .f32 0x3F800000#32)) (kPy X Y)) (kBlank X)

/-! ## Each of them at one row -/

section Row
variable (X : FVec Ideal S8x50x500 .f32) (Y : FVec Ideal S1x50x500 .f32) (tt : Fin 8) (u : Fin 50)

theorem kExp_apply (v : Fin 500) : kExp X (ix3 tt u v) = ex (fun w : Fin 500 => X (ix3 tt u w)) v := by
  have hm : broadcastTo S8x50x500 (shapeCast S8x50x1
      (multiReduction .maximumf [2] S8x50 X 0xFF800000#32 reduces_S8x50x500_S8x50 (.inl rfl) rfl)
      shapeCasts_S8x50_S8x50x1) broadcasts_S8x50x1_S8x50x500 (ix3 tt u v)
      = rowMax (fun w : Fin 500 => X (ix3 tt u w)) :=
    (bcast_col _ _ tt u v).trans ((col_of_mat _ _ tt u 0).trans (rowmax_apply X _ _ _ tt u))
  exact congrArg (fun m => Ideal.exp (X (ix3 tt u v) - m)) hm

theorem kDen_apply (z : Fin 1) : kDen X (ix3 tt u z) = den (fun w : Fin 500 => X (ix3 tt u w)) := by
  unfold kDen den
  refine (col_of_mat _ _ tt u z).trans ((rowsum_apply _ _ _ _ tt u).trans ?_)
  exact Finset.sum_congr rfl fun v _ => kExp_apply X tt u v

theorem kPy_apply (z : Fin 1) :
    kPy X Y (ix3 tt u z) = pySum (fun w : Fin 500 => X (ix3 tt u w)) (fun w : Fin 500 => Y (ix3 (0 : Fin 1) u w)) := by
  have hn : shapeCast S8x50x1 (multiReduction .add [2] S8x50
      (mulf (kExp X) (broadcastTo S8x50x500 Y broadcasts_S1x50x500_S8x50x500)) 0x00000000#32 reduces_S8x50x500_S8x50 (.inl rfl) rfl)
      shapeCasts_S8x50_S8x50x1 (ix3 tt u z)
      = ∑ v : Fin 500, ex (fun w : Fin 500 => X (ix3 tt u w)) v * Y (ix3 (0 : Fin 1) u v) := by
    refine (col_of_mat _ _ tt u z).trans ((rowsum_apply _ _ _ _ tt u).trans ?_)
    refine Finset.sum_congr rfl fun v _ => ?_
    show kExp X (ix3 tt u v) * broadcastTo S8x50x500 Y broadcasts_S1x50x500_S8x50x500 (ix3 tt u v) = _
    rw [kExp_apply, bcast_rows]
  unfold pySum
  show Ideal.div (shapeCast S8x50x1 _ shapeCasts_S8x50_S8x50x1 (ix3 tt u z)) (kDen X (ix3 tt u z)) = _
  rw [hn, kDen_apply]

theorem kBlank_apply (z : Fin 1) : kBlank X (ix3 tt u z) = blank (fun w : Fin 500 => X (ix3 tt u w)) := by
  unfold blank
  show Ideal.div (extractStridedSlice S8x50x1 ![0, 0, 0] (kExp X) slices_S8x50x500_o0_0_0_S8x50x1 (ix3 tt u z)) (kDen X (ix3 tt u z)) = _
  rw [slice_col0, kExp_apply, kDen_apply]

theorem kRem_apply (z : Fin 1) :
    kRem X Y (ix3 tt u z)
      = rem (fun w : Fin 500 => X (ix3 tt u w))
          (pySum (fun w : Fin 500 => X (ix3 tt u w)) (fun w : Fin 500 => Y (ix3 (0 : Fin 1) u w))) := by
  unfold rem
  show (Ideal.ofBits .f32 0x3F800000#32 - kPy X Y (ix3 tt u z)) - kBlank X (ix3 tt u z) = _
  rw [kPy_apply, kBlank_apply]

end Row

end Cert.KernelIdeal.PayValue

end
-- ==== Proof.PayBits.lean ====
/-
  The words the kernel body meets once its operations are read at one element: a one-bit comparison widened to
  32 bits and converted to a float is the number 0 or 1 of that bit, and the frame word, tile number times eight plus
  the frame's place in the tile, is the word of that natural number.
-/
import proofs.«165065_j28913719837048_2_alg».proof.Proof.Spec
import Idealize.ShloMosaic.Lib.ValueIdx

noncomputable section

namespace Cert.KernelIdeal.PayValue

open Idealize.ShloMosaic Idealize.ShloMosaic.ValueIdx

/-- A bit, zero-extended to 32 bits and read as a signed integer, is the number of the bit. -/
theorem bit_to_float (b : BitVec 1) : (((b.setWidth 32).toInt : ℝ) : EReal) = Cert.Collapse.b2f b := by
  rcases BitVec.eq_zero_or_eq_one b with h | h <;> subst h
  · have e : (BitVec.setWidth 32 0#1).toInt = 0 := by decide
    rw [e, Cert.Collapse.b2f_zero]; simp
  · have e : (BitVec.setWidth 32 1#1).toInt = 1 := by decide
    rw [e, Cert.Collapse.b2f_one]; simp

/-- The conversion the vector unit applies to a widened bit, at the extended reals. -/
theorem sitofp_extui_bit (b : BitVec 1) :
    FloatOps.sitofp (F := Ideal) .f32 (b.setWidth 32) = Cert.Collapse.b2f b := bit_to_float b

/-- Tile number times eight plus the place in the tile, computed on 32-bit words, is the word of that number. -/
theorem frame_word (a t : Nat) :
    IntOp.addi (Scalar.muli (BitVec.ofNat 32 a) 8#32) (BitVec.ofNat 32 t) = BitVec.ofNat 32 (a * 8 + t) := by
  show BitVec.ofNat 32 a * BitVec.ofNat 32 8 + BitVec.ofNat 32 t = BitVec.ofNat 32 (a * 8 + t)
  rw [BitVec.ofNat_add, BitVec.ofNat_mul]

end Cert.KernelIdeal.PayValue

end
-- ==== Proof.PayMask.lean ====
/-
  The validity mask and the label indicator, read at one element.  The mask at (t, 0, u) is the product of two
  comparisons, each a bit widened and converted: frame word below the x-length word, position word below the
  y-length word.  The indicator at (0, u, v) is the bit of "entry v is the label word of position u".
-/
import proofs.«165065_j28913719837048_2_alg».proof.Proof.PayLayout
import proofs.«165065_j28913719837048_2_alg».proof.Proof.PayBits
import proofs.«165065_j28913719837048_2_alg».proof.Proof.Spec

noncomputable section

namespace Cert.KernelIdeal.PayValue

open Cert.KernelIdeal Cert.KernelIdeal.Gen Idealize.ShloMosaic Idealize.ShloMosaic.ValueIdx

open Cert.Collapse

/-- The frame words of a tile: at (t, 0, 0), tile number times eight plus t. -/
theorem frame_apply (i : grid0.Coords) (tt : Fin 8) (z z' : Fin 1) :
    k0_pay1 i (ix3 tt z z') = BitVec.ofNat 32 ((i 0).val * 8 + tt.val) := by
  have e1 : iota .tc S8x1x1 32 [0] iota_S8x1x1_d0_w32 (ix3 tt z z') = BitVec.ofNat 32 tt.val :=
    iota_single_apply .tc S8x1x1 32 0 _ _
  show IntOp.addi (Scalar.muli (BitVec.ofNat 32 (i 0).val) 8#32) (iota .tc S8x1x1 32 [0] iota_S8x1x1_d0_w32 (ix3 tt z z')) = _
  rw [e1]
  exact frame_word _ _

/-- A length word, loaded as [1,1,1,1] and viewed [1,1,1]. -/
theorem len4_apply (w : Vec Ideal S1x1x1x1 .i32) : k0_pay4 (F := Ideal) w (ix3 (0 : Fin 1) (0 : Fin 1) (0 : Fin 1))
    = w (ix4 (0 : Fin 1) (0 : Fin 1) (0 : Fin 1) (0 : Fin 1)) :=
  shapeCast_1abc_abc_apply _ _ 0 0 0

theorem len5_apply (w : Vec Ideal S1x1x1x1 .i32) : k0_pay5 (F := Ideal) w (ix3 (0 : Fin 1) (0 : Fin 1) (0 : Fin 1))
    = w (ix4 (0 : Fin 1) (0 : Fin 1) (0 : Fin 1) (0 : Fin 1)) :=
  shapeCast_1abc_abc_apply _ _ 0 0 0

/-- The mask block at (t, 0, u), over any frame words, position words and length words. -/
theorem pay9_apply (v3 : IVec S8x1x1 32) (v4 : IVec S1x1x50 32) (v18 v21 : IVec S1x1x1 32) (tt : Fin 8) (u : Fin 50) :
    k0_pay9 (F := Ideal) v3 v4 v18 v21 (ix3 tt (0 : Fin 1) u)
      = b2f (IntOp.cmpi .slt (v3 (ix3 tt (0 : Fin 1) (0 : Fin 1))) (v18 (ix3 (0 : Fin 1) (0 : Fin 1) (0 : Fin 1))))
        * b2f (IntOp.cmpi .slt (v4 (ix3 (0 : Fin 1) (0 : Fin 1) u)) (v21 (ix3 (0 : Fin 1) (0 : Fin 1) (0 : Fin 1)))) := by
  unfold k0_pay9
  show broadcastTo S8x1x50 _ broadcasts_S8x1x1_S8x1x50 (ix3 tt (0 : Fin 1) u)
      * broadcastTo S8x1x50 _ broadcasts_S1x1x50_S8x1x50 (ix3 tt (0 : Fin 1) u) = _
  rw [bcast_frame, bcast_pos]
  show FloatOps.sitofp (F := Ideal) .f32 ((IntOp.cmpi .slt (v3 (ix3 tt (0 : Fin 1) (0 : Fin 1)))
        (broadcastTo S8x1x1 v18 broadcasts_S1x1x1_S8x1x1 (ix3 tt (0 : Fin 1) (0 : Fin 1)))).setWidth 32)
      * FloatOps.sitofp (F := Ideal) .f32 ((IntOp.cmpi .slt (v4 (ix3 (0 : Fin 1) (0 : Fin 1) u))
        (broadcastTo S1x1x50 v21 broadcasts_S1x1x1_S1x1x50 (ix3 (0 : Fin 1) (0 : Fin 1) u))).setWidth 32) = _
  rw [bcast_word8, bcast_word50, sitofp_extui_bit, sitofp_extui_bit]

/-- THE MASK at (t, 0, u) of the tile at grid point i, from the two loaded length words. -/
theorem mask_apply (i : grid0.Coords) (v17 v20 : Vec Ideal S1x1x1x1 .i32) (tt : Fin 8) (u : Fin 50) :
    k0_pay9 (F := Ideal) (k0_pay1 i) (iota .tc S1x1x50 32 [2] iota_S1x1x50_d2_w32) (k0_pay4 (F := Ideal) v17) (k0_pay5 (F := Ideal) v20)
        (ix3 tt (0 : Fin 1) u)
      = mask (v17 (ix4 (0 : Fin 1) (0 : Fin 1) (0 : Fin 1) (0 : Fin 1))) (v20 (ix4 (0 : Fin 1) (0 : Fin 1) (0 : Fin 1) (0 : Fin 1)))
          ((i 0).val * 8 + tt.val) u.val := by
  have e4 : iota .tc S1x1x50 32 [2] iota_S1x1x50_d2_w32 (ix3 (0 : Fin 1) (0 : Fin 1) u) = BitVec.ofNat 32 u.val :=
    iota_single_apply .tc S1x1x50 32 2 _ _
  rw [pay9_apply, frame_apply, len4_apply, len5_apply, e4]
  rfl

/-- THE INDICATOR at (0, u, v): the bit of "v is the label word of position u", as a number. -/
theorem onehot_apply (v14 : Vec Ideal S1x1x50x1 .i32) (u : Fin 50) (v : Fin 500) :
    k0_pay6 (F := Ideal) (iota .tc S1x50x500 32 [2] iota_S1x50x500_d2_w32) v14 (ix3 (0 : Fin 1) u v)
      = indOf (v14 (ix4 (0 : Fin 1) (0 : Fin 1) u (0 : Fin 1))) v := by
  have e1 : iota .tc S1x50x500 32 [2] iota_S1x50x500_d2_w32 (ix3 (0 : Fin 1) u v) = BitVec.ofNat 32 v.val :=
    iota_single_apply .tc S1x50x500 32 2 _ _
  have e2 : broadcastTo S1x50x500 (shapeCast S1x50x1 v14 shapeCasts_S1x1x50x1_S1x50x1) broadcasts_S1x50x1_S1x50x500
      (ix3 (0 : Fin 1) u v) = v14 (ix4 (0 : Fin 1) (0 : Fin 1) u (0 : Fin 1)) :=
    (bcast_label _ _ 0 u v).trans (shapeCast_1abc_abc_apply _ _ 0 u 0)
  unfold indOf
  show FloatOps.sitofp (F := Ideal) .f32 ((IntOp.cmpi .eq (iota .tc S1x50x500 32 [2] iota_S1x50x500_d2_w32 (ix3 (0 : Fin 1) u v))
      (broadcastTo S1x50x500 (shapeCast S1x50x1 v14 shapeCasts_S1x1x50x1_S1x50x1) broadcasts_S1x50x1_S1x50x500
        (ix3 (0 : Fin 1) u v))).setWidth 32) = _
  rw [e1, e2]
  exact sitofp_extui_bit _

end Cert.KernelIdeal.PayValue

end
-- ==== Proof.PayValue.lean ====
/-
  THE KERNEL BODY'S TWO STORED VECTORS AT ONE ELEMENT (0, t, k, u): the student's entry k of the row (t, u) of the
  logits block, and the teacher's entry k of the row (t, u) of the teacher-logits block, each times the validity mask
  at frame (tile · 8 + t) and position u.
-/
import proofs.«165065_j28913719837048_2_alg».proof.Proof.PaySoftmax
import proofs.«165065_j28913719837048_2_alg».proof.Proof.PayMask

noncomputable section

namespace Cert.KernelIdeal.PayValue

open Cert.KernelIdeal Cert.KernelIdeal.Gen Idealize.ShloMosaic Idealize.ShloMosaic.ValueIdx

open Cert.Collapse

/-! ## The two concatenated blocks as the softmax core's terms -/

/-- The student's [8,3,50] block: the three shares of the logits block, each transposed to a row and laid along axis 1. -/
theorem pay7_eq (v5 : IVec S1x50x500 32) (v8 : Vec Ideal S1x8x50x500 .f32) (v14 : Vec Ideal S1x1x50x1 .i32) :
    k0_pay7 (F := Ideal) v5 v8 v14
      = concatenate S8x3x50 1
          [⟨S8x1x50, transpose S8x1x50 [0, 2, 1] (kPy (shapeCast S8x50x500 v8 shapeCasts_S1x8x50x500_S8x50x500) (k0_pay6 (F := Ideal) v5 v14)) transposes_S8x50x1_p0_2_1_S8x1x50⟩,
           ⟨S8x1x50, transpose S8x1x50 [0, 2, 1] (kBlank (shapeCast S8x50x500 v8 shapeCasts_S1x8x50x500_S8x50x500)) transposes_S8x50x1_p0_2_1_S8x1x50⟩,
           ⟨S8x1x50, transpose S8x1x50 [0, 2, 1] (kRem (shapeCast S8x50x500 v8 shapeCasts_S1x8x50x500_S8x50x500) (k0_pay6 (F := Ideal) v5 v14)) transposes_S8x50x1_p0_2_1_S8x1x50⟩]
          concatenates_S8x1x50_S8x1x50_S8x1x50_S8x3x50_d1 := rfl

/-- The remainder with its negative values replaced by ε, as the body forms it. -/
def kFloor (R : FVec Ideal S8x50x1 .f32) : FVec Ideal S8x50x1 .f32 :=
  select (cmpf .olt R (broadcast S8x50x1 (Scalar.ofBits (F := Ideal) .f32 0x00000000#32)))
    (broadcast S8x50x1 (Scalar.ofBits (F := Ideal) .f32 0x2EDBE6FF#32)) R

theorem kFloor_apply (R : FVec Ideal S8x50x1 .f32) (j : S8x50x1.Idx) : kFloor R j = floorNeg (R j) := rfl

/-- The teacher's [8,3,50] block likewise, the remainder floored. -/
theorem pay8_eq (v12 : FVec Ideal S8x50x500 .f32) (v25 : FVec Ideal S1x50x500 .f32) :
    k0_pay8 (F := Ideal) v12 v25
      = concatenate S8x3x50 1
          [⟨S8x1x50, transpose S8x1x50 [0, 2, 1] (kPy v12 v25) transposes_S8x50x1_p0_2_1_S8x1x50⟩,
           ⟨S8x1x50, transpose S8x1x50 [0, 2, 1] (kBlank v12) transposes_S8x50x1_p0_2_1_S8x1x50⟩,
           ⟨S8x1x50, transpose S8x1x50 [0, 2, 1] (kFloor (kRem v12 v25)) transposes_S8x50x1_p0_2_1_S8x1x50⟩]
          concatenates_S8x1x50_S8x1x50_S8x1x50_S8x3x50_d1 := rfl

/-! ## A row of a loaded block, and its indicator row -/

/-- A loaded [1,8,50,500] block viewed [8,50,500] reads, at (t, u, v), the block at (0, t, u, v). -/
theorem block_row (v8 : Vec Ideal S1x8x50x500 .f32) (tt : Fin 8) (u : Fin 50) :
    (fun w : Fin 500 => shapeCast S8x50x500 v8 shapeCasts_S1x8x50x500_S8x50x500 (ix3 tt u w))
      = fun w : Fin 500 => v8 (ix4 (0 : Fin 1) tt u w) :=
  funext fun w => shapeCast_1abc_abc_apply _ _ tt u w

theorem ind_row (v14 : Vec Ideal S1x1x50x1 .i32) (u : Fin 50) :
    (fun w : Fin 500 => k0_pay6 (F := Ideal) (iota .tc S1x50x500 32 [2] iota_S1x50x500_d2_w32) v14 (ix3 (0 : Fin 1) u w))
      = indOf (v14 (ix4 (0 : Fin 1) (0 : Fin 1) u (0 : Fin 1))) :=
  funext fun w => onehot_apply v14 u w

/-! ## The three entries of a block at (t, k, u) -/

section Entries
variable (X : FVec Ideal S8x50x500 .f32) (Y : FVec Ideal S1x50x500 .f32) (tt : Fin 8) (u : Fin 50)

/-- A column [8,50,1] transposed to a row [8,1,50] reads, at (t, 0, u), the column at (t, u, 0). -/
theorem row_of_col (c : FVec Ideal S8x50x1 .f32) :
    transpose S8x1x50 [0, 2, 1] c transposes_S8x50x1_p0_2_1_S8x1x50 (ix3 tt (0 : Fin 1) u) = c (ix3 tt u (0 : Fin 1)) :=
  transpose_ix3_021_apply c _ tt 0 u

end Entries

/-! ## The stored vectors over any block -/

/-- The student's stored vector at (0, t, k, u): clip, logarithm, times the mask block at (t, 0, u). -/
theorem pay10_apply (v3 : IVec S8x1x1 32) (v4 : IVec S1x1x50 32) (v18 v21 : IVec S1x1x1 32) (v46 : FVec Ideal S8x3x50 .f32)
    (tt : Fin 8) (k : Fin 3) (u : Fin 50) :
    k0_pay10 (F := Ideal) v3 v4 v18 v21 v46 (ix4 (0 : Fin 1) tt k u)
      = clipLog (v46 (ix3 tt k u)) * k0_pay9 (F := Ideal) v3 v4 v18 v21 (ix3 tt (0 : Fin 1) u) := by
  unfold k0_pay10
  refine (shapeCast_abc_1abc_apply _ _ 0 tt k u).trans ?_
  show Ideal.log (min (Ideal.ofBits .f32 0x3F800000#32) (max (Ideal.ofBits .f32 0x2EDBE6FF#32) (v46 (ix3 tt k u))))
      * broadcastTo S8x3x50 (k0_pay9 (F := Ideal) v3 v4 v18 v21) broadcasts_S8x1x50_S8x3x50 (ix3 tt k u) = _
  rw [bcast_mid]
  rfl

/-- The teacher's stored vector at (0, t, k, u): the block's entry times the mask block's. -/
theorem pay2_apply (v76 v94 : FVec Ideal S8x3x50 .f32) (tt : Fin 8) (k : Fin 3) (u : Fin 50) :
    k0_pay2 (F := Ideal) v76 v94 (ix4 (0 : Fin 1) tt k u) = v76 (ix3 tt k u) * v94 (ix3 tt k u) := by
  unfold k0_pay2
  exact shapeCast_abc_1abc_apply (mulf v76 v94) _ 0 tt k u

theorem pay11_apply (v3 : IVec S8x1x1 32) (v4 : IVec S1x1x50 32) (v18 v21 : IVec S1x1x1 32) (tt : Fin 8) (k : Fin 3) (u : Fin 50) :
    k0_pay11 (F := Ideal) v3 v4 v18 v21 (ix3 tt k u) = k0_pay9 (F := Ideal) v3 v4 v18 v21 (ix3 tt (0 : Fin 1) u) := by
  unfold k0_pay11
  exact bcast_mid (k0_pay9 (F := Ideal) v3 v4 v18 v21) _ tt k u

/-! ## The two payloads -/

/-- THE STUDENT PAYLOAD at (0, t, k, u). -/
theorem student_payload (i : grid0.Coords) (v8 : Vec Ideal S1x8x50x500 .f32) (v14 : Vec Ideal S1x1x50x1 .i32)
    (v17 v20 : Vec Ideal S1x1x1x1 .i32) (tt : Fin 8) (k : Fin 3) (u : Fin 50) :
    k0_pay10 (F := Ideal) (k0_pay1 i) (iota .tc S1x1x50 32 [2] iota_S1x1x50_d2_w32) (k0_pay4 (F := Ideal) v17) (k0_pay5 (F := Ideal) v20)
        (k0_pay7 (F := Ideal) (iota .tc S1x50x500 32 [2] iota_S1x50x500_d2_w32) v8 v14) (ix4 (0 : Fin 1) tt k u)
      = student (fun v : Fin 500 => v8 (ix4 (0 : Fin 1) tt u v))
            (pySum (fun v : Fin 500 => v8 (ix4 (0 : Fin 1) tt u v)) (indOf (v14 (ix4 (0 : Fin 1) (0 : Fin 1) u (0 : Fin 1))))) k
          * mask (v17 (ix4 (0 : Fin 1) (0 : Fin 1) (0 : Fin 1) (0 : Fin 1))) (v20 (ix4 (0 : Fin 1) (0 : Fin 1) (0 : Fin 1) (0 : Fin 1)))
              ((i 0).val * 8 + tt.val) u.val := by
  rw [pay10_apply, mask_apply, pay7_eq]
  congr 1
  match k with
  | ⟨0, _⟩ =>
    refine congrArg clipLog ?_
    refine (concat3_at0 _ _ _ _ tt u).trans ((row_of_col tt u _).trans ?_)
    rw [kPy_apply, block_row, ind_row]
  | ⟨1, _⟩ =>
    refine congrArg clipLog ?_
    refine (concat3_at1 _ _ _ _ tt u).trans ((row_of_col tt u _).trans ?_)
    rw [kBlank_apply, block_row]
  | ⟨2, _⟩ =>
    refine congrArg clipLog ?_
    refine (concat3_at2 _ _ _ _ tt u).trans ((row_of_col tt u _).trans ?_)
    rw [kRem_apply, block_row, ind_row]

/-- THE TEACHER PAYLOAD at (0, t, k, u). -/
theorem teacher_payload (i : grid0.Coords) (v11 : Vec Ideal S1x8x50x500 .f32) (v14 : Vec Ideal S1x1x50x1 .i32)
    (v17 v20 : Vec Ideal S1x1x1x1 .i32) (tt : Fin 8) (k : Fin 3) (u : Fin 50) :
    k0_pay2 (F := Ideal) (k0_pay8 (F := Ideal) (k0_pay3 (F := Ideal) v11) (k0_pay6 (F := Ideal) (iota .tc S1x50x500 32 [2] iota_S1x50x500_d2_w32) v14))
        (k0_pay11 (F := Ideal) (k0_pay1 i) (iota .tc S1x1x50 32 [2] iota_S1x1x50_d2_w32) (k0_pay4 (F := Ideal) v17) (k0_pay5 (F := Ideal) v20))
        (ix4 (0 : Fin 1) tt k u)
      = teacher (fun v : Fin 500 => v11 (ix4 (0 : Fin 1) tt u v))
            (pySum (fun v : Fin 500 => v11 (ix4 (0 : Fin 1) tt u v)) (indOf (v14 (ix4 (0 : Fin 1) (0 : Fin 1) u (0 : Fin 1))))) k
          * mask (v17 (ix4 (0 : Fin 1) (0 : Fin 1) (0 : Fin 1) (0 : Fin 1))) (v20 (ix4 (0 : Fin 1) (0 : Fin 1) (0 : Fin 1) (0 : Fin 1)))
              ((i 0).val * 8 + tt.val) u.val := by
  rw [pay2_apply, pay11_apply, mask_apply, pay8_eq]
  congr 1
  have hrow : (fun w : Fin 500 => k0_pay3 (F := Ideal) v11 (ix3 tt u w)) = fun w : Fin 500 => v11 (ix4 (0 : Fin 1) tt u w) :=
    block_row v11 tt u
  match k with
  | ⟨0, _⟩ =>
    refine (concat3_at0 _ _ _ _ tt u).trans ((row_of_col tt u _).trans ?_)
    rw [kPy_apply, hrow, ind_row]
    rfl
  | ⟨1, _⟩ =>
    refine (concat3_at1 _ _ _ _ tt u).trans ((row_of_col tt u _).trans ?_)
    rw [kBlank_apply, hrow]
    rfl
  | ⟨2, _⟩ =>
    refine (concat3_at2 _ _ _ _ tt u).trans ((row_of_col tt u _).trans ?_)
    rw [kFloor_apply, kRem_apply, hrow, ind_row]
    rfl

end Cert.KernelIdeal.PayValue

end
-- ==== Proof.ArrayValue.lean ====
/-
  The two arrays the kernel leaves, as functions of the argument arrays, at the ideal instance.

  Grid point `t` writes back frames [8t, 8t+8) of each output array [8, 200, 3, 50]; the 25 points cover it.  At (n, t, k, u)
  the student array holds entry `k` of the student's three numbers for row (n, t, u) — the label's share taken as a sum
  against the label's indicator — times the validity mask; the teacher array the teacher's.
-/
import proofs.«165065_j28913719837048_2_alg».proof.Proof.BlockRead
import proofs.«165065_j28913719837048_2_alg».proof.Proof.PayValue
import proofs.«165065_j28913719837048_2_alg».proof.Proof.Spec

set_option maxRecDepth 16384

noncomputable section

namespace Cert.KernelIdeal.ArrayValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.GenP Cert.KernelIdeal.LoopValue Cert.KernelIdeal.BlockRead Cert.KernelIdeal.PayValue

variable (m : (ℓ : Loc nD τ sig) → Buf (Elt Ideal) ℓ) (ρ : Dev nD → PrngReg)

/-- The student's number `k` of row (n, t, u), masked: what the kernel computes, over the argument arrays. -/
def studentAt (c : Dev nD) (n : Fin 8) (t : Fin 200) (k : Fin 3) (u : Fin 50) : EReal :=
  Cert.Collapse.student (fun v : Fin 500 => m ((c : Thread nD τ).loc main_arg0) (ix4 n t u v))
      (Cert.Collapse.pySum (fun v : Fin 500 => m ((c : Thread nD τ).loc main_arg0) (ix4 n t u v)) (Cert.Collapse.indOf (m ((c : Thread nD τ).loc main_arg2) (ix2 n u)))) k
    * Cert.Collapse.mask (m ((c : Thread nD τ).loc main_arg3) (ix1 n)) (m ((c : Thread nD τ).loc main_arg4) (ix1 n)) t.val u.val

/-- The teacher's. -/
def teacherAt (c : Dev nD) (n : Fin 8) (t : Fin 200) (k : Fin 3) (u : Fin 50) : EReal :=
  Cert.Collapse.teacher (fun v : Fin 500 => m ((c : Thread nD τ).loc main_arg1) (ix4 n t u v))
      (Cert.Collapse.pySum (fun v : Fin 500 => m ((c : Thread nD τ).loc main_arg1) (ix4 n t u v)) (Cert.Collapse.indOf (m ((c : Thread nD τ).loc main_arg2) (ix2 n u)))) k
    * Cert.Collapse.mask (m ((c : Thread nD τ).loc main_arg3) (ix1 n)) (m ((c : Thread nD τ).loc main_arg4) (ix1 n)) t.val u.val

/-- The two arrays, index by index. -/
def KS (c : Dev nD) : S8x200x3x50.Idx → EReal := fun y =>
  studentAt m c ⟨(y 0).val, (y 0).isLt⟩ ⟨(y 1).val, (y 1).isLt⟩ ⟨(y 2).val, (y 2).isLt⟩ ⟨(y 3).val, (y 3).isLt⟩
def KT (c : Dev nD) : S8x200x3x50.Idx → EReal := fun y =>
  teacherAt m c ⟨(y 0).val, (y 0).isLt⟩ ⟨(y 1).val, (y 1).isLt⟩ ⟨(y 2).val, (y 2).isLt⟩ ⟨(y 3).val, (y 3).isLt⟩

/-- One trip's student payload at (0, tt, k, u), over the staged blocks of point `t`: the student's number of row
    (trip, 8t + tt, u). -/
theorem pay5_at (c : Dev nD) (t : Fin cfg0.N) (kt : Fin k0_t1_loop.trips) (tt : Fin 8) (k : Fin 3) (u : Fin 50) :
    pay5 (F := Ideal) (grid0.coords t) (iblk m c 0 t) (iblk m c 2 t) (iblk m c 3 t) (iblk m c 4 t) kt (ix4 (0 : Fin 1) tt k u)
      = studentAt m c (Fin.cast trips_eq kt) (frameOf t tt) k u := by
  unfold pay5
  refine (student_payload (grid0.coords t) _ _ _ _ tt k u).trans ?_
  unfold studentAt
  simp only [logits_read, labels_read, xlen_read, ylen_read]
  rw [coords_val t]
  rfl

/-- One trip's teacher payload likewise. -/
theorem pay6_at (c : Dev nD) (t : Fin cfg0.N) (kt : Fin k0_t1_loop.trips) (tt : Fin 8) (k : Fin 3) (u : Fin 50) :
    pay6 (F := Ideal) (grid0.coords t) (iblk m c 1 t) (iblk m c 2 t) (iblk m c 3 t) (iblk m c 4 t) kt (ix4 (0 : Fin 1) tt k u)
      = teacherAt m c (Fin.cast trips_eq kt) (frameOf t tt) k u := by
  unfold pay6
  refine (teacher_payload (grid0.coords t) _ _ _ _ tt k u).trans ?_
  unfold teacherAt
  simp only [teacher_read, labels_read, xlen_read, ylen_read]
  rw [coords_val t]
  rfl

/-- WHAT POINT `t` WRITES BACK into the student array is block `t` of `KS`. -/
theorem flushed5_eq (c : Dev nD) (t : Fin cfg0.N) :
    (dats m 0 c).flushed 5 t = ((cfg0.win 5).blk t).view.read (Elt Ideal) (KS m c) := by
  show (cfg0.win 5).cut (grid0.coords t) ((dats m 0 c).after 5 t) = _
  rw [after0_5]
  unfold outsAt0
  dsimp only
  rw [out5_eq]
  obtain ⟨-, -, -, -, -, ⟨e0, e1, e2, e3⟩, -⟩ := idx_facts t
  funext j
  show whole (pay5 (F := Ideal) (grid0.coords t) (iblk m c 0 t) (iblk m c 2 t) (iblk m c 3 t) (iblk m c 4 t)) j = KS m c (((cfg0.win 5).blk t).view.emb j)
  unfold whole
  rw [pay5_at]
  unfold KS
  have h0 : (j 0).val < 8 := (j 0).isLt
  have h1 : (j 1).val < 8 := (j 1).isLt
  have h2 : (j 2).val < 3 := (j 2).isLt
  have h3 : (j 3).val < 50 := (j 3).isLt
  congr 1
  · exact Fin.ext (by show (j 0).val = win0_5.index t (0 : Fin 4) * 8 + 1 * (j 0).val; rw [e0]; omega)
  · exact Fin.ext (by show t.val * 8 + (j 1).val = win0_5.index t (1 : Fin 4) * 8 + 1 * (j 1).val; rw [e1]; omega)
  · exact Fin.ext (by show (j 2).val = win0_5.index t (2 : Fin 4) * 3 + 1 * (j 2).val; rw [e2]; omega)
  · exact Fin.ext (by show (j 3).val = win0_5.index t (3 : Fin 4) * 50 + 1 * (j 3).val; rw [e3]; omega)

/-- and into the teacher array, block `t` of `KT`. -/
theorem flushed6_eq (c : Dev nD) (t : Fin cfg0.N) :
    (dats m 0 c).flushed 6 t = ((cfg0.win 6).blk t).view.read (Elt Ideal) (KT m c) := by
  show (cfg0.win 6).cut (grid0.coords t) ((dats m 0 c).after 6 t) = _
  rw [after0_6]
  unfold outsAt0
  dsimp only
  rw [out6_eq]
  obtain ⟨-, -, -, -, -, -, ⟨e0, e1, e2, e3⟩⟩ := idx_facts t
  funext j
  show whole (pay6 (F := Ideal) (grid0.coords t) (iblk m c 1 t) (iblk m c 2 t) (iblk m c 3 t) (iblk m c 4 t)) j = KT m c (((cfg0.win 6).blk t).view.emb j)
  unfold whole
  rw [pay6_at]
  unfold KT
  have h0 : (j 0).val < 8 := (j 0).isLt
  have h1 : (j 1).val < 8 := (j 1).isLt
  have h2 : (j 2).val < 3 := (j 2).isLt
  have h3 : (j 3).val < 50 := (j 3).isLt
  congr 1
  · exact Fin.ext (by show (j 0).val = win0_6.index t (0 : Fin 4) * 8 + 1 * (j 0).val; rw [e0]; omega)
  · exact Fin.ext (by show t.val * 8 + (j 1).val = win0_6.index t (1 : Fin 4) * 8 + 1 * (j 1).val; rw [e1]; omega)
  · exact Fin.ext (by show (j 2).val = win0_6.index t (2 : Fin 4) * 3 + 1 * (j 2).val; rw [e2]; omega)
  · exact Fin.ext (by show (j 3).val = win0_6.index t (3 : Fin 4) * 50 + 1 * (j 3).val; rw [e3]; omega)

end Cert.KernelIdeal.ArrayValue

end
-- ==== Proof.KernelRun.lean ====
/-
  The idealized kernel's run, read: its result is the common tail of the two arrays the region leaves, transposed.

  Every index (n, t, k, u) of an output array lies in the block of grid point t / 8, so after the 25 write-backs the
  student array is `KS` and the teacher array `KT` everywhere.  The host then swaps the last two axes of each, gives each
  a leading unit axis and joins the two along it.
-/
import proofs.«165065_j28913719837048_2_alg».proof.Proof.ArrayValue

set_option maxRecDepth 16384

noncomputable section

namespace Cert.KernelIdeal.KernelRun

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.GenP Cert.KernelIdeal.LoopValue Cert.KernelIdeal.BlockRead Cert.KernelIdeal.ArrayValue

variable (m : (ℓ : Loc nD τ sig) → Buf (Elt Ideal) ℓ) (ρ : Dev nD → PrngReg)

/-- An index of the student array is in point `t`'s block iff each coordinate is in the block's range on its axis. -/
theorem mem_blk5 (t : Fin cfg0.N) (i : S8x200x3x50.Idx) :
    i ∈ ((cfg0.win 5).blk t).view.set ↔ ∀ a : Fin 4, win0_5.index t a * S8x8x3x50.size a ≤ (i a).val ∧ (i a).val < win0_5.index t a * S8x8x3x50.size a + S8x8x3x50.size a := by
  show i ∈ ((View.whole main_v3_0).slice (win0_5.rect t)).set ↔ _
  rw [View.set_slice_whole, Rect.mem_set_unit]
  exact Iff.rfl
theorem mem_blk6 (t : Fin cfg0.N) (i : S8x200x3x50.Idx) :
    i ∈ ((cfg0.win 6).blk t).view.set ↔ ∀ a : Fin 4, win0_6.index t a * S8x8x3x50.size a ≤ (i a).val ∧ (i a).val < win0_6.index t a * S8x8x3x50.size a + S8x8x3x50.size a := by
  show i ∈ ((View.whole main_v3_1).slice (win0_6.rect t)).set ↔ _
  rw [View.set_slice_whole, Rect.mem_set_unit]
  exact Iff.rfl

/-- The point that covers frame `f`. -/
def pointOf (f : Nat) (hf : f < 200) : Fin cfg0.N := ⟨f / 8, by have e : cfg0.N = 25 := N_0; omega⟩

/-- Every index of the student array is in the block of the point its frame belongs to. -/
theorem cover5 (i : S8x200x3x50.Idx) : ∃ t : Fin cfg0.N, (cfg0.win 5).flush t = true ∧ i ∈ ((cfg0.win 5).blk t).view.set := by
  have h0 : (i 0).val < 8 := (i 0).isLt
  have h1 : (i 1).val < 200 := (i 1).isLt
  have h2 : (i 2).val < 3 := (i 2).isLt
  have h3 : (i 3).val < 50 := (i 3).isLt
  obtain ⟨-, -, -, -, -, ⟨e0, e1, e2, e3⟩, -⟩ := idx_facts (pointOf (i 1).val h1)
  have ev : (pointOf (i 1).val h1).val = (i 1).val / 8 := rfl
  refine ⟨pointOf (i 1).val h1, flush0_5 _, ?_⟩
  rw [mem_blk5]
  intro a
  match a with
  | ⟨0, _⟩ => show win0_5.index (pointOf (i 1).val h1) (0 : Fin 4) * 8 ≤ (i 0).val ∧ (i 0).val < win0_5.index (pointOf (i 1).val h1) (0 : Fin 4) * 8 + 8; rw [e0]; omega
  | ⟨1, _⟩ => show win0_5.index (pointOf (i 1).val h1) (1 : Fin 4) * 8 ≤ (i 1).val ∧ (i 1).val < win0_5.index (pointOf (i 1).val h1) (1 : Fin 4) * 8 + 8; rw [e1, ev]; omega
  | ⟨2, _⟩ => show win0_5.index (pointOf (i 1).val h1) (2 : Fin 4) * 3 ≤ (i 2).val ∧ (i 2).val < win0_5.index (pointOf (i 1).val h1) (2 : Fin 4) * 3 + 3; rw [e2]; omega
  | ⟨3, _⟩ => show win0_5.index (pointOf (i 1).val h1) (3 : Fin 4) * 50 ≤ (i 3).val ∧ (i 3).val < win0_5.index (pointOf (i 1).val h1) (3 : Fin 4) * 50 + 50; rw [e3]; omega

theorem cover6 (i : S8x200x3x50.Idx) : ∃ t : Fin cfg0.N, (cfg0.win 6).flush t = true ∧ i ∈ ((cfg0.win 6).blk t).view.set := by
  have h0 : (i 0).val < 8 := (i 0).isLt
  have h1 : (i 1).val < 200 := (i 1).isLt
  have h2 : (i 2).val < 3 := (i 2).isLt
  have h3 : (i 3).val < 50 := (i 3).isLt
  obtain ⟨-, -, -, -, -, -, ⟨e0, e1, e2, e3⟩⟩ := idx_facts (pointOf (i 1).val h1)
  have ev : (pointOf (i 1).val h1).val = (i 1).val / 8 := rfl
  refine ⟨pointOf (i 1).val h1, flush0_6 _, ?_⟩
  rw [mem_blk6]
  intro a
  match a with
  | ⟨0, _⟩ => show win0_6.index (pointOf (i 1).val h1) (0 : Fin 4) * 8 ≤ (i 0).val ∧ (i 0).val < win0_6.index (pointOf (i 1).val h1) (0 : Fin 4) * 8 + 8; rw [e0]; omega
  | ⟨1, _⟩ => show win0_6.index (pointOf (i 1).val h1) (1 : Fin 4) * 8 ≤ (i 1).val ∧ (i 1).val < win0_6.index (pointOf (i 1).val h1) (1 : Fin 4) * 8 + 8; rw [e1, ev]; omega
  | ⟨2, _⟩ => show win0_6.index (pointOf (i 1).val h1) (2 : Fin 4) * 3 ≤ (i 2).val ∧ (i 2).val < win0_6.index (pointOf (i 1).val h1) (2 : Fin 4) * 3 + 3; rw [e2]; omega
  | ⟨3, _⟩ => show win0_6.index (pointOf (i 1).val h1) (3 : Fin 4) * 50 ≤ (i 3).val ∧ (i 3).val < win0_6.index (pointOf (i 1).val h1) (3 : Fin 4) * 50 + 50; rw [e3]; omega

/-- THE TWO ARRAYS after the region. -/
theorem final5 (c : Dev nD) : (dats m 0 c).arrAt 5 cfg0.N = KS m c :=
  (dats m 0 c).arrAt_eq_of_cover 5 (KS m c) (fun t _ => flushed5_eq m c t) (cover5)
theorem final6 (c : Dev nD) : (dats m 0 c).arrAt 6 cfg0.N = KT m c :=
  (dats m 0 c).arrAt_eq_of_cover 6 (KT m c) (fun t _ => flushed6_eq m c t) (cover6)

/-- The host's last three lines, of the two [8,200,50,3] arrays: a leading unit axis each, joined along it. -/
def tail (a b : S8x200x50x3.Idx → EReal) : S2x8x200x50x3.Idx → EReal :=
  concatenate S2x8x200x50x3 0
    [⟨S1x8x200x50x3, broadcastInDim (α := EReal) S1x8x200x50x3 ![1, 2, 3, 4] bcast_S8x200x50x3_S1x8x200x50x3_1_2_3_4 a⟩,
     ⟨S1x8x200x50x3, broadcastInDim (α := EReal) S1x8x200x50x3 ![1, 2, 3, 4] bcast_S8x200x50x3_S1x8x200x50x3_1_2_3_4 b⟩]
    concatenates_S1x8x200x50x3_S1x8x200x50x3_S2x8x200x50x3_d0

/-- The student array with its last two axes swapped, as the host's transpose leaves it. -/
def KSt (c : Dev nD) : S8x200x50x3.Idx → EReal := transpose S8x200x50x3 [0, 1, 3, 2] (KS m c) transposes_S8x200x3x50_S8x200x50x3_0_1_3_2
def KTt (c : Dev nD) : S8x200x50x3.Idx → EReal := transpose S8x200x50x3 [0, 1, 3, 2] (KT m c) transposes_S8x200x3x50_S8x200x50x3_0_1_3_2

/-- What @main returns. -/
theorem result_eq (c : Dev nD) :
    Pipeline.afterTail₀ cfgs (dats m) 0 (V0 m) [hostOps1] c main_v8 = tail (KSt m c) (KTt m c) := by
  unfold Pipeline.afterTail₀
  show StableHlo.after hostOps1 _ (Proc.devRef .tc main_v8) = _
  after_results
  have e5 : Pipeline.withArrays (cfgs 0).spec c (V0 m c) (fun w => (dats m 0 c).arrAt w (cfgs 0).N) (Proc.devRef .tc main_v3_0) = KS m c :=
    (Pipeline.withArrays_arr spec0 launch0.win.arr_inj c _ _ 5).trans (final5 m c)
  have e6 : Pipeline.withArrays (cfgs 0).spec c (V0 m c) (fun w => (dats m 0 c).arrAt w (cfgs 0).N) (Proc.devRef .tc main_v3_1) = KT m c :=
    (Pipeline.withArrays_arr spec0 launch0.win.arr_inj c _ _ 6).trans (final6 m c)
  rw [e5, e6]
  rfl

/-- THE RUN, READ: every weakly fair execution of the idealized kernel ends with its result at the tail of the two
    transposed arrays, the arguments unchanged. -/
theorem run : θ_run defs (onTc (τ := τ) (main (F := Ideal))) ⟨m, fun _ => 0, ρ⟩ (fun r => ∀ c : Dev nD,
      r.2.mem ((c.tc : Thread nD τ).loc main_v8) = tail (KSt m c) (KTt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelRun

end
-- ==== Proof.RefOps.lean ====
/-
  The reference program's four operations that read more than one element of an operand, each read at an explicit
  index (n, t, u, ·) of the literal shapes: the row maximum (a fold of max over the last axis), the conjunction over a
  unit axis, the gather of one entry per row, and the three-piece concatenation along the last axis.
-/
import proofs.«165065_j28913719837048_2_alg».proof.Proof.Gen.ReferenceIdeal
import proofs.«165065_j28913719837048_2_alg».proof.Proof.Spec
import Idealize.ShloMosaic.Lib.ValueIdx
import Idealize.ShloMosaic.Lib.Pipeline.Value
import Idealize.ShloMosaic.PureOps.Ideal.Laws
import Idealize.ShloMosaic.Lib.ReduceAll

noncomputable section

namespace Cert.ReferenceIdeal.RefValue

open Cert.ReferenceIdeal Cert.ReferenceIdeal.Gen Idealize.ShloMosaic Idealize.ShloMosaic.ValueIdx

/-! ## The row maximum -/

/-- The reduced index (n, t, u) with the vocabulary coordinate k put back is (n, t, u, k). -/
theorem lift_ix3 (h : S8x200x50x500.Reduces [3] S8x200x50) (n : Fin 8) (t : Fin 200) (u : Fin 50)
    (k : Fin (S8x200x50x500.size 3)) :
    h.lift (ix3 n t u) k = ix4 n t u (⟨k.val, k.isLt⟩ : Fin 500) := by
  funext c; apply Fin.ext
  match c with
  | ⟨0, _⟩ => rfl
  | ⟨1, _⟩ => rfl
  | ⟨2, _⟩ => rfl
  | ⟨3, _⟩ => rfl

/-- The maximum-reduce over the last axis from the -∞ word, at (n, t, u), is the row's maximum. -/
theorem reduce_max_row (x : S8x200x50x500.Idx → EReal) (h' : S8x200x50x500.ReducesTo [3] S8x200x50)
    (hu : 0 < S_.numel) (n : Fin 8) (t : Fin 200) (u : Fin 50) :
    Host.reduce (FloatOps.maximumf (F := Ideal) (φ := .f32)) x (constant (F := Ideal) S_ .f32 0xFF800000#32) h' hu (ix3 n t u)
      = Cert.Collapse.rowMax (fun v : Fin 500 => x (ix4 n t u v)) := by
  have h : S8x200x50x500.Reduces [3] S8x200x50 := by decide
  rw [Host.reduce_eq_fold_single (FloatOps.maximumf (F := Ideal) (φ := .f32)) x _ h' h hu]
  unfold Cert.Collapse.rowMax
  have hf : (x ∘ h.lift (ix3 n t u)) = fun k : Fin 500 => x (ix4 n t u k) :=
    funext fun k => congrArg x (lift_ix3 h n t u k)
  exact congrArg (fun f => Finset.fold max (Ideal.ofBits .f32 0xFF800000#32) f (Finset.univ : Finset (Fin 500))) hf

/-- The row's maximum is at least the value it is folded from, so taking the maximum with that value again changes nothing. -/
theorem max_negInf_rowMax (x : Fin 500 → EReal) :
    max Cert.Collapse.negInf (Cert.Collapse.rowMax x) = Cert.Collapse.rowMax x := by
  apply max_eq_right
  unfold Cert.Collapse.rowMax
  exact (Finset.le_fold_max _).mpr (Or.inl le_rfl)

/-! ## A conjunction of ones -/

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- A reduce by `and` from 1 of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl]
  exact foldl_andi_one x _ _ hi (fun i _ => hx i)

/-! ## The gather of one entry per row -/

section Gather
variable {α : Type}

/-- The gather with batching axes (n, t, u) and one start index per row reads, at (n, t, u, 0), the row's entry at the
    start index, read signed and clamped into [0, 499] (the entry `labOf` names). -/
theorem gather_row (x : S8x200x50x500.Idx → α) (idx : IVec S8x200x50x1x1 32) (n : Fin 8) (t : Fin 200) (u : Fin 50) :
    Host.gather gather_S8x200x50x500_S8x200x50x1x1_S8x200x50x1_n_3_012_012_3_4_1111 x idx (ix4 n t u (0 : Fin 1))
      = x (ix4 n t u (Cert.Collapse.labOf (idx (ix5 n t u (0 : Fin 1) (0 : Fin 1))))) := by
  unfold Host.gather
  congr 1
  funext a
  refine Fin.ext ?_
  show gather_S8x200x50x500_S8x200x50x1x1_S8x200x50x1_n_3_012_012_3_4_1111.start (ix4 n t u (0 : Fin 1)) idx a
      + gather_S8x200x50x500_S8x200x50x1x1_S8x200x50x1_n_3_012_012_3_4_1111.batchCoord (ix4 n t u (0 : Fin 1)) a
      + gather_S8x200x50x500_S8x200x50x1x1_S8x200x50x1_n_3_012_012_3_4_1111.offCoord (ix4 n t u (0 : Fin 1)) a = _
  match a with
  | ⟨0, _⟩ =>
    show 0 + gather_S8x200x50x500_S8x200x50x1x1_S8x200x50x1_n_3_012_012_3_4_1111.batchCoord (ix4 n t u (0 : Fin 1)) (0 : Fin 4) + 0 = _
    rw [Nat.add_zero, Nat.zero_add]; rfl
  | ⟨1, _⟩ =>
    show 0 + gather_S8x200x50x500_S8x200x50x1x1_S8x200x50x1_n_3_012_012_3_4_1111.batchCoord (ix4 n t u (0 : Fin 1)) (1 : Fin 4) + 0 = _
    rw [Nat.add_zero, Nat.zero_add]; rfl
  | ⟨2, _⟩ =>
    show 0 + gather_S8x200x50x500_S8x200x50x1x1_S8x200x50x1_n_3_012_012_3_4_1111.batchCoord (ix4 n t u (0 : Fin 1)) (2 : Fin 4) + 0 = _
    rw [Nat.add_zero, Nat.zero_add]; rfl
  | ⟨3, _⟩ =>
    have hsi : gather_S8x200x50x500_S8x200x50x1x1_S8x200x50x1_n_3_012_012_3_4_1111.siIdx (ix4 n t u (0 : Fin 1))
        ⟨0, by decide⟩ = ix5 n t u (0 : Fin 1) (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    show min (idx (gather_S8x200x50x500_S8x200x50x1x1_S8x200x50x1_n_3_012_012_3_4_1111.siIdx (ix4 n t u (0 : Fin 1))
        ⟨0, by decide⟩)).toInt.toNat 499 + 0 + 0 = _
    rw [hsi]; rfl

end Gather

/-! ## The three-piece concatenation -/

section Concat
variable {α : Type}

theorem concat3_apply0 (a b c : S8x200x50x1.Idx → α)
    (h : Shape.Concatenates [S8x200x50x1, S8x200x50x1, S8x200x50x1] S8x200x50x3 3) (n : Fin 8) (t : Fin 200) (u : Fin 50) :
    concatenate S8x200x50x3 3 [⟨S8x200x50x1, a⟩, ⟨S8x200x50x1, b⟩, ⟨S8x200x50x1, c⟩] h (ix4 n t u (0 : Fin 3))
      = a (ix4 n t u (0 : Fin 1)) := by
  refine concatenate_apply_piece (t := S8x200x50x3) (3 : Fin 4) [⟨S8x200x50x1, a⟩, ⟨S8x200x50x1, b⟩, ⟨S8x200x50x1, c⟩] h _ 0 (by show (0 : Nat) < 3; decide) S8x200x50x1 a rfl rfl 0 rfl (ix4 n t u (0 : Fin 1)) ?_ rfl
  intro b' hb'
  match b', hb' with
  | ⟨0, _⟩, _ => rfl
  | ⟨1, _⟩, _ => rfl
  | ⟨2, _⟩, _ => rfl
  | ⟨3, _⟩, hb' => exact absurd rfl hb'

theorem concat3_apply1 (a b c : S8x200x50x1.Idx → α)
    (h : Shape.Concatenates [S8x200x50x1, S8x200x50x1, S8x200x50x1] S8x200x50x3 3) (n : Fin 8) (t : Fin 200) (u : Fin 50) :
    concatenate S8x200x50x3 3 [⟨S8x200x50x1, a⟩, ⟨S8x200x50x1, b⟩, ⟨S8x200x50x1, c⟩] h (ix4 n t u (1 : Fin 3))
      = b (ix4 n t u (0 : Fin 1)) := by
  refine concatenate_apply_piece (t := S8x200x50x3) (3 : Fin 4) [⟨S8x200x50x1, a⟩, ⟨S8x200x50x1, b⟩, ⟨S8x200x50x1, c⟩] h _ 1 (by show (1 : Nat) < 3; decide) S8x200x50x1 b rfl rfl 1 rfl (ix4 n t u (0 : Fin 1)) ?_ rfl
  intro b' hb'
  match b', hb' with
  | ⟨0, _⟩, _ => rfl
  | ⟨1, _⟩, _ => rfl
  | ⟨2, _⟩, _ => rfl
  | ⟨3, _⟩, hb' => exact absurd rfl hb'

theorem concat3_apply2 (a b c : S8x200x50x1.Idx → α)
    (h : Shape.Concatenates [S8x200x50x1, S8x200x50x1, S8x200x50x1] S8x200x50x3 3) (n : Fin 8) (t : Fin 200) (u : Fin 50) :
    concatenate S8x200x50x3 3 [⟨S8x200x50x1, a⟩, ⟨S8x200x50x1, b⟩, ⟨S8x200x50x1, c⟩] h (ix4 n t u (2 : Fin 3))
      = c (ix4 n t u (0 : Fin 1)) := by
  refine concatenate_apply_piece (t := S8x200x50x3) (3 : Fin 4) [⟨S8x200x50x1, a⟩, ⟨S8x200x50x1, b⟩, ⟨S8x200x50x1, c⟩] h _ 2 (by show (2 : Nat) < 3; decide) S8x200x50x1 c rfl rfl 2 rfl (ix4 n t u (0 : Fin 1)) ?_ rfl
  intro b' hb'
  match b', hb' with
  | ⟨0, _⟩, _ => rfl
  | ⟨1, _⟩, _ => rfl
  | ⟨2, _⟩, _ => rfl
  | ⟨3, _⟩, hb' => exact absurd rfl hb'

end Concat

end Cert.ReferenceIdeal.RefValue

end
-- ==== Proof.RefSoftmax.lean ====
/-
  The reference's softmax over the vocabulary axis, read at an index (n, t, u, v): the row's shifted exponential at v
  over their sum.  Each stage of the printed program is read at the explicit index from the stage before it.
-/
import proofs.«165065_j28913719837048_2_alg».proof.Proof.RefReadP
import proofs.«165065_j28913719837048_2_alg».proof.Proof.Spec
import proofs.«165065_j28913719837048_2_alg».proof.Proof.RefOps

noncomputable section

namespace Cert.ReferenceIdeal.RefValue

open Cert.ReferenceIdeal Cert.ReferenceIdeal.Gen Idealize.ShloMosaic Idealize.ShloMosaic.ValueIdx
open Cert.ReferenceIdeal.ReadP

/-- Row (n, t, u) of a logits array, as a function of the vocabulary entry. -/
abbrev row (x : (⟨S8x200x50x500, .f32⟩ : BufTy).Contents (Elt Ideal)) (n : Fin 8) (t : Fin 200) (u : Fin 50) : Fin 500 → EReal :=
  fun v : Fin 500 => x (ix4 n t u v)

variable (x : (⟨S8x200x50x500, .f32⟩ : BufTy).Contents (Elt Ideal)) (n : Fin 8) (t : Fin 200) (u : Fin 50)

/-- Broadcasting a [8,200,50] array to [8,200,50,1] and on to [8,200,50,500] reads it at (n, t, u). -/
theorem idx_bcast34 (v : Fin 500) : idx_main_v3 (idx_main_v4 (ix4 n t u v)) = ix3 n t u :=
  funext fun a => Fin.ext (by match a with | ⟨0, _⟩ => rfl | ⟨1, _⟩ => rfl | ⟨2, _⟩ => rfl)

theorem idx_bcast89 (v : Fin 500) : idx_main_v8 (idx_main_v9 (ix4 n t u v)) = ix3 n t u :=
  funext fun a => Fin.ext (by match a with | ⟨0, _⟩ => rfl | ⟨1, _⟩ => rfl | ⟨2, _⟩ => rfl)

/-- The sum's operand index over (n, t, u) at coordinate k is (n, t, u, k). -/
theorem idx_sum7 (k : Fin 500) : idx_main_v7 (ix3 n t u) k = ix4 n t u k :=
  funext fun a => Fin.ext (by match a with | ⟨0, _⟩ => rfl | ⟨1, _⟩ => rfl | ⟨2, _⟩ => rfl | ⟨3, _⟩ => rfl)

/-- The maximum with -∞ of the reduced maximum is the row's maximum. -/
theorem v2_at : val_main_v2 (F := Ideal) x (ix3 n t u) = Cert.Collapse.rowMax (row x n t u) := by
  have e0 : val_main_v0 (F := Ideal) x (ix3 n t u) = Cert.Collapse.rowMax (row x n t u) :=
    reduce_max_row x reducesTo_S8x200x50x500_S8x200x50_d3 h_S_ n t u
  rw [val_main_v2_apply, e0, val_main_v1_apply, val_main_cst_0_apply]
  exact max_negInf_rowMax _

/-- The shifted logit. -/
theorem v5_at (v : Fin 500) :
    val_main_v5 (F := Ideal) x (ix4 n t u v) = x (ix4 n t u v) - Cert.Collapse.rowMax (row x n t u) := by
  rw [val_main_v5_apply, val_main_v4_apply, val_main_v3_apply, idx_bcast34, v2_at]
  rfl

/-- The shifted exponential. -/
theorem v6_at (v : Fin 500) : val_main_v6 (F := Ideal) x (ix4 n t u v) = Cert.Collapse.ex (row x n t u) v := by
  rw [val_main_v6_apply, v5_at]
  rfl

/-- The sum of the row's shifted exponentials (the zero word the sum starts from adds nothing). -/
theorem v7_at : val_main_v7 (F := Ideal) x (ix3 n t u) = Cert.Collapse.den (row x n t u) := by
  rw [val_main_v7_apply, val_main_cst_1_apply]
  show Ideal.ofBits .f32 0x00000000#32 + _ = _
  rw [Ideal.ofBits_zero_f32, zero_add]
  unfold Cert.Collapse.den
  refine Finset.sum_congr rfl fun k _ => ?_
  rw [idx_sum7, v6_at]

/-- THE SOFTMAX at (n, t, u, v): the shifted exponential over the row's sum. -/
theorem v10_at (v : Fin 500) :
    val_main_v10 (F := Ideal) x (ix4 n t u v)
      = Ideal.div (Cert.Collapse.ex (row x n t u) v) (Cert.Collapse.den (row x n t u)) := by
  rw [val_main_v10_apply, v6_at, val_main_v9_apply, val_main_v8_apply, idx_bcast89, v7_at]
  rfl

/-- The second softmax of the program is the same term of its own argument. -/
theorem v21_eq_v10 : val_main_v21 (F := Ideal) x = val_main_v10 (F := Ideal) x := rfl

end Cert.ReferenceIdeal.RefValue

end
-- ==== Proof.RefGather.lean ====
/-
  The reference's `take_along_axis` of a softmax by the label array, read at (n, t, u, 0): under the hypothesis that
  every label word lies in [0, 500) read signed, the index normalisation returns the label itself, the in-range test is
  1, and the gather reads the row's entry the label names — the label's share of the softmax.
-/
import proofs.«165065_j28913719837048_2_alg».proof.Proof.RefReadP
import proofs.«165065_j28913719837048_2_alg».proof.Proof.Spec
import proofs.«165065_j28913719837048_2_alg».proof.Proof.RefOps
import proofs.«165065_j28913719837048_2_alg».proof.Proof.RefSoftmax

noncomputable section

namespace Cert.ReferenceIdeal.RefValue

open Cert.ReferenceIdeal Cert.ReferenceIdeal.Gen Idealize.ShloMosaic Idealize.ShloMosaic.ValueIdx
open Cert.ReferenceIdeal.ReadP

variable (x2 : (⟨S8x50, .i32⟩ : BufTy).Contents (Elt Ideal))
  (hy : ∀ (n : Fin 8) (u : Fin 50), 0 ≤ (x2 (ix2 n u)).toInt ∧ (x2 (ix2 n u)).toInt < 500)

private theorem toInt_zero32 : (0#32 : BitVec 32).toInt = 0 := by decide
private theorem toInt_499 : (499#32 : BitVec 32).toInt = 499 := by decide

/-- The label array broadcast to [8,200,50,1] reads the label of (n, u). -/
theorem v23_at (i : S8x200x50x1.Idx) : val_main_v23 (F := Ideal) x2 i = x2 (ix2 (i 0) (i 2)) := by
  rw [val_main_v23_apply, val_main_v22_apply]
  exact congrArg x2 (funext fun a => Fin.ext (by match a with | ⟨0, _⟩ => rfl | ⟨1, _⟩ => rfl))

include hy in
/-- A label that is not negative is left as it is by the wrap-around of negative indices. -/
theorem c0v4_at (i : S8x200x50x1.Idx) : val_main_call0_v4 (F := Ideal) x2 i = x2 (ix2 (i 0) (i 2)) := by
  rw [val_main_call0_v4_apply, val_main_call0_v1_apply, val_main_call0_v0_apply, val_main_call0_c_apply, v23_at]
  have h0 : IntOp.cmpi .slt (x2 (ix2 (i 0) (i 2))) 0#32 = 0#1 := by
    apply eq_zero_of_ne_one
    rw [IntOp.cmpi_slt, toInt_zero32]
    have := (hy (i 0) (i 2)).1
    omega
  rw [h0, select_zero]

/-- The reshape to [8,200,50,1,1] reads (n, t, u, 0, 0) at (n, t, u, 0). -/
theorem idx_reshape5 (n : Fin 8) (t : Fin 200) (u : Fin 50) :
    idx_main_call0_v5 (ix5 n t u (0 : Fin 1) (0 : Fin 1)) = ix4 n t u (0 : Fin 1) := by
  have hn := n.isLt; have ht := t.isLt; have hu := u.isLt
  funext a; apply Fin.ext
  match a with
  | ⟨0, _⟩ =>
    show ((((n.val * 200 + t.val) * 50 + u.val) * 1 + 0) * 1 + 0) / 10000 = n.val
    omega
  | ⟨1, _⟩ =>
    show ((((n.val * 200 + t.val) * 50 + u.val) * 1 + 0) * 1 + 0) / 50 % 200 = t.val
    omega
  | ⟨2, _⟩ =>
    show ((((n.val * 200 + t.val) * 50 + u.val) * 1 + 0) * 1 + 0) / 1 % 50 = u.val
    omega
  | ⟨3, _⟩ => rfl

include hy in
/-- The start index of row (n, t, u) is the label of (n, u). -/
theorem c0v5_at (n : Fin 8) (t : Fin 200) (u : Fin 50) :
    val_main_call0_v5 (F := Ideal) x2 (ix5 n t u (0 : Fin 1) (0 : Fin 1)) = x2 (ix2 n u) := by
  rw [val_main_call0_v5_apply, idx_reshape5]
  exact c0v4_at x2 hy _

include hy in
/-- Every start index is some label. -/
theorem c0v5_any (i : S8x200x50x1x1.Idx) : ∃ (n : Fin 8) (u : Fin 50), val_main_call0_v5 (F := Ideal) x2 i = x2 (ix2 n u) :=
  ⟨_, _, by rw [val_main_call0_v5_apply]; exact c0v4_at x2 hy _⟩

include hy in
/-- Every start index passes the range test 0 ≤ · ≤ 499. -/
theorem c0v11_one (i : S8x200x50x1x1.Idx) : val_main_call0_v11 (F := Ideal) x2 i = 1#1 := by
  obtain ⟨n, u, e⟩ := c0v5_any x2 hy i
  rw [val_main_call0_v11_apply, val_main_call0_v7_apply, val_main_call0_v10_apply, val_main_call0_v6_apply,
    val_main_call0_c_2_apply, val_main_call0_v9_apply, val_main_call0_v8_apply, val_main_call0_c_1_apply, e]
  refine IntOp.andi_eq_one.2 ⟨?_, ?_⟩
  · rw [IntOp.cmpi_sge, toInt_zero32]; exact (hy n u).1
  · rw [IntOp.cmpi_sle, toInt_499]; have := (hy n u).2; omega

include hy in
/-- So the conjunction over the unit axis is 1 everywhere. -/
theorem c0v12_at (i : S8x200x50x1.Idx) : val_main_call0_v12 (F := Ideal) x2 i = 1#1 :=
  reduce_andi_one (val_main_call0_v11 (F := Ideal) x2) (val_main_call0_c_3 (F := Ideal))
    reducesTo_S8x200x50x1x1_S8x200x50x1_d4 h_S_ i rfl (c0v11_one x2 hy)

include hy in
/-- THE LABEL'S SHARE: `take_along_axis` of the softmax at (n, t, u, 0) is the softmax at the entry the label names. -/
theorem v24_at (x : (⟨S8x200x50x500, .f32⟩ : BufTy).Contents (Elt Ideal)) (n : Fin 8) (t : Fin 200) (u : Fin 50) :
    val_main_v24 (F := Ideal) x x2 (ix4 n t u (0 : Fin 1))
      = Cert.Collapse.py (row x n t u) (Cert.Collapse.labOf (x2 (ix2 n u))) := by
  have e : val_main_call0_v13 (F := Ideal) x x2 (ix4 n t u (0 : Fin 1))
      = val_main_v10 (F := Ideal) x (ix4 n t u (Cert.Collapse.labOf
          (val_main_call0_v5 (F := Ideal) x2 (ix5 n t u (0 : Fin 1) (0 : Fin 1))))) :=
    gather_row (val_main_v10 (F := Ideal) x) (val_main_call0_v5 (F := Ideal) x2) n t u
  rw [val_main_v24_apply, c0v12_at x2 hy, select_one, e, c0v5_at x2 hy, v10_at]
  rfl

/-- The program's second `take_along_axis` is the same term of its own arguments. -/
theorem v25_eq_v24 (x : (⟨S8x200x50x500, .f32⟩ : BufTy).Contents (Elt Ideal)) : val_main_v25 (F := Ideal) x x2 = val_main_v24 (F := Ideal) x x2 := rfl

end Cert.ReferenceIdeal.RefValue

end
-- ==== Proof.RefValue.lean ====
/-
  The reference's two results before they are stacked, read at an index (n, t, u, k): the student's entry — the
  logarithm of the clipped share — and the teacher's — the share itself, a negative remainder replaced by ε —, each
  times the validity mask [t < x_len] · [u < y_len].
-/
import proofs.«165065_j28913719837048_2_alg».proof.Proof.RefReadP
import proofs.«165065_j28913719837048_2_alg».proof.Proof.Spec
import proofs.«165065_j28913719837048_2_alg».proof.Proof.RefOps
import proofs.«165065_j28913719837048_2_alg».proof.Proof.RefSoftmax
import proofs.«165065_j28913719837048_2_alg».proof.Proof.RefGather

noncomputable section

namespace Cert.ReferenceIdeal.RefValue

open Cert.ReferenceIdeal Cert.ReferenceIdeal.Gen Idealize.ShloMosaic Idealize.ShloMosaic.ValueIdx
open Cert.ReferenceIdeal.ReadP

variable (x : (⟨S8x200x50x500, .f32⟩ : BufTy).Contents (Elt Ideal)) (x2 : (⟨S8x50, .i32⟩ : BufTy).Contents (Elt Ideal)) (x3 x4 : (⟨S8, .i32⟩ : BufTy).Contents (Elt Ideal))
  (hy : ∀ (n : Fin 8) (u : Fin 50), 0 ≤ (x2 (ix2 n u)).toInt ∧ (x2 (ix2 n u)).toInt < 500)
  (n : Fin 8) (t : Fin 200) (u : Fin 50)

/-! ## The blank's share and the remainder -/

/-- The slice [.., 0:1] of the softmax at (n, t, u, 0) is the blank's share. -/
theorem v26_at : val_main_v26 (F := Ideal) x (ix4 n t u (0 : Fin 1)) = Cert.Collapse.blank (row x n t u) := by
  have e : idx_main_v26 (ix4 n t u (0 : Fin 1)) = ix4 n t u (⟨0, by decide⟩ : Fin 500) :=
    funext fun a => Fin.ext (by match a with | ⟨0, _⟩ => rfl | ⟨1, _⟩ => rfl | ⟨2, _⟩ => rfl | ⟨3, _⟩ => rfl)
  rw [val_main_v26_apply, e, v10_at]
  rfl

include hy in
/-- What is left of the unit mass after the label's share and the blank's. -/
theorem v30_at : val_main_v30 (F := Ideal) x x2 (ix4 n t u (0 : Fin 1))
    = Cert.Collapse.rem (row x n t u) (Cert.Collapse.py (row x n t u) (Cert.Collapse.labOf (x2 (ix2 n u)))) := by
  rw [val_main_v30_apply, val_main_v29_apply, val_main_v28_apply, val_main_cst_5_apply, v24_at x2 hy, v26_at]
  rfl

/-! ## The mask -/

/-- The product of the two length comparisons, converted to 0 / 1. -/
theorem v59_at : val_main_v59 (F := Ideal) x3 x4 (ix4 n t u (0 : Fin 1))
    = Cert.Collapse.mask (x3 (ix1 n)) (x4 (ix1 n)) t.val u.val := by
  have e3 : idx_main_v43 (idx_main_v45 (idx_main_v48 (idx_main_v57 (ix4 n t u (0 : Fin 1))))) = ix1 n :=
    funext fun a => Fin.ext (by match a with | ⟨0, _⟩ => rfl)
  have e4 : idx_main_v51 (idx_main_v53 (idx_main_v56 (idx_main_v58 (ix4 n t u (0 : Fin 1))))) = ix1 n :=
    funext fun a => Fin.ext (by match a with | ⟨0, _⟩ => rfl)
  rw [val_main_v59_apply, val_main_v57_apply, val_main_v48_apply, val_main_v47_apply, val_main_v46_apply,
    val_main_v44_apply, val_main_v42_apply, val_main_v41_apply, val_main_v45_apply, val_main_v43_apply, e3,
    val_main_v58_apply, val_main_v56_apply, val_main_v55_apply, val_main_v54_apply,
    val_main_v52_apply, val_main_v50_apply, val_main_v49_apply, val_main_v53_apply, val_main_v51_apply, e4]
  rfl

theorem idx_bcast60 (k : Fin 3) : idx_main_v60 (ix4 n t u k) = ix4 n t u (0 : Fin 1) :=
  funext fun a => Fin.ext (by match a with | ⟨0, _⟩ => rfl | ⟨1, _⟩ => rfl | ⟨2, _⟩ => rfl | ⟨3, _⟩ => rfl)

theorem idx_bcast62 (k : Fin 3) : idx_main_v62 (ix4 n t u k) = ix4 n t u (0 : Fin 1) :=
  funext fun a => Fin.ext (by match a with | ⟨0, _⟩ => rfl | ⟨1, _⟩ => rfl | ⟨2, _⟩ => rfl | ⟨3, _⟩ => rfl)

/-! ## The student -/

/-- `log(clip(·, ε, 1))` of the concatenated shares. -/
theorem v39_at (i : S8x200x50x3.Idx) :
    val_main_v39 (F := Ideal) x x2 i = Cert.Collapse.clipLog (val_main_v37 (F := Ideal) x x2 i) := by
  rw [val_main_v39_apply, val_main_v38_apply, val_main_call3_v4_apply, val_main_call3_v3_apply, val_main_cst_10_apply,
    val_main_call3_v2_apply, val_main_call3_v1_apply, val_main_call3_v0_apply, val_main_cst_9_apply]
  rfl

/-- The student's entry at (n, t, u, k) before the concatenation is opened. -/
theorem v61_core (k : Fin 3) : val_main_v61 (F := Ideal) x x2 x3 x4 (ix4 n t u k)
    = Cert.Collapse.clipLog (val_main_v37 (F := Ideal) x x2 (ix4 n t u k))
      * Cert.Collapse.mask (x3 (ix1 n)) (x4 (ix1 n)) t.val u.val := by
  rw [val_main_v61_apply, v39_at, val_main_v60_apply, idx_bcast60, v59_at]
  rfl

theorem v37_at0 : val_main_v37 (F := Ideal) x x2 (ix4 n t u (0 : Fin 3)) = val_main_v24 (F := Ideal) x x2 (ix4 n t u (0 : Fin 1)) :=
  concat3_apply0 _ _ _ concatenates_S8x200x50x1_S8x200x50x1_S8x200x50x1_S8x200x50x3_d3 n t u
theorem v37_at1 : val_main_v37 (F := Ideal) x x2 (ix4 n t u (1 : Fin 3)) = val_main_v26 (F := Ideal) x (ix4 n t u (0 : Fin 1)) :=
  concat3_apply1 _ _ _ concatenates_S8x200x50x1_S8x200x50x1_S8x200x50x1_S8x200x50x3_d3 n t u
theorem v37_at2 : val_main_v37 (F := Ideal) x x2 (ix4 n t u (2 : Fin 3)) = val_main_v30 (F := Ideal) x x2 (ix4 n t u (0 : Fin 1)) :=
  concat3_apply2 _ _ _ concatenates_S8x200x50x1_S8x200x50x1_S8x200x50x1_S8x200x50x3_d3 n t u

include hy in
theorem student0 : val_main_v61 (F := Ideal) x x2 x3 x4 (ix4 n t u (0 : Fin 3))
    = Cert.Collapse.clipLog (Cert.Collapse.py (row x n t u) (Cert.Collapse.labOf (x2 (ix2 n u))))
      * Cert.Collapse.mask (x3 (ix1 n)) (x4 (ix1 n)) t.val u.val := by
  rw [v61_core, v37_at0, v24_at x2 hy]

theorem student1 : val_main_v61 (F := Ideal) x x2 x3 x4 (ix4 n t u (1 : Fin 3))
    = Cert.Collapse.clipLog (Cert.Collapse.blank (row x n t u))
      * Cert.Collapse.mask (x3 (ix1 n)) (x4 (ix1 n)) t.val u.val := by
  rw [v61_core, v37_at1, v26_at]

include hy in
theorem student2 : val_main_v61 (F := Ideal) x x2 x3 x4 (ix4 n t u (2 : Fin 3))
    = Cert.Collapse.clipLog (Cert.Collapse.rem (row x n t u) (Cert.Collapse.py (row x n t u) (Cert.Collapse.labOf (x2 (ix2 n u)))))
      * Cert.Collapse.mask (x3 (ix1 n)) (x4 (ix1 n)) t.val u.val := by
  rw [v61_core, v37_at2, v30_at x x2 hy]

/-! ## The teacher -/

/-- The teacher's pieces are the same terms of their arguments as the student's. -/
theorem v27_eq_v26 : val_main_v27 (F := Ideal) x = val_main_v26 (F := Ideal) x := rfl
theorem v33_eq_v30 : val_main_v33 (F := Ideal) x x2 = val_main_v30 (F := Ideal) x x2 := rfl

/-- The remainder, replaced by ε where it is negative. -/
theorem v36_at (i : S8x200x50x1.Idx) : val_main_v36 (F := Ideal) x x2 i
    = Cert.Collapse.floorNeg (val_main_v33 (F := Ideal) x x2 i) := by
  rw [val_main_v36_apply, val_main_v35_apply, val_main_v34_apply, val_main_cst_7_apply, val_main_call2_v1_apply,
    val_main_call2_v0_apply, val_main_cst_8_apply]
  rfl

theorem v40_at0 : val_main_v40 (F := Ideal) x x2 (ix4 n t u (0 : Fin 3)) = val_main_v25 (F := Ideal) x x2 (ix4 n t u (0 : Fin 1)) :=
  concat3_apply0 _ _ _ concatenates_S8x200x50x1_S8x200x50x1_S8x200x50x1_S8x200x50x3_d3 n t u
theorem v40_at1 : val_main_v40 (F := Ideal) x x2 (ix4 n t u (1 : Fin 3)) = val_main_v27 (F := Ideal) x (ix4 n t u (0 : Fin 1)) :=
  concat3_apply1 _ _ _ concatenates_S8x200x50x1_S8x200x50x1_S8x200x50x1_S8x200x50x3_d3 n t u
theorem v40_at2 : val_main_v40 (F := Ideal) x x2 (ix4 n t u (2 : Fin 3)) = val_main_v36 (F := Ideal) x x2 (ix4 n t u (0 : Fin 1)) :=
  concat3_apply2 _ _ _ concatenates_S8x200x50x1_S8x200x50x1_S8x200x50x1_S8x200x50x3_d3 n t u

theorem v63_core (k : Fin 3) : val_main_v63 (F := Ideal) x x2 x3 x4 (ix4 n t u k)
    = val_main_v40 (F := Ideal) x x2 (ix4 n t u k) * Cert.Collapse.mask (x3 (ix1 n)) (x4 (ix1 n)) t.val u.val := by
  rw [val_main_v63_apply, val_main_v62_apply, idx_bcast62, v59_at]
  rfl

include hy in
theorem teacher0 : val_main_v63 (F := Ideal) x x2 x3 x4 (ix4 n t u (0 : Fin 3))
    = Cert.Collapse.py (row x n t u) (Cert.Collapse.labOf (x2 (ix2 n u)))
      * Cert.Collapse.mask (x3 (ix1 n)) (x4 (ix1 n)) t.val u.val := by
  rw [v63_core, v40_at0, v25_eq_v24, v24_at x2 hy]

theorem teacher1 : val_main_v63 (F := Ideal) x x2 x3 x4 (ix4 n t u (1 : Fin 3))
    = Cert.Collapse.blank (row x n t u) * Cert.Collapse.mask (x3 (ix1 n)) (x4 (ix1 n)) t.val u.val := by
  rw [v63_core, v40_at1, v27_eq_v26, v26_at]

include hy in
theorem teacher2 : val_main_v63 (F := Ideal) x x2 x3 x4 (ix4 n t u (2 : Fin 3))
    = Cert.Collapse.floorNeg (Cert.Collapse.rem (row x n t u) (Cert.Collapse.py (row x n t u) (Cert.Collapse.labOf (x2 (ix2 n u)))))
      * Cert.Collapse.mask (x3 (ix1 n)) (x4 (ix1 n)) t.val u.val := by
  rw [v63_core, v40_at2, v36_at, v33_eq_v30, v30_at x x2 hy]

/-! ## The two results -/

/-- THE STUDENT at (n, t, u, k). -/
theorem ref_student (x0 : (⟨S8x200x50x500, .f32⟩ : BufTy).Contents (Elt Ideal)) (x2 : (⟨S8x50, .i32⟩ : BufTy).Contents (Elt Ideal)) (x3 x4 : (⟨S8, .i32⟩ : BufTy).Contents (Elt Ideal))
    (hy : ∀ (n : Fin 8) (u : Fin 50), 0 ≤ (x2 (ix2 n u)).toInt ∧ (x2 (ix2 n u)).toInt < 500)
    (n : Fin 8) (t : Fin 200) (u : Fin 50) (k : Fin 3) :
    Cert.ReferenceIdeal.ReadP.val_main_v61 (F := Ideal) x0 x2 x3 x4 (ix4 n t u k)
      = Cert.Collapse.student (fun v : Fin 500 => x0 (ix4 n t u v)) (Cert.Collapse.py (fun v : Fin 500 => x0 (ix4 n t u v)) (Cert.Collapse.labOf (x2 (ix2 n u)))) k
        * Cert.Collapse.mask (x3 (ix1 n)) (x4 (ix1 n)) t.val u.val := by
  match k with
  | ⟨0, _⟩ => exact student0 x0 x2 x3 x4 hy n t u
  | ⟨1, _⟩ => exact student1 x0 x2 x3 x4 n t u
  | ⟨2, _⟩ => exact student2 x0 x2 x3 x4 hy n t u

/-- THE TEACHER at (n, t, u, k). -/
theorem ref_teacher (x1 : (⟨S8x200x50x500, .f32⟩ : BufTy).Contents (Elt Ideal)) (x2 : (⟨S8x50, .i32⟩ : BufTy).Contents (Elt Ideal)) (x3 x4 : (⟨S8, .i32⟩ : BufTy).Contents (Elt Ideal))
    (hy : ∀ (n : Fin 8) (u : Fin 50), 0 ≤ (x2 (ix2 n u)).toInt ∧ (x2 (ix2 n u)).toInt < 500)
    (n : Fin 8) (t : Fin 200) (u : Fin 50) (k : Fin 3) :
    Cert.ReferenceIdeal.ReadP.val_main_v63 (F := Ideal) x1 x2 x3 x4 (ix4 n t u k)
      = Cert.Collapse.teacher (fun v : Fin 500 => x1 (ix4 n t u v)) (Cert.Collapse.py (fun v : Fin 500 => x1 (ix4 n t u v)) (Cert.Collapse.labOf (x2 (ix2 n u)))) k
        * Cert.Collapse.mask (x3 (ix1 n)) (x4 (ix1 n)) t.val u.val := by
  match k with
  | ⟨0, _⟩ => exact teacher0 x1 x2 x3 x4 hy n t u
  | ⟨1, _⟩ => exact teacher1 x1 x2 x3 x4 n t u
  | ⟨2, _⟩ => exact teacher2 x1 x2 x3 x4 hy n t u

end Cert.ReferenceIdeal.RefValue

end
-- ==== Proof.Bridge.lean ====
/-
  The bridge: the reference's two arrays are the kernel's.

  At (n, t, u, k) the reference's student array holds number `k` of row (n, t, u) with the label's share read off the
  softmax at the label; the kernel's transposed student array holds the same number with the share taken as a sum against
  the label's indicator.  For a label in range the two shares are one (`Collapse.pySum_eq`).  Likewise the teacher arrays.
-/
import proofs.«165065_j28913719837048_2_alg».proof.Proof.KernelRun
import proofs.«165065_j28913719837048_2_alg».proof.Proof.RefValue

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.ArrayValue Cert.KernelIdeal.KernelRun

variable (m : (ℓ : Loc nD τ sig) → Buf (Elt Ideal) ℓ)

/-- The transposed student array at (n, t, u, k) is the student's number `k` of row (n, t, u). -/
theorem KSt_at (c : Dev nD) (n : Fin 8) (t : Fin 200) (u : Fin 50) (k : Fin 3) :
    KSt m c (ix4 n t u k) = studentAt m c n t k u := by
  unfold KSt
  exact transpose_apply [0, 1, 3, 2] (KS m c) transposes_S8x200x3x50_S8x200x50x3_0_1_3_2 (ix4 n t u k) (ix4 n t k u)
    (fun b => by match b with | ⟨0, _⟩ => rfl | ⟨1, _⟩ => rfl | ⟨2, _⟩ => rfl | ⟨3, _⟩ => rfl)
theorem KTt_at (c : Dev nD) (n : Fin 8) (t : Fin 200) (u : Fin 50) (k : Fin 3) :
    KTt m c (ix4 n t u k) = teacherAt m c n t k u := by
  unfold KTt
  exact transpose_apply [0, 1, 3, 2] (KT m c) transposes_S8x200x3x50_S8x200x50x3_0_1_3_2 (ix4 n t u k) (ix4 n t k u)
    (fun b => by match b with | ⟨0, _⟩ => rfl | ⟨1, _⟩ => rfl | ⟨2, _⟩ => rfl | ⟨3, _⟩ => rfl)

/-- THE STUDENT ARRAYS AGREE, for labels in range. -/
theorem student_eq (c : Dev nD)
    (hy : ∀ (n : Fin 8) (u : Fin 50), 0 ≤ (m ((c : Thread nD τ).loc main_arg2) (ix2 n u)).toInt ∧ (m ((c : Thread nD τ).loc main_arg2) (ix2 n u)).toInt < 500) :
    Cert.ReferenceIdeal.ReadP.val_main_v61 (F := Ideal) (m ((c : Thread nD τ).loc main_arg0)) (m ((c : Thread nD τ).loc main_arg2))
        (m ((c : Thread nD τ).loc main_arg3)) (m ((c : Thread nD τ).loc main_arg4))
      = KSt m c := by
  funext y
  obtain ⟨n, t, u, k, rfl⟩ : ∃ (n : Fin 8) (t : Fin 200) (u : Fin 50) (k : Fin 3), y = ix4 n t u k := ⟨y 0, y 1, y 2, y 3, eq_ix4 y⟩
  rw [Cert.ReferenceIdeal.RefValue.ref_student _ _ _ _ hy, KSt_at]
  unfold studentAt
  rw [Cert.Collapse.pySum_eq _ _ (hy n u).1 (hy n u).2]

/-- THE TEACHER ARRAYS AGREE. -/
theorem teacher_eq (c : Dev nD)
    (hy : ∀ (n : Fin 8) (u : Fin 50), 0 ≤ (m ((c : Thread nD τ).loc main_arg2) (ix2 n u)).toInt ∧ (m ((c : Thread nD τ).loc main_arg2) (ix2 n u)).toInt < 500) :
    Cert.ReferenceIdeal.ReadP.val_main_v63 (F := Ideal) (m ((c : Thread nD τ).loc main_arg1)) (m ((c : Thread nD τ).loc main_arg2))
        (m ((c : Thread nD τ).loc main_arg3)) (m ((c : Thread nD τ).loc main_arg4))
      = KTt m c := by
  funext y
  obtain ⟨n, t, u, k, rfl⟩ : ∃ (n : Fin 8) (t : Fin 200) (u : Fin 50) (k : Fin 3), y = ix4 n t u k := ⟨y 0, y 1, y 2, y 3, eq_ix4 y⟩
  rw [Cert.ReferenceIdeal.RefValue.ref_teacher _ _ _ _ hy, KTt_at]
  unfold teacherAt
  rw [Cert.Collapse.pySum_eq _ _ (hy n u).1 (hy n u).2]

/-- So the reference's result is the kernel's: the same tail of equal arrays. -/
theorem result_eq (c : Dev nD)
    (hy : ∀ (n : Fin 8) (u : Fin 50), 0 ≤ (m ((c : Thread nD τ).loc main_arg2) (ix2 n u)).toInt ∧ (m ((c : Thread nD τ).loc main_arg2) (ix2 n u)).toInt < 500) :
    Cert.ReferenceIdeal.ReadP.val_main_v66 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
      = tail (KSt m c) (KTt m c) := by
  rw [← student_eq m c hy, ← teacher_eq m c hy]
  rfl

end Cert.Bridge

end
-- ==== Proof.PreRange.lean ====
/-
  The precondition read back at one label: every word of the label array lies in [0, 500), read signed.

  The precondition is one bit: the conjunction of four `all`-reductions.  A conjunction that is 1 has every conjunct 1;
  an `all` over an array that is 1 has a 1 at every index; and the two comparisons that are 1 at a label say
  `0 ≤ y` and `y < 500` of that word as a signed integer.
-/
import proofs.«165065_j28913719837048_2_alg».proof.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

/-- The scalar shape has one index. -/
instance : Subsingleton S_.Idx := ⟨fun a b => funext fun d => d.elim0⟩

theorem ofBool_eq_one (b : Bool) : BitVec.ofBool b = 1#1 ↔ b = true := by cases b <;> decide

/-- A word that compares `≥ 0` and `< 500` signed is in [0, 500) as an integer. -/
theorem range_of_cmp (w : BitVec 32) (h0 : IntOp.cmpi .sge w (0#32) = 1#1) (h5 : IntOp.cmpi .slt w (500#32) = 1#1) :
    0 ≤ w.toInt ∧ w.toInt < 500 := by
  unfold IntOp.cmpi at h0 h5
  rw [ofBool_eq_one] at h0 h5
  simp only [BitVec.slt, BitVec.sle, decide_eq_true_eq] at h0 h5
  have e0 : (0#32 : BitVec 32).toInt = 0 := by decide
  have e5 : (500#32 : BitVec 32).toInt = 500 := by decide
  rw [e0] at h0
  rw [e5] at h5
  exact ⟨h0, h5⟩

/-- THE PRECONDITION DECODED: every label word is in range. -/
theorem label_range {F : FTy → Type} [FloatOps F] [Facts] (a0 a1 : FVec F S8x200x50x500 .f32) (y : IVec S8x50 32) (xl yl : IVec S8 32)
    (h : fn (F := F) a0 a1 y xl yl = fun _ => 1#1) (i : S8x50.Idx) :
    0 ≤ (y i).toInt ∧ (y i).toInt < 500 := by
  have e := congrFun h ix0
  dsimp only [fn, fn_part1] at e
  obtain ⟨e12, e15⟩ := IntOp.andi_eq_one.1 e
  obtain ⟨-, e11⟩ := IntOp.andi_eq_one.1 e12
  have g0 := Host.reduce_andi_all _ _ _ _ _ e11 i
  have g5 := Host.reduce_andi_all _ _ _ _ _ e15 i
  exact range_of_cmp (y i) g0 g5

end Cert.PreRange

end
-- ==== Proof.RefRun.lean ====
/-
  THE REFERENCE'S RUN. The program's @main is a list of 128 host operations, each writing one buffer of its own from the
  buffers before it; after the run a buffer holds the fold of the operations' results over the contents at launch.

  The list is cut before each of its three concatenations into four stretches. For each stretch, and ANY contents `W` before
  it, the buffers the later stretches read hold a function of what the stretch finds: the stage `val_<buffer>` of the
  arguments for the first stretch; for the others the functions `G39`, `G64`, `G65`, `G66`, which take a concatenation's
  operands as arguments. The first stretch (the two softmaxes, the two gathers, the shares and remainders) is read ONE
  OPERATION AT A TIME: operation k writes reference k of `wl1` and nothing else, so a buffer keeps what its own operation left
  through every later one (`after_take_stable`), and what operation k leaves is its function of its operands' stages
  (`R1_<buffer>`, in program order, each from the ones before it). Composed (`after_v66`), the program's result is the stage
  `val_main_v66` of the arguments' contents at launch, and the arguments are unchanged (`after_arg0 … after_arg4`): `run`.
-/
import proofs.«165065_j28913719837048_2_alg».proof.Proof.RefOpsP
import proofs.«165065_j28913719837048_2_alg».proof.Proof.RefReadP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- Operations 1–91: the two softmaxes, the two gathers, the shares and remainders. -/
abbrev ops1 : List (HloOp τ sig (Elt F)) :=
  [ nullary main_cst (constant S_ .f32 0xFF800000#32),
    binary main_arg0 main_cst main_v0 ((fun x v => Host.reduce FloatOps.maximumf x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)),
    nullary main_cst_0 (constant S_ .f32 0xFF800000#32),
    unary main_cst_0 main_v1 (broadcastInDim S8x200x50 ![] bcast_S_S8x200x50 : (⟨S_, .f32⟩ : BufTy).Contents (Elt F) → (⟨S8x200x50, .f32⟩ : BufTy).Contents (Elt F)),
    binary main_v1 main_v0 main_v2 (maximumf : (⟨S8x200x50, .f32⟩ : BufTy).Contents (Elt F) → (⟨S8x200x50, .f32⟩ : BufTy).Contents (Elt F) → (⟨S8x200x50, .f32⟩ : BufTy).Contents (Elt F)),
    unary main_v2 main_v3 (broadcastInDim S8x200x50x1 ![0, 1, 2] bcast_S8x200x50_S8x200x50x1_0_1_2 : (⟨S8x200x50, .f32⟩ : BufTy).Contents (Elt F) → (⟨S8x200x50x1, .f32⟩ : BufTy).Contents (Elt F)),
    unary main_v3 main_v4 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)),
    binary main_arg0 main_v4 main_v5 (subf : (⟨S8x200x50x500, .f32⟩ : BufTy).Contents (Elt F) → (⟨S8x200x50x500, .f32⟩ : BufTy).Contents (Elt F) → (⟨S8x200x50x500, .f32⟩ : BufTy).Contents (Elt F)),
    unary main_v5 main_v6 (Host.exp : (⟨S8x200x50x500, .f32⟩ : BufTy).Contents (Elt F) → (⟨S8x200x50x500, .f32⟩ : BufTy).Contents (Elt F)),
    nullary main_cst_1 (constant S_ .f32 0x00000000#32),
    binary main_v6 main_cst_1 main_v7 ((fun x v => Host.reduceAdd x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)),
    unary main_v7 main_v8 (broadcastInDim S8x200x50x1 ![0, 1, 2] bcast_S8x200x50_S8x200x50x1_0_1_2 : (⟨S8x200x50, .f32⟩ : BufTy).Contents (Elt F) → (⟨S8x200x50x1, .f32⟩ : BufTy).Contents (Elt F)),
    unary main_v8 main_v9 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)),
    binary main_v6 main_v9 main_v10 (Host.divf : (⟨S8x200x50x500, .f32⟩ : BufTy).Contents (Elt F) → (⟨S8x200x50x500, .f32⟩ : BufTy).Contents (Elt F) → (⟨S8x200x50x500, .f32⟩ : BufTy).Contents (Elt F)),
    nullary main_cst_2 (constant S_ .f32 0xFF800000#32),
    binary main_arg1 main_cst_2 main_v11 ((fun x v => Host.reduce FloatOps.maximumf x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)),
    nullary main_cst_3 (constant S_ .f32 0xFF800000#32),
    unary main_cst_3 main_v12 (broadcastInDim S8x200x50 ![] bcast_S_S8x200x50 : (⟨S_, .f32⟩ : BufTy).Contents (Elt F) → (⟨S8x200x50, .f32⟩ : BufTy).Contents (Elt F)),
    binary main_v12 main_v11 main_v13 (maximumf : (⟨S8x200x50, .f32⟩ : BufTy).Contents (Elt F) → (⟨S8x200x50, .f32⟩ : BufTy).Contents (Elt F) → (⟨S8x200x50, .f32⟩ : BufTy).Contents (Elt F)),
    unary main_v13 main_v14 (broadcastInDim S8x200x50x1 ![0, 1, 2] bcast_S8x200x50_S8x200x50x1_0_1_2 : (⟨S8x200x50, .f32⟩ : BufTy).Contents (Elt F) → (⟨S8x200x50x1, .f32⟩ : BufTy).Contents (Elt F)),
    unary main_v14 main_v15 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)),
    binary main_arg1 main_v15 main_v16 (subf : (⟨S8x200x50x500, .f32⟩ : BufTy).Contents (Elt F) → (⟨S8x200x50x500, .f32⟩ : BufTy).Contents (Elt F) → (⟨S8x200x50x500, .f32⟩ : BufTy).Contents (Elt F)),
    unary main_v16 main_v17 (Host.exp : (⟨S8x200x50x500, .f32⟩ : BufTy).Contents (Elt F) → (⟨S8x200x50x500, .f32⟩ : BufTy).Contents (Elt F)),
    nullary main_cst_4 (constant S_ .f32 0x00000000#32),
    binary main_v17 main_cst_4 main_v18 ((fun x v => Host.reduceAdd x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)),
    unary main_v18 main_v19 (broadcastInDim S8x200x50x1 ![0, 1, 2] bcast_S8x200x50_S8x200x50x1_0_1_2 : (⟨S8x200x50, .f32⟩ : BufTy).Contents (Elt F) → (⟨S8x200x50x1, .f32⟩ : BufTy).Contents (Elt F)),
    unary main_v19 main_v20 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)),
    binary main_v17 main_v20 main_v21 (Host.divf : (⟨S8x200x50x500, .f32⟩ : BufTy).Contents (Elt F) → (⟨S8x200x50x500, .f32⟩ : BufTy).Contents (Elt F) → (⟨S8x200x50x500, .f32⟩ : BufTy).Contents (Elt F)),
    unary main_arg2 main_v22 (broadcastInDim S8x1x50x1 ![0, 2] bcast_S8x50_S8x1x50x1_0_2 : (⟨S8x50, .i32⟩ : BufTy).Contents (Elt F) → (⟨S8x1x50x1, .i32⟩ : BufTy).Contents (Elt F)),
    unary main_v22 main_v23 (broadcastInDim S8x200x50x1 ![0, 1, 2, 3] bcast_S8x1x50x1_S8x200x50x1_0_1_2_3 : (⟨S8x1x50x1, .i32⟩ : BufTy).Contents (Elt F) → (⟨S8x200x50x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S8x200x50x1, .i32⟩) main_call0_v0) (broadcastInDim S8x200x50x1 ![] bcast_S_S8x200x50x1),
    TRef.binary (TRef.of (T := ⟨S8x200x50x1, .i32⟩) main_v23) (TRef.of (T := ⟨S8x200x50x1, .i32⟩) main_call0_v0) (TRef.of (T := ⟨S8x200x50x1, .i1⟩) main_call0_v1) (cmpi .slt),
    TRef.nullary (TRef.of (T := ⟨S_, .i32⟩) main_call0_c_0) (constantI S_ 32 500#32),
    TRef.unary (TRef.of (T := ⟨S_, .i32⟩) main_call0_c_0) (TRef.of (T := ⟨S8x200x50x1, .i32⟩) main_call0_v2) (broadcastInDim S8x200x50x1 ![] bcast_S_S8x200x50x1),
    TRef.binary (TRef.of (T := ⟨S8x200x50x1, .i32⟩) main_v23) (TRef.of (T := ⟨S8x200x50x1, .i32⟩) main_call0_v2) (TRef.of (T := ⟨S8x200x50x1, .i32⟩) main_call0_v3) addi,
    TRef.ternary (TRef.of (T := ⟨S8x200x50x1, .i1⟩) main_call0_v1) (TRef.of (T := ⟨S8x200x50x1, .i32⟩) main_call0_v3) (TRef.of (T := ⟨S8x200x50x1, .i32⟩) main_v23) (TRef.of (T := ⟨S8x200x50x1, .i32⟩) main_call0_v4) select,
    TRef.reshape (TRef.of (T := ⟨S8x200x50x1, .i32⟩) main_call0_v4) (TRef.of (T := ⟨S8x200x50x1x1, .i32⟩) main_call0_v5) rfl shapeCasts_S8x200x50x1_S8x200x50x1x1,
    TRef.nullary (TRef.of (T := ⟨S1, .i32⟩) main_call0_c_1) (constantI S1 32 499#32),
    TRef.nullary (TRef.of (T := ⟨S_, .i32⟩) main_call0_c_2) (constantI S_ 32 0#32),
    TRef.unary (TRef.of (T := ⟨S_, .i32⟩) main_call0_c_2) (TRef.of (T := ⟨S8x200x50x1x1, .i32⟩) main_call0_v6) (broadcastInDim S8x200x50x1x1 ![] bcast_S_S8x200x50x1x1),
    TRef.binary (TRef.of (T := ⟨S8x200x50x1x1, .i32⟩) main_call0_v5) (TRef.of (T := ⟨S8x200x50x1x1, .i32⟩) main_call0_v6) (TRef.of (T := ⟨S8x200x50x1x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S8x200x50x1x1, .i32⟩) main_call0_v9) (broadcastInDim S8x200x50x1x1 ![0, 1, 2, 3, 4] bcast_S1x1x1x1x1_S8x200x50x1x1_0_1_2_3_4),
    TRef.binary (TRef.of (T := ⟨S8x200x50x1x1, .i32⟩) main_call0_v5) (TRef.of (T := ⟨S8x200x50x1x1, .i32⟩) main_call0_v9) (TRef.of (T := ⟨S8x200x50x1x1, .i1⟩) main_call0_v10) (cmpi .sle),
    TRef.binary (TRef.of (T := ⟨S8x200x50x1x1, .i1⟩) main_call0_v7) (TRef.of (T := ⟨S8x200x50x1x1, .i1⟩) main_call0_v10) (TRef.of (T := ⟨S8x200x50x1x1, .i1⟩) main_call0_v11) andi,
    TRef.nullary (TRef.of (T := ⟨S_, .i1⟩) main_call0_c_3) (constantI S_ 1 1#1),
    TRef.binary (TRef.of (T := ⟨S8x200x50x1x1, .i1⟩) main_call0_v11) (TRef.of (T := ⟨S_, .i1⟩) main_call0_c_3) (TRef.of (T := ⟨S8x200x50x1, .i1⟩) main_call0_v12) (fun x v => Host.reduce IntOp.andi x v reducesTo_S8x200x50x1x1_S8x200x50x1_d4 h_S_),
    TRef.binary (TRef.of (T := ⟨S8x200x50x500, .f32⟩) main_v10) (TRef.of (T := ⟨S8x200x50x1x1, .i32⟩) main_call0_v5) (TRef.of (T := ⟨S8x200x50x1, .f32⟩) main_call0_v13) (fun x i => Host.gather gather_S8x200x50x500_S8x200x50x1x1_S8x200x50x1_n_3_012_012_3_4_1111 x i),
    TRef.nullary (TRef.of (T := ⟨S_, .f32⟩) main_call0_cst) (constant S_ .f32 0x7FC00000#32),
    TRef.unary (TRef.of (T := ⟨S_, .f32⟩) main_call0_cst) (TRef.of (T := ⟨S8x200x50x1, .f32⟩) main_call0_v14) (broadcastInDim S8x200x50x1 ![] bcast_S_S8x200x50x1),
    TRef.ternary (TRef.of (T := ⟨S8x200x50x1, .i1⟩) main_call0_v12) (TRef.of (T := ⟨S8x200x50x1, .f32⟩) main_call0_v13) (TRef.of (T := ⟨S8x200x50x1, .f32⟩) main_call0_v14) (TRef.of (T := ⟨S8x200x50x1, .f32⟩) main_v24) select,
    TRef.nullary (TRef.of (T := ⟨S_, .i32⟩) main_call1_c) (constantI S_ 32 0#32),
    TRef.unary (TRef.of (T := ⟨S_, .i32⟩) main_call1_c) (TRef.of (T := ⟨S8x200x50x1, .i32⟩) main_call1_v0) (broadcastInDim S8x200x50x1 ![] bcast_S_S8x200x50x1),
    TRef.binary (TRef.of (T := ⟨S8x200x50x1, .i32⟩) main_v23) (TRef.of (T := ⟨S8x200x50x1, .i32⟩) main_call1_v0) (TRef.of (T := ⟨S8x200x50x1, .i1⟩) main_call1_v1) (cmpi .slt),
    TRef.nullary (TRef.of (T := ⟨S_, .i32⟩) main_call1_c_0) (constantI S_ 32 500#32),
    TRef.unary (TRef.of (T := ⟨S_, .i32⟩) main_call1_c_0) (TRef.of (T := ⟨S8x200x50x1, .i32⟩) main_call1_v2) (broadcastInDim S8x200x50x1 ![] bcast_S_S8x200x50x1),
    TRef.binary (TRef.of (T := ⟨S8x200x50x1, .i32⟩) main_v23) (TRef.of (T := ⟨S8x200x50x1, .i32⟩) main_call1_v2) (TRef.of (T := ⟨S8x200x50x1, .i32⟩) main_call1_v3) addi,
    TRef.ternary (TRef.of (T := ⟨S8x200x50x1, .i1⟩) main_call1_v1) (TRef.of (T := ⟨S8x200x50x1, .i32⟩) main_call1_v3) (TRef.of (T := ⟨S8x200x50x1, .i32⟩) main_v23) (TRef.of (T := ⟨S8x200x50x1, .i32⟩) main_call1_v4) select,
    TRef.reshape (TRef.of (T := ⟨S8x200x50x1, .i32⟩) main_call1_v4) (TRef.of (T := ⟨S8x200x50x1x1, .i32⟩) main_call1_v5) rfl shapeCasts_S8x200x50x1_S8x200x50x1x1,
    TRef.nullary (TRef.of (T := ⟨S1, .i32⟩) main_call1_c_1) (constantI S1 32 499#32),
    TRef.nullary (TRef.of (T := ⟨S_, .i32⟩) main_call1_c_2) (constantI S_ 32 0#32),
    TRef.unary (TRef.of (T := ⟨S_, .i32⟩) main_call1_c_2) (TRef.of (T := ⟨S8x200x50x1x1, .i32⟩) main_call1_v6) (broadcastInDim S8x200x50x1x1 ![] bcast_S_S8x200x50x1x1),
    TRef.binary (TRef.of (T := ⟨S8x200x50x1x1, .i32⟩) main_call1_v5) (TRef.of (T := ⟨S8x200x50x1x1, .i32⟩) main_call1_v6) (TRef.of (T := ⟨S8x200x50x1x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S8x200x50x1x1, .i32⟩) main_call1_v9) (broadcastInDim S8x200x50x1x1 ![0, 1, 2, 3, 4] bcast_S1x1x1x1x1_S8x200x50x1x1_0_1_2_3_4),
    TRef.binary (TRef.of (T := ⟨S8x200x50x1x1, .i32⟩) main_call1_v5) (TRef.of (T := ⟨S8x200x50x1x1, .i32⟩) main_call1_v9) (TRef.of (T := ⟨S8x200x50x1x1, .i1⟩) main_call1_v10) (cmpi .sle),
    TRef.binary (TRef.of (T := ⟨S8x200x50x1x1, .i1⟩) main_call1_v7) (TRef.of (T := ⟨S8x200x50x1x1, .i1⟩) main_call1_v10) (TRef.of (T := ⟨S8x200x50x1x1, .i1⟩) main_call1_v11) andi,
    TRef.nullary (TRef.of (T := ⟨S_, .i1⟩) main_call1_c_3) (constantI S_ 1 1#1),
    TRef.binary (TRef.of (T := ⟨S8x200x50x1x1, .i1⟩) main_call1_v11) (TRef.of (T := ⟨S_, .i1⟩) main_call1_c_3) (TRef.of (T := ⟨S8x200x50x1, .i1⟩) main_call1_v12) (fun x v => Host.reduce IntOp.andi x v reducesTo_S8x200x50x1x1_S8x200x50x1_d4 h_S_),
    TRef.binary (TRef.of (T := ⟨S8x200x50x500, .f32⟩) main_v21) (TRef.of (T := ⟨S8x200x50x1x1, .i32⟩) main_call1_v5) (TRef.of (T := ⟨S8x200x50x1, .f32⟩) main_call1_v13) (fun x i => Host.gather gather_S8x200x50x500_S8x200x50x1x1_S8x200x50x1_n_3_012_012_3_4_1111 x i),
    TRef.nullary (TRef.of (T := ⟨S_, .f32⟩) main_call1_cst) (constant S_ .f32 0x7FC00000#32),
    TRef.unary (TRef.of (T := ⟨S_, .f32⟩) main_call1_cst) (TRef.of (T := ⟨S8x200x50x1, .f32⟩) main_call1_v14) (broadcastInDim S8x200x50x1 ![] bcast_S_S8x200x50x1),
    TRef.ternary (TRef.of (T := ⟨S8x200x50x1, .i1⟩) main_call1_v12) (TRef.of (T := ⟨S8x200x50x1, .f32⟩) main_call1_v13) (TRef.of (T := ⟨S8x200x50x1, .f32⟩) main_call1_v14) (TRef.of (T := ⟨S8x200x50x1, .f32⟩) main_v25) select,
    unary main_v10 main_v26 ((extractStridedSlice S8x200x50x1 ![0, 0, 0, 0] · slices_S8x200x50x500_S8x200x50x1_0_0_0_0) : (⟨S8x200x50x500, .f32⟩ : BufTy).Contents (Elt F) → (⟨S8x200x50x1, .f32⟩ : BufTy).Contents (Elt F)),
    unary main_v21 main_v27 ((extractStridedSlice S8x200x50x1 ![0, 0, 0, 0] · slices_S8x200x50x500_S8x200x50x1_0_0_0_0) : (⟨S8x200x50x500, .f32⟩ : BufTy).Contents (Elt F) → (⟨S8x200x50x1, .f32⟩ : BufTy).Contents (Elt F)),
    nullary main_cst_5 (constant S_ .f32 0x3F800000#32),
    unary main_cst_5 main_v28 (broadcastInDim S8x200x50x1 ![] bcast_S_S8x200x50x1 : (⟨S_, .f32⟩ : BufTy).Contents (Elt F) → (⟨S8x200x50x1, .f32⟩ : BufTy).Contents (Elt F)),
    binary main_v28 main_v24 main_v29 (subf : (⟨S8x200x50x1, .f32⟩ : BufTy).Contents (Elt F) → (⟨S8x200x50x1, .f32⟩ : BufTy).Contents (Elt F) → (⟨S8x200x50x1, .f32⟩ : BufTy).Contents (Elt F)),
    binary main_v29 main_v26 main_v30 (subf : (⟨S8x200x50x1, .f32⟩ : BufTy).Contents (Elt F) → (⟨S8x200x50x1, .f32⟩ : BufTy).Contents (Elt F) → (⟨S8x200x50x1, .f32⟩ : BufTy).Contents (Elt F)),
    nullary main_cst_6 (constant S_ .f32 0x3F800000#32),
    unary main_cst_6 main_v31 (broadcastInDim S8x200x50x1 ![] bcast_S_S8x200x50x1 : (⟨S_, .f32⟩ : BufTy).Contents (Elt F) → (⟨S8x200x50x1, .f32⟩ : BufTy).Contents (Elt F)),
    binary main_v31 main_v25 main_v32 (subf : (⟨S8x200x50x1, .f32⟩ : BufTy).Contents (Elt F) → (⟨S8x200x50x1, .f32⟩ : BufTy).Contents (Elt F) → (⟨S8x200x50x1, .f32⟩ : BufTy).Contents (Elt F)),
    binary main_v32 main_v27 main_v33 (subf : (⟨S8x200x50x1, .f32⟩ : BufTy).Contents (Elt F) → (⟨S8x200x50x1, .f32⟩ : BufTy).Contents (Elt F) → (⟨S8x200x50x1, .f32⟩ : BufTy).Contents (Elt F)),
    nullary main_cst_7 (constant S_ .f32 0x00000000#32),
    unary main_cst_7 main_v34 (broadcastInDim S8x200x50x1 ![] bcast_S_S8x200x50x1 : (⟨S_, .f32⟩ : BufTy).Contents (Elt F) → (⟨S8x200x50x1, .f32⟩ : BufTy).Contents (Elt F)),
    binary main_v33 main_v34 main_v35 (cmpf .olt : (⟨S8x200x50x1, .f32⟩ : BufTy).Contents (Elt F) → (⟨S8x200x50x1, .f32⟩ : BufTy).Contents (Elt F) → (⟨S8x200x50x1, .i1⟩ : BufTy).Contents (Elt F)),
    nullary main_cst_8 (constant S_ .f32 0x2EDBE6FF#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S8x200x50x1, .f32⟩) main_call2_v1) (broadcastInDim S8x200x50x1 ![] bcast_S_S8x200x50x1),
    TRef.ternary (TRef.of (T := ⟨S8x200x50x1, .i1⟩) main_v35) (TRef.of (T := ⟨S8x200x50x1, .f32⟩) main_call2_v1) (TRef.of (T := ⟨S8x200x50x1, .f32⟩) main_v33) (TRef.of (T := ⟨S8x200x50x1, .f32⟩) main_v36) select ]

/-- Operations 92–101: the student's concatenation, its clip and logarithm. -/
abbrev ops2 : List (HloOp τ sig (Elt F)) :=
  [ nary ![main_v24, main_v26, main_v30] main_v37 (fun u => concatenate S8x200x50x3 3 [⟨S8x200x50x1, u 0⟩, ⟨S8x200x50x1, u 1⟩, ⟨S8x200x50x1, u 2⟩] concatenates_S8x200x50x1_S8x200x50x1_S8x200x50x1_S8x200x50x3_d3),
    nullary main_cst_9 (constant S_ .f32 0x2EDBE6FF#32),
    nullary main_cst_10 (constant S_ .f32 0x3F800000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S8x200x50x3, .f32⟩) main_call3_v1) (broadcastInDim S8x200x50x3 ![] bcast_S_S8x200x50x3),
    TRef.binary (TRef.of (T := ⟨S8x200x50x3, .f32⟩) main_call3_v1) (TRef.of (T := ⟨S8x200x50x3, .f32⟩) main_v37) (TRef.of (T := ⟨S8x200x50x3, .f32⟩) main_call3_v2) maximumf,
    TRef.unary (TRef.of (T := ⟨S_, .f32⟩) main_cst_10) (TRef.of (T := ⟨S_, .f32⟩) main_call3_v3) id,
    TRef.unary (TRef.of (T := ⟨S_, .f32⟩) main_call3_v3) (TRef.of (T := ⟨S8x200x50x3, .f32⟩) main_call3_v4) (broadcastInDim S8x200x50x3 ![] bcast_S_S8x200x50x3),
    TRef.binary (TRef.of (T := ⟨S8x200x50x3, .f32⟩) main_call3_v4) (TRef.of (T := ⟨S8x200x50x3, .f32⟩) main_call3_v2) (TRef.of (T := ⟨S8x200x50x3, .f32⟩) main_v38) minimumf,
    unary main_v38 main_v39 (Host.log : (⟨S8x200x50x3, .f32⟩ : BufTy).Contents (Elt F) → (⟨S8x200x50x3, .f32⟩ : BufTy).Contents (Elt F)) ]

/-- Operations 102–127: the teacher's concatenation, the mask, the two products and their leading unit axis. -/
abbrev ops3 : List (HloOp τ sig (Elt F)) :=
  [ nary ![main_v25, main_v27, main_v36] main_v40 (fun u => concatenate S8x200x50x3 3 [⟨S8x200x50x1, u 0⟩, ⟨S8x200x50x1, u 1⟩, ⟨S8x200x50x1, u 2⟩] concatenates_S8x200x50x1_S8x200x50x1_S8x200x50x1_S8x200x50x3_d3),
    nullary main_v41 (iotaInDim S200 32 0),
    unary main_v41 main_v42 (broadcastInDim S1x200 ![1] bcast_S200_S1x200_1 : (⟨S200, .i32⟩ : BufTy).Contents (Elt F) → (⟨S1x200, .i32⟩ : BufTy).Contents (Elt F)),
    unary main_arg3 main_v43 (broadcastInDim S8x1 ![0] bcast_S8_S8x1_0 : (⟨S8, .i32⟩ : BufTy).Contents (Elt F) → (⟨S8x1, .i32⟩ : BufTy).Contents (Elt F)),
    unary main_v42 main_v44 (broadcastInDim S8x200 ![0, 1] bcast_S1x200_S8x200_0_1 : (⟨S1x200, .i32⟩ : BufTy).Contents (Elt F) → (⟨S8x200, .i32⟩ : BufTy).Contents (Elt F)),
    unary main_v43 main_v45 (broadcastInDim S8x200 ![0, 1] bcast_S8x1_S8x200_0_1 : (⟨S8x1, .i32⟩ : BufTy).Contents (Elt F) → (⟨S8x200, .i32⟩ : BufTy).Contents (Elt F)),
    binary main_v44 main_v45 main_v46 (cmpi .slt : (⟨S8x200, .i32⟩ : BufTy).Contents (Elt F) → (⟨S8x200, .i32⟩ : BufTy).Contents (Elt F) → (⟨S8x200, .i1⟩ : BufTy).Contents (Elt F)),
    unary main_v46 main_v47 (uitofp .f32 : (⟨S8x200, .i1⟩ : BufTy).Contents (Elt F) → (⟨S8x200, .f32⟩ : BufTy).Contents (Elt F)),
    unary main_v47 main_v48 (broadcastInDim S8x200x1x1 ![0, 1] bcast_S8x200_S8x200x1x1_0_1 : (⟨S8x200, .f32⟩ : BufTy).Contents (Elt F) → (⟨S8x200x1x1, .f32⟩ : BufTy).Contents (Elt F)),
    nullary main_v49 (iotaInDim S50 32 0),
    unary main_v49 main_v50 (broadcastInDim S1x50 ![1] bcast_S50_S1x50_1 : (⟨S50, .i32⟩ : BufTy).Contents (Elt F) → (⟨S1x50, .i32⟩ : BufTy).Contents (Elt F)),
    unary main_arg4 main_v51 (broadcastInDim S8x1 ![0] bcast_S8_S8x1_0 : (⟨S8, .i32⟩ : BufTy).Contents (Elt F) → (⟨S8x1, .i32⟩ : BufTy).Contents (Elt F)),
    unary main_v50 main_v52 (broadcastInDim S8x50 ![0, 1] bcast_S1x50_S8x50_0_1 : (⟨S1x50, .i32⟩ : BufTy).Contents (Elt F) → (⟨S8x50, .i32⟩ : BufTy).Contents (Elt F)),
    unary main_v51 main_v53 (broadcastInDim S8x50 ![0, 1] bcast_S8x1_S8x50_0_1 : (⟨S8x1, .i32⟩ : BufTy).Contents (Elt F) → (⟨S8x50, .i32⟩ : BufTy).Contents (Elt F)),
    binary main_v52 main_v53 main_v54 (cmpi .slt : (⟨S8x50, .i32⟩ : BufTy).Contents (Elt F) → (⟨S8x50, .i32⟩ : BufTy).Contents (Elt F) → (⟨S8x50, .i1⟩ : BufTy).Contents (Elt F)),
    unary main_v54 main_v55 (uitofp .f32 : (⟨S8x50, .i1⟩ : BufTy).Contents (Elt F) → (⟨S8x50, .f32⟩ : BufTy).Contents (Elt F)),
    unary main_v55 main_v56 (broadcastInDim S8x1x50x1 ![0, 2] bcast_S8x50_S8x1x50x1_0_2 : (⟨S8x50, .f32⟩ : BufTy).Contents (Elt F) → (⟨S8x1x50x1, .f32⟩ : BufTy).Contents (Elt F)),
    unary main_v48 main_v57 (broadcastInDim S8x200x50x1 ![0, 1, 2, 3] bcast_S8x200x1x1_S8x200x50x1_0_1_2_3 : (⟨S8x200x1x1, .f32⟩ : BufTy).Contents (Elt F) → (⟨S8x200x50x1, .f32⟩ : BufTy).Contents (Elt F)),
    unary main_v56 main_v58 (broadcastInDim S8x200x50x1 ![0, 1, 2, 3] bcast_S8x1x50x1_S8x200x50x1_0_1_2_3 : (⟨S8x1x50x1, .f32⟩ : BufTy).Contents (Elt F) → (⟨S8x200x50x1, .f32⟩ : BufTy).Contents (Elt F)),
    binary main_v57 main_v58 main_v59 (mulf : (⟨S8x200x50x1, .f32⟩ : BufTy).Contents (Elt F) → (⟨S8x200x50x1, .f32⟩ : BufTy).Contents (Elt F) → (⟨S8x200x50x1, .f32⟩ : BufTy).Contents (Elt F)),
    unary main_v59 main_v60 (broadcastInDim S8x200x50x3 ![0, 1, 2, 3] bcast_S8x200x50x1_S8x200x50x3_0_1_2_3 : (⟨S8x200x50x1, .f32⟩ : BufTy).Contents (Elt F) → (⟨S8x200x50x3, .f32⟩ : BufTy).Contents (Elt F)),
    binary main_v39 main_v60 main_v61 (mulf : (⟨S8x200x50x3, .f32⟩ : BufTy).Contents (Elt F) → (⟨S8x200x50x3, .f32⟩ : BufTy).Contents (Elt F) → (⟨S8x200x50x3, .f32⟩ : BufTy).Contents (Elt F)),
    unary main_v59 main_v62 (broadcastInDim S8x200x50x3 ![0, 1, 2, 3] bcast_S8x200x50x1_S8x200x50x3_0_1_2_3 : (⟨S8x200x50x1, .f32⟩ : BufTy).Contents (Elt F) → (⟨S8x200x50x3, .f32⟩ : BufTy).Contents (Elt F)),
    binary main_v40 main_v62 main_v63 (mulf : (⟨S8x200x50x3, .f32⟩ : BufTy).Contents (Elt F) → (⟨S8x200x50x3, .f32⟩ : BufTy).Contents (Elt F) → (⟨S8x200x50x3, .f32⟩ : BufTy).Contents (Elt F)),
    unary main_v61 main_v64 (broadcastInDim S1x8x200x50x3 ![1, 2, 3, 4] bcast_S8x200x50x3_S1x8x200x50x3_1_2_3_4 : (⟨S8x200x50x3, .f32⟩ : BufTy).Contents (Elt F) → (⟨S1x8x200x50x3, .f32⟩ : BufTy).Contents (Elt F)),
    unary main_v63 main_v65 (broadcastInDim S1x8x200x50x3 ![1, 2, 3, 4] bcast_S8x200x50x3_S1x8x200x50x3_1_2_3_4 : (⟨S8x200x50x3, .f32⟩ : BufTy).Contents (Elt F) → (⟨S1x8x200x50x3, .f32⟩ : BufTy).Contents (Elt F)) ]

/-- Operation 128: the stack of the two results. -/
abbrev ops4 : List (HloOp τ sig (Elt F)) :=
  [ binary main_v64 main_v65 main_v66 ((fun a b => concatenate S2x8x200x50x3 0 [⟨S1x8x200x50x3, a⟩, ⟨S1x8x200x50x3, b⟩] concatenates_S1x8x200x50x3_S1x8x200x50x3_S2x8x200x50x3_d0) : (⟨S1x8x200x50x3, .f32⟩ : BufTy).Contents (Elt F) → (⟨S1x8x200x50x3, .f32⟩ : BufTy).Contents (Elt F) → (⟨S2x8x200x50x3, .f32⟩ : BufTy).Contents (Elt F)) ]

set_option maxRecDepth 8192 in
theorem ops_split : (ops : List (HloOp τ sig (Elt F))) = ops1 ++ (ops2 ++ (ops3 ++ ops4)) := rfl

theorem after_app (l₁ l₂ : List (HloOp τ sig (Elt F))) (V : Valuation τ sig (Elt F)) : after (l₁ ++ l₂) V = after l₂ (after l₁ V) := by
  induction l₁ generalizing V with
  | nil => rfl
  | cons op l ih => exact ih _

/-- The student's clipped logarithm as a function of the three pieces. -/
def G39 (x y z : (⟨S8x200x50x1, .f32⟩ : BufTy).Contents (Elt F)) : (⟨S8x200x50x3, .f32⟩ : BufTy).Contents (Elt F) :=
  Host.log (minimumf (broadcastInDim S8x200x50x3 ![] bcast_S_S8x200x50x3 (id (constant S_ .f32 0x3F800000#32))) (maximumf (broadcastInDim S8x200x50x3 ![] bcast_S_S8x200x50x3 (id (constant S_ .f32 0x2EDBE6FF#32))) (concatenate S8x200x50x3 3 [⟨S8x200x50x1, x⟩, ⟨S8x200x50x1, y⟩, ⟨S8x200x50x1, z⟩] concatenates_S8x200x50x1_S8x200x50x1_S8x200x50x1_S8x200x50x3_d3)))
/-- The masked student with its leading unit axis, as a function of the logarithm and the two length arrays. -/
def G64 (p : (⟨S8x200x50x3, .f32⟩ : BufTy).Contents (Elt F)) (x3 x4 : (⟨S8, .i32⟩ : BufTy).Contents (Elt F)) : (⟨S1x8x200x50x3, .f32⟩ : BufTy).Contents (Elt F) :=
  broadcastInDim S1x8x200x50x3 ![1, 2, 3, 4] bcast_S8x200x50x3_S1x8x200x50x3_1_2_3_4 (mulf p (Cert.ReferenceIdeal.ReadP.val_main_v60 (F := F) x3 x4))
/-- The masked teacher with its leading unit axis, as a function of the three pieces and the two length arrays. -/
def G65 (x y z : (⟨S8x200x50x1, .f32⟩ : BufTy).Contents (Elt F)) (x3 x4 : (⟨S8, .i32⟩ : BufTy).Contents (Elt F)) : (⟨S1x8x200x50x3, .f32⟩ : BufTy).Contents (Elt F) :=
  broadcastInDim S1x8x200x50x3 ![1, 2, 3, 4] bcast_S8x200x50x3_S1x8x200x50x3_1_2_3_4 (mulf (concatenate S8x200x50x3 3 [⟨S8x200x50x1, x⟩, ⟨S8x200x50x1, y⟩, ⟨S8x200x50x1, z⟩] concatenates_S8x200x50x1_S8x200x50x1_S8x200x50x1_S8x200x50x3_d3) (Cert.ReferenceIdeal.ReadP.val_main_v62 (F := F) x3 x4))
/-- The stack of the two. -/
def G66 (a b : (⟨S1x8x200x50x3, .f32⟩ : BufTy).Contents (Elt F)) : (⟨S2x8x200x50x3, .f32⟩ : BufTy).Contents (Elt F) :=
  concatenate S2x8x200x50x3 0 [⟨S1x8x200x50x3, a⟩, ⟨S1x8x200x50x3, b⟩] concatenates_S1x8x200x50x3_S1x8x200x50x3_S2x8x200x50x3_d0

/-! ## The first stretch, one operation at a time

Operation `k` writes reference `k` of `wl1` and nothing else (`ops1_writes`), so a buffer keeps what its own operation left
through every later one (`after_take_stable`), and what operation `k` leaves is its function of its operands' stages
(`R1_<buffer>`, in program order, each from the ones before it). -/

section PerOp
variable {Val : EltTy → Type}

theorem after_app' (l₁ l₂ : List (HloOp τ sig Val)) (V : Valuation τ sig Val) : after (l₁ ++ l₂) V = after l₂ (after l₁ V) := by
  induction l₁ generalizing V with
  | nil => rfl
  | cons op l ih => exact ih _

/-- One more operation of the list: the fold over the first `j + 1` is operation `j`'s result over the fold of the first `j`. -/
theorem after_take_succ (l : List (HloOp τ sig Val)) (V : Valuation τ sig Val) (j : Nat) (hj : j < l.length) :
    after (l.take (j + 1)) V = (l[j]).result (after (l.take j) V) := by
  rw [List.take_succ_eq_append_getElem hj, after_app']; rfl

/-- When operation `i` of the list writes reference `i` of `wl` and nothing else, a reference that is not among those from
    `k` on is written by no operation from `k` on. -/
theorem not_writes_drop {l : List (HloOp τ sig Val)} {wl : List (Ref sig .tc)}
    (h : List.Forall₂ (fun op y => op.writes = {Proc.devRef (τ := τ) .tc y}) l wl) (r : Ref sig .tc) :
    ∀ k, r ∉ wl.drop k → ∀ op ∈ l.drop k, Proc.devRef (τ := τ) .tc r ∉ op.writes := by
  induction h with
  | nil => intro k _ op hop; rw [List.drop_nil] at hop; exact absurd hop List.not_mem_nil
  | @cons a b l' wl' hab _ ih =>
    intro k hr op hop
    cases k with
    | zero =>
      rw [List.drop_zero] at hop hr
      rcases List.mem_cons.1 hop with rfl | hop
      · rw [hab, Finset.mem_singleton]; exact devRef_ne_of_ne (fun e => hr (e ▸ List.mem_cons_self))
      · exact ih 0 (by rw [List.drop_zero]; exact fun hm => hr (List.mem_cons_of_mem _ hm)) op (by rw [List.drop_zero]; exact hop)
    | succ k => exact ih k (by simpa using hr) op (by simpa using hop)

/-- So its contents after the first `j` operations are its contents after the first `k`, for any `j` from `k` on. -/
theorem after_take_stable {l : List (HloOp τ sig Val)} {wl : List (Ref sig .tc)}
    (h : List.Forall₂ (fun op y => op.writes = {Proc.devRef (τ := τ) .tc y}) l wl) (V : Valuation τ sig Val) (r : Ref sig .tc)
    (k j : Nat) (hkj : k ≤ j) (hr : r ∉ wl.drop k) :
    after (l.take j) V (Proc.devRef .tc r) = after (l.take k) V (Proc.devRef .tc r) := by
  have e : l.take j = l.take k ++ (l.take j).drop k := by
    conv_lhs => rw [← List.take_append_drop k (l.take j)]
    rw [List.take_take, Nat.min_eq_left hkj]
  rw [e, after_app']
  refine after_of_forall_not_mem _ _ fun op hop => ?_
  refine not_writes_drop h r k hr op ?_
  rw [List.drop_take] at hop
  exact List.mem_of_mem_take hop

end PerOp

/-- The references operations 1–91 write, in order. -/
abbrev wl1 : List (Ref sig .tc) :=
  [main_cst, main_v0, main_cst_0, main_v1, main_v2, main_v3, main_v4, main_v5, main_v6, main_cst_1, main_v7, main_v8, main_v9, main_v10, main_cst_2, main_v11, main_cst_3, main_v12, main_v13, main_v14, main_v15, main_v16, main_v17, main_cst_4, main_v18, main_v19, main_v20, main_v21, main_v22, main_v23, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v24, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v25, main_v26, main_v27, main_cst_5, main_v28, main_v29, main_v30, main_cst_6, main_v31, main_v32, main_v33, main_cst_7, main_v34, main_v35, main_cst_8, main_call2_v0, main_call2_v1, main_v36]
theorem ops1_length : (ops1 : List (HloOp τ sig (Elt F))).length = 91 := rfl
set_option maxRecDepth 16384 in
theorem ops1_writes : List.Forall₂ (fun (op : HloOp τ sig (Elt F)) (y : Ref sig .tc) => op.writes = {Proc.devRef (τ := τ) .tc y}) ops1 wl1 := by
  repeat (first | exact List.Forall₂.nil | refine List.Forall₂.cons rfl ?_)

section R1
variable (W : Valuation τ sig (Elt F))
set_option maxHeartbeats 1000000

/-- At a literal reference whose type is the value's, the transports between the two are the identity. -/
theorem ofBuf_call0_v11 (v : main_call0_v11.ty.Contents (Elt F)) : (TRef.of (sig := sig) (T := ⟨S8x200x50x1x1, .i1⟩) main_call0_v11).ofBuf v = v := rfl
theorem ofBuf_call0_c_3 (v : main_call0_c_3.ty.Contents (Elt F)) : (TRef.of (sig := sig) (T := ⟨S_, .i1⟩) main_call0_c_3).ofBuf v = v := rfl
theorem toBuf_call0_v12 (v : (⟨S8x200x50x1, .i1⟩ : BufTy).Contents (Elt F)) : (TRef.of (sig := sig) (T := ⟨S8x200x50x1, .i1⟩) main_call0_v12).toBuf v = v := rfl
theorem ofBuf_call0_v12 (v : main_call0_v12.ty.Contents (Elt F)) : (TRef.of (sig := sig) (T := ⟨S8x200x50x1, .i1⟩) main_call0_v12).ofBuf v = v := rfl
theorem ofBuf_call0_v13 (v : main_call0_v13.ty.Contents (Elt F)) : (TRef.of (sig := sig) (T := ⟨S8x200x50x1, .f32⟩) main_call0_v13).ofBuf v = v := rfl
theorem ofBuf_call0_v14 (v : main_call0_v14.ty.Contents (Elt F)) : (TRef.of (sig := sig) (T := ⟨S8x200x50x1, .f32⟩) main_call0_v14).ofBuf v = v := rfl
theorem toBuf_v24 (v : (⟨S8x200x50x1, .f32⟩ : BufTy).Contents (Elt F)) : (TRef.of (sig := sig) (T := ⟨S8x200x50x1, .f32⟩) main_v24).toBuf v = v := rfl
theorem ofBuf_call1_v11 (v : main_call1_v11.ty.Contents (Elt F)) : (TRef.of (sig := sig) (T := ⟨S8x200x50x1x1, .i1⟩) main_call1_v11).ofBuf v = v := rfl
theorem ofBuf_call1_c_3 (v : main_call1_c_3.ty.Contents (Elt F)) : (TRef.of (sig := sig) (T := ⟨S_, .i1⟩) main_call1_c_3).ofBuf v = v := rfl
theorem toBuf_call1_v12 (v : (⟨S8x200x50x1, .i1⟩ : BufTy).Contents (Elt F)) : (TRef.of (sig := sig) (T := ⟨S8x200x50x1, .i1⟩) main_call1_v12).toBuf v = v := rfl
theorem ofBuf_call1_v12 (v : main_call1_v12.ty.Contents (Elt F)) : (TRef.of (sig := sig) (T := ⟨S8x200x50x1, .i1⟩) main_call1_v12).ofBuf v = v := rfl
theorem ofBuf_call1_v13 (v : main_call1_v13.ty.Contents (Elt F)) : (TRef.of (sig := sig) (T := ⟨S8x200x50x1, .f32⟩) main_call1_v13).ofBuf v = v := rfl
theorem ofBuf_call1_v14 (v : main_call1_v14.ty.Contents (Elt F)) : (TRef.of (sig := sig) (T := ⟨S8x200x50x1, .f32⟩) main_call1_v14).ofBuf v = v := rfl
theorem toBuf_v25 (v : (⟨S8x200x50x1, .f32⟩ : BufTy).Contents (Elt F)) : (TRef.of (sig := sig) (T := ⟨S8x200x50x1, .f32⟩) main_v25).toBuf v = v := rfl

theorem R1_arg0 (j : Nat) : after ((ops1 (F := F)).take j) W (Proc.devRef .tc main_arg0) = W (Proc.devRef .tc main_arg0) :=
  after_take_stable ops1_writes W main_arg0 0 j (Nat.zero_le _) (by decide)
theorem R1_arg1 (j : Nat) : after ((ops1 (F := F)).take j) W (Proc.devRef .tc main_arg1) = W (Proc.devRef .tc main_arg1) :=
  after_take_stable ops1_writes W main_arg1 0 j (Nat.zero_le _) (by decide)
theorem R1_arg2 (j : Nat) : after ((ops1 (F := F)).take j) W (Proc.devRef .tc main_arg2) = W (Proc.devRef .tc main_arg2) :=
  after_take_stable ops1_writes W main_arg2 0 j (Nat.zero_le _) (by decide)
theorem R1_arg3 (j : Nat) : after ((ops1 (F := F)).take j) W (Proc.devRef .tc main_arg3) = W (Proc.devRef .tc main_arg3) :=
  after_take_stable ops1_writes W main_arg3 0 j (Nat.zero_le _) (by decide)
theorem R1_arg4 (j : Nat) : after ((ops1 (F := F)).take j) W (Proc.devRef .tc main_arg4) = W (Proc.devRef .tc main_arg4) :=
  after_take_stable ops1_writes W main_arg4 0 j (Nat.zero_le _) (by decide)

theorem R1_cst (j : Nat) (hj : 0 < j) :
    after ((ops1 (F := F)).take j) W (Proc.devRef .tc main_cst) = Cert.ReferenceIdeal.ReadP.val_main_cst (F := F) := by
  rw [after_take_stable ops1_writes W main_cst (0 + 1) j hj (by decide)]
  refine (congrFun (after_take_succ ops1 W 0 (Nat.lt_of_lt_of_eq (by decide : 0 < 91) ops1_length.symm)) _).trans ?_
  show (nullary main_cst (constant S_ .f32 0xFF800000#32) : HloOp τ sig (Elt F)).result (after (List.take 0 ops1) W) (Proc.devRef .tc main_cst) = _
  rw [nullary_result]
  rfl
theorem R1_v0 (j : Nat) (hj : 1 < j) :
    after ((ops1 (F := F)).take j) W (Proc.devRef .tc main_v0) = Cert.ReferenceIdeal.ReadP.val_main_v0 (F := F) (W (Proc.devRef .tc main_arg0)) := by
  rw [after_take_stable ops1_writes W main_v0 (1 + 1) j hj (by decide)]
  refine (congrFun (after_take_succ ops1 W 1 (Nat.lt_of_lt_of_eq (by decide : 1 < 91) ops1_length.symm)) _).trans ?_
  show (binary main_arg0 main_cst main_v0 ((fun x v => Host.reduce FloatOps.maximumf x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)) : HloOp τ sig (Elt F)).result (after (List.take 1 ops1) W) (Proc.devRef .tc main_v0) = _
  rw [binary_result, R1_arg0 W 1, R1_cst W 1 (by decide)]
  rfl
theorem R1_cst_0 (j : Nat) (hj : 2 < j) :
    after ((ops1 (F := F)).take j) W (Proc.devRef .tc main_cst_0) = Cert.ReferenceIdeal.ReadP.val_main_cst_0 (F := F) := by
  rw [after_take_stable ops1_writes W main_cst_0 (2 + 1) j hj (by decide)]
  refine (congrFun (after_take_succ ops1 W 2 (Nat.lt_of_lt_of_eq (by decide : 2 < 91) ops1_length.symm)) _).trans ?_
  show (nullary main_cst_0 (constant S_ .f32 0xFF800000#32) : HloOp τ sig (Elt F)).result (after (List.take 2 ops1) W) (Proc.devRef .tc main_cst_0) = _
  rw [nullary_result]
  rfl
theorem R1_v1 (j : Nat) (hj : 3 < j) :
    after ((ops1 (F := F)).take j) W (Proc.devRef .tc main_v1) = Cert.ReferenceIdeal.ReadP.val_main_v1 (F := F) := by
  rw [after_take_stable ops1_writes W main_v1 (3 + 1) j hj (by decide)]
  refine (congrFun (after_take_succ ops1 W 3 (Nat.lt_of_lt_of_eq (by decide : 3 < 91) ops1_length.symm)) _).trans ?_
  show (unary main_cst_0 main_v1 (broadcastInDim S8x200x50 ![] bcast_S_S8x200x50 : (⟨S_, .f32⟩ : BufTy).Contents (Elt F) → (⟨S8x200x50, .f32⟩ : BufTy).Contents (Elt F)) : HloOp τ sig (Elt F)).result (after (List.take 3 ops1) W) (Proc.devRef .tc main_v1) = _
  rw [unary_result, R1_cst_0 W 3 (by decide)]
  rfl
theorem R1_v2 (j : Nat) (hj : 4 < j) :
    after ((ops1 (F := F)).take j) W (Proc.devRef .tc main_v2) = Cert.ReferenceIdeal.ReadP.val_main_v2 (F := F) (W (Proc.devRef .tc main_arg0)) := by
  rw [after_take_stable ops1_writes W main_v2 (4 + 1) j hj (by decide)]
  refine (congrFun (after_take_succ ops1 W 4 (Nat.lt_of_lt_of_eq (by decide : 4 < 91) ops1_length.symm)) _).trans ?_
  show (binary main_v1 main_v0 main_v2 (maximumf : (⟨S8x200x50, .f32⟩ : BufTy).Contents (Elt F) → (⟨S8x200x50, .f32⟩ : BufTy).Contents (Elt F) → (⟨S8x200x50, .f32⟩ : BufTy).Contents (Elt F)) : HloOp τ sig (Elt F)).result (after (List.take 4 ops1) W) (Proc.devRef .tc main_v2) = _
  rw [binary_result, R1_v1 W 4 (by decide), R1_v0 W 4 (by decide)]
  rfl
theorem R1_v3 (j : Nat) (hj : 5 < j) :
    after ((ops1 (F := F)).take j) W (Proc.devRef .tc main_v3) = Cert.ReferenceIdeal.ReadP.val_main_v3 (F := F) (W (Proc.devRef .tc main_arg0)) := by
  rw [after_take_stable ops1_writes W main_v3 (5 + 1) j hj (by decide)]
  refine (congrFun (after_take_succ ops1 W 5 (Nat.lt_of_lt_of_eq (by decide : 5 < 91) ops1_length.symm)) _).trans ?_
  show (unary main_v2 main_v3 (broadcastInDim S8x200x50x1 ![0, 1, 2] bcast_S8x200x50_S8x200x50x1_0_1_2 : (⟨S8x200x50, .f32⟩ : BufTy).Contents (Elt F) → (⟨S8x200x50x1, .f32⟩ : BufTy).Contents (Elt F)) : HloOp τ sig (Elt F)).result (after (List.take 5 ops1) W) (Proc.devRef .tc main_v3) = _
  rw [unary_result, R1_v2 W 5 (by decide)]
  rfl
theorem R1_v4 (j : Nat) (hj : 6 < j) :
    after ((ops1 (F := F)).take j) W (Proc.devRef .tc main_v4) = Cert.ReferenceIdeal.ReadP.val_main_v4 (F := F) (W (Proc.devRef .tc main_arg0)) := by
  rw [after_take_stable ops1_writes W main_v4 (6 + 1) j hj (by decide)]
  refine (congrFun (after_take_succ ops1 W 6 (Nat.lt_of_lt_of_eq (by decide : 6 < 91) ops1_length.symm)) _).trans ?_
  show (unary main_v3 main_v4 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)) : HloOp τ sig (Elt F)).result (after (List.take 6 ops1) W) (Proc.devRef .tc main_v4) = _
  rw [unary_result, R1_v3 W 6 (by decide)]
  rfl
theorem R1_v5 (j : Nat) (hj : 7 < j) :
    after ((ops1 (F := F)).take j) W (Proc.devRef .tc main_v5) = Cert.ReferenceIdeal.ReadP.val_main_v5 (F := F) (W (Proc.devRef .tc main_arg0)) := by
  rw [after_take_stable ops1_writes W main_v5 (7 + 1) j hj (by decide)]
  refine (congrFun (after_take_succ ops1 W 7 (Nat.lt_of_lt_of_eq (by decide : 7 < 91) ops1_length.symm)) _).trans ?_
  show (binary main_arg0 main_v4 main_v5 (subf : (⟨S8x200x50x500, .f32⟩ : BufTy).Contents (Elt F) → (⟨S8x200x50x500, .f32⟩ : BufTy).Contents (Elt F) → (⟨S8x200x50x500, .f32⟩ : BufTy).Contents (Elt F)) : HloOp τ sig (Elt F)).result (after (List.take 7 ops1) W) (Proc.devRef .tc main_v5) = _
  rw [binary_result, R1_arg0 W 7, R1_v4 W 7 (by decide)]
  rfl
theorem R1_v6 (j : Nat) (hj : 8 < j) :
    after ((ops1 (F := F)).take j) W (Proc.devRef .tc main_v6) = Cert.ReferenceIdeal.ReadP.val_main_v6 (F := F) (W (Proc.devRef .tc main_arg0)) := by
  rw [after_take_stable ops1_writes W main_v6 (8 + 1) j hj (by decide)]
  refine (congrFun (after_take_succ ops1 W 8 (Nat.lt_of_lt_of_eq (by decide : 8 < 91) ops1_length.symm)) _).trans ?_
  show (unary main_v5 main_v6 (Host.exp : (⟨S8x200x50x500, .f32⟩ : BufTy).Contents (Elt F) → (⟨S8x200x50x500, .f32⟩ : BufTy).Contents (Elt F)) : HloOp τ sig (Elt F)).result (after (List.take 8 ops1) W) (Proc.devRef .tc main_v6) = _
  rw [unary_result, R1_v5 W 8 (by decide)]
  rfl
theorem R1_cst_1 (j : Nat) (hj : 9 < j) :
    after ((ops1 (F := F)).take j) W (Proc.devRef .tc main_cst_1) = Cert.ReferenceIdeal.ReadP.val_main_cst_1 (F := F) := by
  rw [after_take_stable ops1_writes W main_cst_1 (9 + 1) j hj (by decide)]
  refine (congrFun (after_take_succ ops1 W 9 (Nat.lt_of_lt_of_eq (by decide : 9 < 91) ops1_length.symm)) _).trans ?_
  show (nullary main_cst_1 (constant S_ .f32 0x00000000#32) : HloOp τ sig (Elt F)).result (after (List.take 9 ops1) W) (Proc.devRef .tc main_cst_1) = _
  rw [nullary_result]
  rfl
theorem R1_v7 (j : Nat) (hj : 10 < j) :
    after ((ops1 (F := F)).take j) W (Proc.devRef .tc main_v7) = Cert.ReferenceIdeal.ReadP.val_main_v7 (F := F) (W (Proc.devRef .tc main_arg0)) := by
  rw [after_take_stable ops1_writes W main_v7 (10 + 1) j hj (by decide)]
  refine (congrFun (after_take_succ ops1 W 10 (Nat.lt_of_lt_of_eq (by decide : 10 < 91) ops1_length.symm)) _).trans ?_
  show (binary main_v6 main_cst_1 main_v7 ((fun x v => Host.reduceAdd x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)) : HloOp τ sig (Elt F)).result (after (List.take 10 ops1) W) (Proc.devRef .tc main_v7) = _
  rw [binary_result, R1_v6 W 10 (by decide), R1_cst_1 W 10 (by decide)]
  rfl
theorem R1_v8 (j : Nat) (hj : 11 < j) :
    after ((ops1 (F := F)).take j) W (Proc.devRef .tc main_v8) = Cert.ReferenceIdeal.ReadP.val_main_v8 (F := F) (W (Proc.devRef .tc main_arg0)) := by
  rw [after_take_stable ops1_writes W main_v8 (11 + 1) j hj (by decide)]
  refine (congrFun (after_take_succ ops1 W 11 (Nat.lt_of_lt_of_eq (by decide : 11 < 91) ops1_length.symm)) _).trans ?_
  show (unary main_v7 main_v8 (broadcastInDim S8x200x50x1 ![0, 1, 2] bcast_S8x200x50_S8x200x50x1_0_1_2 : (⟨S8x200x50, .f32⟩ : BufTy).Contents (Elt F) → (⟨S8x200x50x1, .f32⟩ : BufTy).Contents (Elt F)) : HloOp τ sig (Elt F)).result (after (List.take 11 ops1) W) (Proc.devRef .tc main_v8) = _
  rw [unary_result, R1_v7 W 11 (by decide)]
  rfl
theorem R1_v9 (j : Nat) (hj : 12 < j) :
    after ((ops1 (F := F)).take j) W (Proc.devRef .tc main_v9) = Cert.ReferenceIdeal.ReadP.val_main_v9 (F := F) (W (Proc.devRef .tc main_arg0)) := by
  rw [after_take_stable ops1_writes W main_v9 (12 + 1) j hj (by decide)]
  refine (congrFun (after_take_succ ops1 W 12 (Nat.lt_of_lt_of_eq (by decide : 12 < 91) ops1_length.symm)) _).trans ?_
  show (unary main_v8 main_v9 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)) : HloOp τ sig (Elt F)).result (after (List.take 12 ops1) W) (Proc.devRef .tc main_v9) = _
  rw [unary_result, R1_v8 W 12 (by decide)]
  rfl
theorem R1_v10 (j : Nat) (hj : 13 < j) :
    after ((ops1 (F := F)).take j) W (Proc.devRef .tc main_v10) = Cert.ReferenceIdeal.ReadP.val_main_v10 (F := F) (W (Proc.devRef .tc main_arg0)) := by
  rw [after_take_stable ops1_writes W main_v10 (13 + 1) j hj (by decide)]
  refine (congrFun (after_take_succ ops1 W 13 (Nat.lt_of_lt_of_eq (by decide : 13 < 91) ops1_length.symm)) _).trans ?_
  show (binary main_v6 main_v9 main_v10 (Host.divf : (⟨S8x200x50x500, .f32⟩ : BufTy).Contents (Elt F) → (⟨S8x200x50x500, .f32⟩ : BufTy).Contents (Elt F) → (⟨S8x200x50x500, .f32⟩ : BufTy).Contents (Elt F)) : HloOp τ sig (Elt F)).result (after (List.take 13 ops1) W) (Proc.devRef .tc main_v10) = _
  rw [binary_result, R1_v6 W 13 (by decide), R1_v9 W 13 (by decide)]
  rfl
theorem R1_cst_2 (j : Nat) (hj : 14 < j) :
    after ((ops1 (F := F)).take j) W (Proc.devRef .tc main_cst_2) = Cert.ReferenceIdeal.ReadP.val_main_cst_2 (F := F) := by
  rw [after_take_stable ops1_writes W main_cst_2 (14 + 1) j hj (by decide)]
  refine (congrFun (after_take_succ ops1 W 14 (Nat.lt_of_lt_of_eq (by decide : 14 < 91) ops1_length.symm)) _).trans ?_
  show (nullary main_cst_2 (constant S_ .f32 0xFF800000#32) : HloOp τ sig (Elt F)).result (after (List.take 14 ops1) W) (Proc.devRef .tc main_cst_2) = _
  rw [nullary_result]
  rfl
theorem R1_v11 (j : Nat) (hj : 15 < j) :
    after ((ops1 (F := F)).take j) W (Proc.devRef .tc main_v11) = Cert.ReferenceIdeal.ReadP.val_main_v11 (F := F) (W (Proc.devRef .tc main_arg1)) := by
  rw [after_take_stable ops1_writes W main_v11 (15 + 1) j hj (by decide)]
  refine (congrFun (after_take_succ ops1 W 15 (Nat.lt_of_lt_of_eq (by decide : 15 < 91) ops1_length.symm)) _).trans ?_
  show (binary main_arg1 main_cst_2 main_v11 ((fun x v => Host.reduce FloatOps.maximumf x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)) : HloOp τ sig (Elt F)).result (after (List.take 15 ops1) W) (Proc.devRef .tc main_v11) = _
  rw [binary_result, R1_arg1 W 15, R1_cst_2 W 15 (by decide)]
  rfl
theorem R1_cst_3 (j : Nat) (hj : 16 < j) :
    after ((ops1 (F := F)).take j) W (Proc.devRef .tc main_cst_3) = Cert.ReferenceIdeal.ReadP.val_main_cst_3 (F := F) := by
  rw [after_take_stable ops1_writes W main_cst_3 (16 + 1) j hj (by decide)]
  refine (congrFun (after_take_succ ops1 W 16 (Nat.lt_of_lt_of_eq (by decide : 16 < 91) ops1_length.symm)) _).trans ?_
  show (nullary main_cst_3 (constant S_ .f32 0xFF800000#32) : HloOp τ sig (Elt F)).result (after (List.take 16 ops1) W) (Proc.devRef .tc main_cst_3) = _
  rw [nullary_result]
  rfl
theorem R1_v12 (j : Nat) (hj : 17 < j) :
    after ((ops1 (F := F)).take j) W (Proc.devRef .tc main_v12) = Cert.ReferenceIdeal.ReadP.val_main_v12 (F := F) := by
  rw [after_take_stable ops1_writes W main_v12 (17 + 1) j hj (by decide)]
  refine (congrFun (after_take_succ ops1 W 17 (Nat.lt_of_lt_of_eq (by decide : 17 < 91) ops1_length.symm)) _).trans ?_
  show (unary main_cst_3 main_v12 (broadcastInDim S8x200x50 ![] bcast_S_S8x200x50 : (⟨S_, .f32⟩ : BufTy).Contents (Elt F) → (⟨S8x200x50, .f32⟩ : BufTy).Contents (Elt F)) : HloOp τ sig (Elt F)).result (after (List.take 17 ops1) W) (Proc.devRef .tc main_v12) = _
  rw [unary_result, R1_cst_3 W 17 (by decide)]
  rfl
theorem R1_v13 (j : Nat) (hj : 18 < j) :
    after ((ops1 (F := F)).take j) W (Proc.devRef .tc main_v13) = Cert.ReferenceIdeal.ReadP.val_main_v13 (F := F) (W (Proc.devRef .tc main_arg1)) := by
  rw [after_take_stable ops1_writes W main_v13 (18 + 1) j hj (by decide)]
  refine (congrFun (after_take_succ ops1 W 18 (Nat.lt_of_lt_of_eq (by decide : 18 < 91) ops1_length.symm)) _).trans ?_
  show (binary main_v12 main_v11 main_v13 (maximumf : (⟨S8x200x50, .f32⟩ : BufTy).Contents (Elt F) → (⟨S8x200x50, .f32⟩ : BufTy).Contents (Elt F) → (⟨S8x200x50, .f32⟩ : BufTy).Contents (Elt F)) : HloOp τ sig (Elt F)).result (after (List.take 18 ops1) W) (Proc.devRef .tc main_v13) = _
  rw [binary_result, R1_v12 W 18 (by decide), R1_v11 W 18 (by decide)]
  rfl
theorem R1_v14 (j : Nat) (hj : 19 < j) :
    after ((ops1 (F := F)).take j) W (Proc.devRef .tc main_v14) = Cert.ReferenceIdeal.ReadP.val_main_v14 (F := F) (W (Proc.devRef .tc main_arg1)) := by
  rw [after_take_stable ops1_writes W main_v14 (19 + 1) j hj (by decide)]
  refine (congrFun (after_take_succ ops1 W 19 (Nat.lt_of_lt_of_eq (by decide : 19 < 91) ops1_length.symm)) _).trans ?_
  show (unary main_v13 main_v14 (broadcastInDim S8x200x50x1 ![0, 1, 2] bcast_S8x200x50_S8x200x50x1_0_1_2 : (⟨S8x200x50, .f32⟩ : BufTy).Contents (Elt F) → (⟨S8x200x50x1, .f32⟩ : BufTy).Contents (Elt F)) : HloOp τ sig (Elt F)).result (after (List.take 19 ops1) W) (Proc.devRef .tc main_v14) = _
  rw [unary_result, R1_v13 W 19 (by decide)]
  rfl
theorem R1_v15 (j : Nat) (hj : 20 < j) :
    after ((ops1 (F := F)).take j) W (Proc.devRef .tc main_v15) = Cert.ReferenceIdeal.ReadP.val_main_v15 (F := F) (W (Proc.devRef .tc main_arg1)) := by
  rw [after_take_stable ops1_writes W main_v15 (20 + 1) j hj (by decide)]
  refine (congrFun (after_take_succ ops1 W 20 (Nat.lt_of_lt_of_eq (by decide : 20 < 91) ops1_length.symm)) _).trans ?_
  show (unary main_v14 main_v15 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)) : HloOp τ sig (Elt F)).result (after (List.take 20 ops1) W) (Proc.devRef .tc main_v15) = _
  rw [unary_result, R1_v14 W 20 (by decide)]
  rfl
theorem R1_v16 (j : Nat) (hj : 21 < j) :
    after ((ops1 (F := F)).take j) W (Proc.devRef .tc main_v16) = Cert.ReferenceIdeal.ReadP.val_main_v16 (F := F) (W (Proc.devRef .tc main_arg1)) := by
  rw [after_take_stable ops1_writes W main_v16 (21 + 1) j hj (by decide)]
  refine (congrFun (after_take_succ ops1 W 21 (Nat.lt_of_lt_of_eq (by decide : 21 < 91) ops1_length.symm)) _).trans ?_
  show (binary main_arg1 main_v15 main_v16 (subf : (⟨S8x200x50x500, .f32⟩ : BufTy).Contents (Elt F) → (⟨S8x200x50x500, .f32⟩ : BufTy).Contents (Elt F) → (⟨S8x200x50x500, .f32⟩ : BufTy).Contents (Elt F)) : HloOp τ sig (Elt F)).result (after (List.take 21 ops1) W) (Proc.devRef .tc main_v16) = _
  rw [binary_result, R1_arg1 W 21, R1_v15 W 21 (by decide)]
  rfl
theorem R1_v17 (j : Nat) (hj : 22 < j) :
    after ((ops1 (F := F)).take j) W (Proc.devRef .tc main_v17) = Cert.ReferenceIdeal.ReadP.val_main_v17 (F := F) (W (Proc.devRef .tc main_arg1)) := by
  rw [after_take_stable ops1_writes W main_v17 (22 + 1) j hj (by decide)]
  refine (congrFun (after_take_succ ops1 W 22 (Nat.lt_of_lt_of_eq (by decide : 22 < 91) ops1_length.symm)) _).trans ?_
  show (unary main_v16 main_v17 (Host.exp : (⟨S8x200x50x500, .f32⟩ : BufTy).Contents (Elt F) → (⟨S8x200x50x500, .f32⟩ : BufTy).Contents (Elt F)) : HloOp τ sig (Elt F)).result (after (List.take 22 ops1) W) (Proc.devRef .tc main_v17) = _
  rw [unary_result, R1_v16 W 22 (by decide)]
  rfl
theorem R1_cst_4 (j : Nat) (hj : 23 < j) :
    after ((ops1 (F := F)).take j) W (Proc.devRef .tc main_cst_4) = Cert.ReferenceIdeal.ReadP.val_main_cst_4 (F := F) := by
  rw [after_take_stable ops1_writes W main_cst_4 (23 + 1) j hj (by decide)]
  refine (congrFun (after_take_succ ops1 W 23 (Nat.lt_of_lt_of_eq (by decide : 23 < 91) ops1_length.symm)) _).trans ?_
  show (nullary main_cst_4 (constant S_ .f32 0x00000000#32) : HloOp τ sig (Elt F)).result (after (List.take 23 ops1) W) (Proc.devRef .tc main_cst_4) = _
  rw [nullary_result]
  rfl
theorem R1_v18 (j : Nat) (hj : 24 < j) :
    after ((ops1 (F := F)).take j) W (Proc.devRef .tc main_v18) = Cert.ReferenceIdeal.ReadP.val_main_v18 (F := F) (W (Proc.devRef .tc main_arg1)) := by
  rw [after_take_stable ops1_writes W main_v18 (24 + 1) j hj (by decide)]
  refine (congrFun (after_take_succ ops1 W 24 (Nat.lt_of_lt_of_eq (by decide : 24 < 91) ops1_length.symm)) _).trans ?_
  show (binary main_v17 main_cst_4 main_v18 ((fun x v => Host.reduceAdd x v reducesTo_S8x200x50x500_S8x200x50_d3 h_S_) : (⟨S8x200x50x500, .f32⟩ : BufTy).Contents (Elt F) → (⟨S_, .f32⟩ : BufTy).Contents (Elt F) → (⟨S8x200x50, .f32⟩ : BufTy).Contents (Elt F)) : HloOp τ sig (Elt F)).result (after (List.take 24 ops1) W) (Proc.devRef .tc main_v18) = _
  rw [binary_result, R1_v17 W 24 (by decide), R1_cst_4 W 24 (by decide)]
  rfl
theorem R1_v19 (j : Nat) (hj : 25 < j) :
    after ((ops1 (F := F)).take j) W (Proc.devRef .tc main_v19) = Cert.ReferenceIdeal.ReadP.val_main_v19 (F := F) (W (Proc.devRef .tc main_arg1)) := by
  rw [after_take_stable ops1_writes W main_v19 (25 + 1) j hj (by decide)]
  refine (congrFun (after_take_succ ops1 W 25 (Nat.lt_of_lt_of_eq (by decide : 25 < 91) ops1_length.symm)) _).trans ?_
  show (unary main_v18 main_v19 (broadcastInDim S8x200x50x1 ![0, 1, 2] bcast_S8x200x50_S8x200x50x1_0_1_2 : (⟨S8x200x50, .f32⟩ : BufTy).Contents (Elt F) → (⟨S8x200x50x1, .f32⟩ : BufTy).Contents (Elt F)) : HloOp τ sig (Elt F)).result (after (List.take 25 ops1) W) (Proc.devRef .tc main_v19) = _
  rw [unary_result, R1_v18 W 25 (by decide)]
  rfl
theorem R1_v20 (j : Nat) (hj : 26 < j) :
    after ((ops1 (F := F)).take j) W (Proc.devRef .tc main_v20) = Cert.ReferenceIdeal.ReadP.val_main_v20 (F := F) (W (Proc.devRef .tc main_arg1)) := by
  rw [after_take_stable ops1_writes W main_v20 (26 + 1) j hj (by decide)]
  refine (congrFun (after_take_succ ops1 W 26 (Nat.lt_of_lt_of_eq (by decide : 26 < 91) ops1_length.symm)) _).trans ?_
  show (unary main_v19 main_v20 (broadcastInDim S8x200x50x500 ![0, 1, 2, 3] bcast_S8x200x50x1_S8x200x50x500_0_1_2_3 : (⟨S8x200x50x1, .f32⟩ : BufTy).Contents (Elt F) → (⟨S8x200x50x500, .f32⟩ : BufTy).Contents (Elt F)) : HloOp τ sig (Elt F)).result (after (List.take 26 ops1) W) (Proc.devRef .tc main_v20) = _
  rw [unary_result, R1_v19 W 26 (by decide)]
  rfl
theorem R1_v21 (j : Nat) (hj : 27 < j) :
    after ((ops1 (F := F)).take j) W (Proc.devRef .tc main_v21) = Cert.ReferenceIdeal.ReadP.val_main_v21 (F := F) (W (Proc.devRef .tc main_arg1)) := by
  rw [after_take_stable ops1_writes W main_v21 (27 + 1) j hj (by decide)]
  refine (congrFun (after_take_succ ops1 W 27 (Nat.lt_of_lt_of_eq (by decide : 27 < 91) ops1_length.symm)) _).trans ?_
  show (binary main_v17 main_v20 main_v21 (Host.divf : (⟨S8x200x50x500, .f32⟩ : BufTy).Contents (Elt F) → (⟨S8x200x50x500, .f32⟩ : BufTy).Contents (Elt F) → (⟨S8x200x50x500, .f32⟩ : BufTy).Contents (Elt F)) : HloOp τ sig (Elt F)).result (after (List.take 27 ops1) W) (Proc.devRef .tc main_v21) = _
  rw [binary_result, R1_v17 W 27 (by decide), R1_v20 W 27 (by decide)]
  rfl
theorem R1_v22 (j : Nat) (hj : 28 < j) :
    after ((ops1 (F := F)).take j) W (Proc.devRef .tc main_v22) = Cert.ReferenceIdeal.ReadP.val_main_v22 (F := F) (W (Proc.devRef .tc main_arg2)) := by
  rw [after_take_stable ops1_writes W main_v22 (28 + 1) j hj (by decide)]
  refine (congrFun (after_take_succ ops1 W 28 (Nat.lt_of_lt_of_eq (by decide : 28 < 91) ops1_length.symm)) _).trans ?_
  show (unary main_arg2 main_v22 (broadcastInDim S8x1x50x1 ![0, 2] bcast_S8x50_S8x1x50x1_0_2 : (⟨S8x50, .i32⟩ : BufTy).Contents (Elt F) → (⟨S8x1x50x1, .i32⟩ : BufTy).Contents (Elt F)) : HloOp τ sig (Elt F)).result (after (List.take 28 ops1) W) (Proc.devRef .tc main_v22) = _
  rw [unary_result, R1_arg2 W 28]
  rfl
theorem R1_v23 (j : Nat) (hj : 29 < j) :
    after ((ops1 (F := F)).take j) W (Proc.devRef .tc main_v23) = Cert.ReferenceIdeal.ReadP.val_main_v23 (F := F) (W (Proc.devRef .tc main_arg2)) := by
  rw [after_take_stable ops1_writes W main_v23 (29 + 1) j hj (by decide)]
  refine (congrFun (after_take_succ ops1 W 29 (Nat.lt_of_lt_of_eq (by decide : 29 < 91) ops1_length.symm)) _).trans ?_
  show (unary main_v22 main_v23 (broadcastInDim S8x200x50x1 ![0, 1, 2, 3] bcast_S8x1x50x1_S8x200x50x1_0_1_2_3 : (⟨S8x1x50x1, .i32⟩ : BufTy).Contents (Elt F) → (⟨S8x200x50x1, .i32⟩ : BufTy).Contents (Elt F)) : HloOp τ sig (Elt F)).result (after (List.take 29 ops1) W) (Proc.devRef .tc main_v23) = _
  rw [unary_result, R1_v22 W 29 (by decide)]
  rfl
theorem R1_call0_c (j : Nat) (hj : 30 < j) :
    after ((ops1 (F := F)).take j) W (Proc.devRef .tc main_call0_c) = Cert.ReferenceIdeal.ReadP.val_main_call0_c (F := F) := by
  rw [after_take_stable ops1_writes W main_call0_c (30 + 1) j hj (by decide)]
  refine (congrFun (after_take_succ ops1 W 30 (Nat.lt_of_lt_of_eq (by decide : 30 < 91) ops1_length.symm)) _).trans ?_
  show (TRef.nullary (TRef.of (T := ⟨S_, .i32⟩) main_call0_c) (constantI S_ 32 0#32) : HloOp τ sig (Elt F)).result (after (List.take 30 ops1) W) (Proc.devRef .tc main_call0_c) = _
  rw [nullary_result]
  rfl
theorem R1_call0_v0 (j : Nat) (hj : 31 < j) :
    after ((ops1 (F := F)).take j) W (Proc.devRef .tc main_call0_v0) = Cert.ReferenceIdeal.ReadP.val_main_call0_v0 (F := F) := by
  rw [after_take_stable ops1_writes W main_call0_v0 (31 + 1) j hj (by decide)]
  refine (congrFun (after_take_succ ops1 W 31 (Nat.lt_of_lt_of_eq (by decide : 31 < 91) ops1_length.symm)) _).trans ?_
  show (TRef.unary (TRef.of (T := ⟨S_, .i32⟩) main_call0_c) (TRef.of (T := ⟨S8x200x50x1, .i32⟩) main_call0_v0) (broadcastInDim S8x200x50x1 ![] bcast_S_S8x200x50x1) : HloOp τ sig (Elt F)).result (after (List.take 31 ops1) W) (Proc.devRef .tc main_call0_v0) = _
  rw [unary_result, R1_call0_c W 31 (by decide)]
  rfl
theorem R1_call0_v1 (j : Nat) (hj : 32 < j) :
    after ((ops1 (F := F)).take j) W (Proc.devRef .tc main_call0_v1) = Cert.ReferenceIdeal.ReadP.val_main_call0_v1 (F := F) (W (Proc.devRef .tc main_arg2)) := by
  rw [after_take_stable ops1_writes W main_call0_v1 (32 + 1) j hj (by decide)]
  refine (congrFun (after_take_succ ops1 W 32 (Nat.lt_of_lt_of_eq (by decide : 32 < 91) ops1_length.symm)) _).trans ?_
  show (TRef.binary (TRef.of (T := ⟨S8x200x50x1, .i32⟩) main_v23) (TRef.of (T := ⟨S8x200x50x1, .i32⟩) main_call0_v0) (TRef.of (T := ⟨S8x200x50x1, .i1⟩) main_call0_v1) (cmpi .slt) : HloOp τ sig (Elt F)).result (after (List.take 32 ops1) W) (Proc.devRef .tc main_call0_v1) = _
  rw [binary_result, R1_v23 W 32 (by decide), R1_call0_v0 W 32 (by decide)]
  rfl
theorem R1_call0_c_0 (j : Nat) (hj : 33 < j) :
    after ((ops1 (F := F)).take j) W (Proc.devRef .tc main_call0_c_0) = Cert.ReferenceIdeal.ReadP.val_main_call0_c_0 (F := F) := by
  rw [after_take_stable ops1_writes W main_call0_c_0 (33 + 1) j hj (by decide)]
  refine (congrFun (after_take_succ ops1 W 33 (Nat.lt_of_lt_of_eq (by decide : 33 < 91) ops1_length.symm)) _).trans ?_
  show (TRef.nullary (TRef.of (T := ⟨S_, .i32⟩) main_call0_c_0) (constantI S_ 32 500#32) : HloOp τ sig (Elt F)).result (after (List.take 33 ops1) W) (Proc.devRef .tc main_call0_c_0) = _
  rw [nullary_result]
  rfl
theorem R1_call0_v2 (j : Nat) (hj : 34 < j) :
    after ((ops1 (F := F)).take j) W (Proc.devRef .tc main_call0_v2) = Cert.ReferenceIdeal.ReadP.val_main_call0_v2 (F := F) := by
  rw [after_take_stable ops1_writes W main_call0_v2 (34 + 1) j hj (by decide)]
  refine (congrFun (after_take_succ ops1 W 34 (Nat.lt_of_lt_of_eq (by decide : 34 < 91) ops1_length.symm)) _).trans ?_
  show (TRef.unary (TRef.of (T := ⟨S_, .i32⟩) main_call0_c_0) (TRef.of (T := ⟨S8x200x50x1, .i32⟩) main_call0_v2) (broadcastInDim S8x200x50x1 ![] bcast_S_S8x200x50x1) : HloOp τ sig (Elt F)).result (after (List.take 34 ops1) W) (Proc.devRef .tc main_call0_v2) = _
  rw [unary_result, R1_call0_c_0 W 34 (by decide)]
  rfl
theorem R1_call0_v3 (j : Nat) (hj : 35 < j) :
    after ((ops1 (F := F)).take j) W (Proc.devRef .tc main_call0_v3) = Cert.ReferenceIdeal.ReadP.val_main_call0_v3 (F := F) (W (Proc.devRef .tc main_arg2)) := by
  rw [after_take_stable ops1_writes W main_call0_v3 (35 + 1) j hj (by decide)]
  refine (congrFun (after_take_succ ops1 W 35 (Nat.lt_of_lt_of_eq (by decide : 35 < 91) ops1_length.symm)) _).trans ?_
  show (TRef.binary (TRef.of (T := ⟨S8x200x50x1, .i32⟩) main_v23) (TRef.of (T := ⟨S8x200x50x1, .i32⟩) main_call0_v2) (TRef.of (T := ⟨S8x200x50x1, .i32⟩) main_call0_v3) addi : HloOp τ sig (Elt F)).result (after (List.take 35 ops1) W) (Proc.devRef .tc main_call0_v3) = _
  rw [binary_result, R1_v23 W 35 (by decide), R1_call0_v2 W 35 (by decide)]
  rfl
theorem R1_call0_v4 (j : Nat) (hj : 36 < j) :
    after ((ops1 (F := F)).take j) W (Proc.devRef .tc main_call0_v4) = Cert.ReferenceIdeal.ReadP.val_main_call0_v4 (F := F) (W (Proc.devRef .tc main_arg2)) := by
  rw [after_take_stable ops1_writes W main_call0_v4 (36 + 1) j hj (by decide)]
  refine (congrFun (after_take_succ ops1 W 36 (Nat.lt_of_lt_of_eq (by decide : 36 < 91) ops1_length.symm)) _).trans ?_
  show (TRef.ternary (TRef.of (T := ⟨S8x200x50x1, .i1⟩) main_call0_v1) (TRef.of (T := ⟨S8x200x50x1, .i32⟩) main_call0_v3) (TRef.of (T := ⟨S8x200x50x1, .i32⟩) main_v23) (TRef.of (T := ⟨S8x200x50x1, .i32⟩) main_call0_v4) select : HloOp τ sig (Elt F)).result (after (List.take 36 ops1) W) (Proc.devRef .tc main_call0_v4) = _
  rw [ternary_result, R1_call0_v1 W 36 (by decide), R1_call0_v3 W 36 (by decide), R1_v23 W 36 (by decide)]
  rfl
theorem R1_call0_v5 (j : Nat) (hj : 37 < j) :
    after ((ops1 (F := F)).take j) W (Proc.devRef .tc main_call0_v5) = Cert.ReferenceIdeal.ReadP.val_main_call0_v5 (F := F) (W (Proc.devRef .tc main_arg2)) := by
  rw [after_take_stable ops1_writes W main_call0_v5 (37 + 1) j hj (by decide)]
  refine (congrFun (after_take_succ ops1 W 37 (Nat.lt_of_lt_of_eq (by decide : 37 < 91) ops1_length.symm)) _).trans ?_
  show (TRef.reshape (TRef.of (T := ⟨S8x200x50x1, .i32⟩) main_call0_v4) (TRef.of (T := ⟨S8x200x50x1x1, .i32⟩) main_call0_v5) rfl shapeCasts_S8x200x50x1_S8x200x50x1x1 : HloOp τ sig (Elt F)).result (after (List.take 37 ops1) W) (Proc.devRef .tc main_call0_v5) = _
  rw [reshape_result, R1_call0_v4 W 37 (by decide)]
  rfl
theorem R1_call0_c_1 (j : Nat) (hj : 38 < j) :
    after ((ops1 (F := F)).take j) W (Proc.devRef .tc main_call0_c_1) = Cert.ReferenceIdeal.ReadP.val_main_call0_c_1 (F := F) := by
  rw [after_take_stable ops1_writes W main_call0_c_1 (38 + 1) j hj (by decide)]
  refine (congrFun (after_take_succ ops1 W 38 (Nat.lt_of_lt_of_eq (by decide : 38 < 91) ops1_length.symm)) _).trans ?_
  show (TRef.nullary (TRef.of (T := ⟨S1, .i32⟩) main_call0_c_1) (constantI S1 32 499#32) : HloOp τ sig (Elt F)).result (after (List.take 38 ops1) W) (Proc.devRef .tc main_call0_c_1) = _
  rw [nullary_result]
  rfl
theorem R1_call0_c_2 (j : Nat) (hj : 39 < j) :
    after ((ops1 (F := F)).take j) W (Proc.devRef .tc main_call0_c_2) = Cert.ReferenceIdeal.ReadP.val_main_call0_c_2 (F := F) := by
  rw [after_take_stable ops1_writes W main_call0_c_2 (39 + 1) j hj (by decide)]
  refine (congrFun (after_take_succ ops1 W 39 (Nat.lt_of_lt_of_eq (by decide : 39 < 91) ops1_length.symm)) _).trans ?_
  show (TRef.nullary (TRef.of (T := ⟨S_, .i32⟩) main_call0_c_2) (constantI S_ 32 0#32) : HloOp τ sig (Elt F)).result (after (List.take 39 ops1) W) (Proc.devRef .tc main_call0_c_2) = _
  rw [nullary_result]
  rfl
theorem R1_call0_v6 (j : Nat) (hj : 40 < j) :
    after ((ops1 (F := F)).take j) W (Proc.devRef .tc main_call0_v6) = Cert.ReferenceIdeal.ReadP.val_main_call0_v6 (F := F) := by
  rw [after_take_stable ops1_writes W main_call0_v6 (40 + 1) j hj (by decide)]
  refine (congrFun (after_take_succ ops1 W 40 (Nat.lt_of_lt_of_eq (by decide : 40 < 91) ops1_length.symm)) _).trans ?_
  show (TRef.unary (TRef.of (T := ⟨S_, .i32⟩) main_call0_c_2) (TRef.of (T := ⟨S8x200x50x1x1, .i32⟩) main_call0_v6) (broadcastInDim S8x200x50x1x1 ![] bcast_S_S8x200x50x1x1) : HloOp τ sig (Elt F)).result (after (List.take 40 ops1) W) (Proc.devRef .tc main_call0_v6) = _
  rw [unary_result, R1_call0_c_2 W 40 (by decide)]
  rfl
theorem R1_call0_v7 (j : Nat) (hj : 41 < j) :
    after ((ops1 (F := F)).take j) W (Proc.devRef .tc main_call0_v7) = Cert.ReferenceIdeal.ReadP.val_main_call0_v7 (F := F) (W (Proc.devRef .tc main_arg2)) := by
  rw [after_take_stable ops1_writes W main_call0_v7 (41 + 1) j hj (by decide)]
  refine (congrFun (after_take_succ ops1 W 41 (Nat.lt_of_lt_of_eq (by decide : 41 < 91) ops1_length.symm)) _).trans ?_
  show (TRef.binary (TRef.of (T := ⟨S8x200x50x1x1, .i32⟩) main_call0_v5) (TRef.of (T := ⟨S8x200x50x1x1, .i32⟩) main_call0_v6) (TRef.of (T := ⟨S8x200x50x1x1, .i1⟩) main_call0_v7) (cmpi .sge) : HloOp τ sig (Elt F)).result (after (List.take 41 ops1) W) (Proc.devRef .tc main_call0_v7) = _
  rw [binary_result, R1_call0_v5 W 41 (by decide), R1_call0_v6 W 41 (by decide)]
  rfl
theorem R1_call0_v8 (j : Nat) (hj : 42 < j) :
    after ((ops1 (F := F)).take j) W (Proc.devRef .tc main_call0_v8) = Cert.ReferenceIdeal.ReadP.val_main_call0_v8 (F := F) := by
  rw [after_take_stable ops1_writes W main_call0_v8 (42 + 1) j hj (by decide)]
  refine (congrFun (after_take_succ ops1 W 42 (Nat.lt_of_lt_of_eq (by decide : 42 < 91) ops1_length.symm)) _).trans ?_
  show (TRef.unary (TRef.of (T := ⟨S1, .i32⟩) main_call0_c_1) (TRef.of (T := ⟨S1x1x1x1x1, .i32⟩) main_call0_v8) (broadcastInDim S1x1x1x1x1 ![4] bcast_S1_S1x1x1x1x1_4) : HloOp τ sig (Elt F)).result (after (List.take 42 ops1) W) (Proc.devRef .tc main_call0_v8) = _
  rw [unary_result, R1_call0_c_1 W 42 (by decide)]
  rfl
theorem R1_call0_v9 (j : Nat) (hj : 43 < j) :
    after ((ops1 (F := F)).take j) W (Proc.devRef .tc main_call0_v9) = Cert.ReferenceIdeal.ReadP.val_main_call0_v9 (F := F) := by
  rw [after_take_stable ops1_writes W main_call0_v9 (43 + 1) j hj (by decide)]
  refine (congrFun (after_take_succ ops1 W 43 (Nat.lt_of_lt_of_eq (by decide : 43 < 91) ops1_length.symm)) _).trans ?_
  show (TRef.unary (TRef.of (T := ⟨S1x1x1x1x1, .i32⟩) main_call0_v8) (TRef.of (T := ⟨S8x200x50x1x1, .i32⟩) main_call0_v9) (broadcastInDim S8x200x50x1x1 ![0, 1, 2, 3, 4] bcast_S1x1x1x1x1_S8x200x50x1x1_0_1_2_3_4) : HloOp τ sig (Elt F)).result (after (List.take 43 ops1) W) (Proc.devRef .tc main_call0_v9) = _
  rw [unary_result, R1_call0_v8 W 43 (by decide)]
  rfl
theorem R1_call0_v10 (j : Nat) (hj : 44 < j) :
    after ((ops1 (F := F)).take j) W (Proc.devRef .tc main_call0_v10) = Cert.ReferenceIdeal.ReadP.val_main_call0_v10 (F := F) (W (Proc.devRef .tc main_arg2)) := by
  rw [after_take_stable ops1_writes W main_call0_v10 (44 + 1) j hj (by decide)]
  refine (congrFun (after_take_succ ops1 W 44 (Nat.lt_of_lt_of_eq (by decide : 44 < 91) ops1_length.symm)) _).trans ?_
  show (TRef.binary (TRef.of (T := ⟨S8x200x50x1x1, .i32⟩) main_call0_v5) (TRef.of (T := ⟨S8x200x50x1x1, .i32⟩) main_call0_v9) (TRef.of (T := ⟨S8x200x50x1x1, .i1⟩) main_call0_v10) (cmpi .sle) : HloOp τ sig (Elt F)).result (after (List.take 44 ops1) W) (Proc.devRef .tc main_call0_v10) = _
  rw [binary_result, R1_call0_v5 W 44 (by decide), R1_call0_v9 W 44 (by decide)]
  rfl
theorem R1_call0_v11 (j : Nat) (hj : 45 < j) :
    after ((ops1 (F := F)).take j) W (Proc.devRef .tc main_call0_v11) = Cert.ReferenceIdeal.ReadP.val_main_call0_v11 (F := F) (W (Proc.devRef .tc main_arg2)) := by
  rw [after_take_stable ops1_writes W main_call0_v11 (45 + 1) j hj (by decide)]
  refine (congrFun (after_take_succ ops1 W 45 (Nat.lt_of_lt_of_eq (by decide : 45 < 91) ops1_length.symm)) _).trans ?_
  show (TRef.binary (TRef.of (T := ⟨S8x200x50x1x1, .i1⟩) main_call0_v7) (TRef.of (T := ⟨S8x200x50x1x1, .i1⟩) main_call0_v10) (TRef.of (T := ⟨S8x200x50x1x1, .i1⟩) main_call0_v11) andi : HloOp τ sig (Elt F)).result (after (List.take 45 ops1) W) (Proc.devRef .tc main_call0_v11) = _
  rw [binary_result, R1_call0_v7 W 45 (by decide), R1_call0_v10 W 45 (by decide)]
  rfl
theorem R1_call0_c_3 (j : Nat) (hj : 46 < j) :
    after ((ops1 (F := F)).take j) W (Proc.devRef .tc main_call0_c_3) = Cert.ReferenceIdeal.ReadP.val_main_call0_c_3 (F := F) := by
  rw [after_take_stable ops1_writes W main_call0_c_3 (46 + 1) j hj (by decide)]
  refine (congrFun (after_take_succ ops1 W 46 (Nat.lt_of_lt_of_eq (by decide : 46 < 91) ops1_length.symm)) _).trans ?_
  show (TRef.nullary (TRef.of (T := ⟨S_, .i1⟩) main_call0_c_3) (constantI S_ 1 1#1) : HloOp τ sig (Elt F)).result (after (List.take 46 ops1) W) (Proc.devRef .tc main_call0_c_3) = _
  rw [nullary_result]
  rfl
theorem R1_call0_v12 (j : Nat) (hj : 47 < j) :
    after ((ops1 (F := F)).take j) W (Proc.devRef .tc main_call0_v12) = Cert.ReferenceIdeal.ReadP.val_main_call0_v12 (F := F) (W (Proc.devRef .tc main_arg2)) := by
  rw [after_take_stable ops1_writes W main_call0_v12 (47 + 1) j hj (by decide)]
  refine (congrFun (after_take_succ ops1 W 47 (Nat.lt_of_lt_of_eq (by decide : 47 < 91) ops1_length.symm)) _).trans ?_
  show (TRef.binary (TRef.of (T := ⟨S8x200x50x1x1, .i1⟩) main_call0_v11) (TRef.of (T := ⟨S_, .i1⟩) main_call0_c_3) (TRef.of (T := ⟨S8x200x50x1, .i1⟩) main_call0_v12) (fun x v => Host.reduce IntOp.andi x v reducesTo_S8x200x50x1x1_S8x200x50x1_d4 h_S_) : HloOp τ sig (Elt F)).result (after (List.take 47 ops1) W) (Proc.devRef .tc main_call0_v12) = _
  rw [binary_result, R1_call0_v11 W 47 (by decide), R1_call0_c_3 W 47 (by decide)]
  beta_reduce
  rw [ofBuf_call0_v11, ofBuf_call0_c_3, toBuf_call0_v12]
  rfl
theorem R1_call0_v13 (j : Nat) (hj : 48 < j) :
    after ((ops1 (F := F)).take j) W (Proc.devRef .tc main_call0_v13) = Cert.ReferenceIdeal.ReadP.val_main_call0_v13 (F := F) (W (Proc.devRef .tc main_arg0)) (W (Proc.devRef .tc main_arg2)) := by
  rw [after_take_stable ops1_writes W main_call0_v13 (48 + 1) j hj (by decide)]
  refine (congrFun (after_take_succ ops1 W 48 (Nat.lt_of_lt_of_eq (by decide : 48 < 91) ops1_length.symm)) _).trans ?_
  show (TRef.binary (TRef.of (T := ⟨S8x200x50x500, .f32⟩) main_v10) (TRef.of (T := ⟨S8x200x50x1x1, .i32⟩) main_call0_v5) (TRef.of (T := ⟨S8x200x50x1, .f32⟩) main_call0_v13) (fun x i => Host.gather gather_S8x200x50x500_S8x200x50x1x1_S8x200x50x1_n_3_012_012_3_4_1111 x i) : HloOp τ sig (Elt F)).result (after (List.take 48 ops1) W) (Proc.devRef .tc main_call0_v13) = _
  rw [binary_result, R1_v10 W 48 (by decide), R1_call0_v5 W 48 (by decide)]
  rfl
theorem R1_call0_cst (j : Nat) (hj : 49 < j) :
    after ((ops1 (F := F)).take j) W (Proc.devRef .tc main_call0_cst) = Cert.ReferenceIdeal.ReadP.val_main_call0_cst (F := F) := by
  rw [after_take_stable ops1_writes W main_call0_cst (49 + 1) j hj (by decide)]
  refine (congrFun (after_take_succ ops1 W 49 (Nat.lt_of_lt_of_eq (by decide : 49 < 91) ops1_length.symm)) _).trans ?_
  show (TRef.nullary (TRef.of (T := ⟨S_, .f32⟩) main_call0_cst) (constant S_ .f32 0x7FC00000#32) : HloOp τ sig (Elt F)).result (after (List.take 49 ops1) W) (Proc.devRef .tc main_call0_cst) = _
  rw [nullary_result]
  rfl
theorem R1_call0_v14 (j : Nat) (hj : 50 < j) :
    after ((ops1 (F := F)).take j) W (Proc.devRef .tc main_call0_v14) = Cert.ReferenceIdeal.ReadP.val_main_call0_v14 (F := F) := by
  rw [after_take_stable ops1_writes W main_call0_v14 (50 + 1) j hj (by decide)]
  refine (congrFun (after_take_succ ops1 W 50 (Nat.lt_of_lt_of_eq (by decide : 50 < 91) ops1_length.symm)) _).trans ?_
  show (TRef.unary (TRef.of (T := ⟨S_, .f32⟩) main_call0_cst) (TRef.of (T := ⟨S8x200x50x1, .f32⟩) main_call0_v14) (broadcastInDim S8x200x50x1 ![] bcast_S_S8x200x50x1) : HloOp τ sig (Elt F)).result (after (List.take 50 ops1) W) (Proc.devRef .tc main_call0_v14) = _
  rw [unary_result, R1_call0_cst W 50 (by decide)]
  rfl
theorem R1_v24 (j : Nat) (hj : 51 < j) :
    after ((ops1 (F := F)).take j) W (Proc.devRef .tc main_v24) = Cert.ReferenceIdeal.ReadP.val_main_v24 (F := F) (W (Proc.devRef .tc main_arg0)) (W (Proc.devRef .tc main_arg2)) := by
  rw [after_take_stable ops1_writes W main_v24 (51 + 1) j hj (by decide)]
  refine (congrFun (after_take_succ ops1 W 51 (Nat.lt_of_lt_of_eq (by decide : 51 < 91) ops1_length.symm)) _).trans ?_
  show (TRef.ternary (TRef.of (T := ⟨S8x200x50x1, .i1⟩) main_call0_v12) (TRef.of (T := ⟨S8x200x50x1, .f32⟩) main_call0_v13) (TRef.of (T := ⟨S8x200x50x1, .f32⟩) main_call0_v14) (TRef.of (T := ⟨S8x200x50x1, .f32⟩) main_v24) select : HloOp τ sig (Elt F)).result (after (List.take 51 ops1) W) (Proc.devRef .tc main_v24) = _
  rw [ternary_result, R1_call0_v12 W 51 (by decide), R1_call0_v13 W 51 (by decide), R1_call0_v14 W 51 (by decide)]
  beta_reduce
  rw [ofBuf_call0_v12, ofBuf_call0_v13, ofBuf_call0_v14, toBuf_v24]
  rfl
theorem R1_call1_c (j : Nat) (hj : 52 < j) :
    after ((ops1 (F := F)).take j) W (Proc.devRef .tc main_call1_c) = Cert.ReferenceIdeal.ReadP.val_main_call1_c (F := F) := by
  rw [after_take_stable ops1_writes W main_call1_c (52 + 1) j hj (by decide)]
  refine (congrFun (after_take_succ ops1 W 52 (Nat.lt_of_lt_of_eq (by decide : 52 < 91) ops1_length.symm)) _).trans ?_
  show (TRef.nullary (TRef.of (T := ⟨S_, .i32⟩) main_call1_c) (constantI S_ 32 0#32) : HloOp τ sig (Elt F)).result (after (List.take 52 ops1) W) (Proc.devRef .tc main_call1_c) = _
  rw [nullary_result]
  rfl
theorem R1_call1_v0 (j : Nat) (hj : 53 < j) :
    after ((ops1 (F := F)).take j) W (Proc.devRef .tc main_call1_v0) = Cert.ReferenceIdeal.ReadP.val_main_call1_v0 (F := F) := by
  rw [after_take_stable ops1_writes W main_call1_v0 (53 + 1) j hj (by decide)]
  refine (congrFun (after_take_succ ops1 W 53 (Nat.lt_of_lt_of_eq (by decide : 53 < 91) ops1_length.symm)) _).trans ?_
  show (TRef.unary (TRef.of (T := ⟨S_, .i32⟩) main_call1_c) (TRef.of (T := ⟨S8x200x50x1, .i32⟩) main_call1_v0) (broadcastInDim S8x200x50x1 ![] bcast_S_S8x200x50x1) : HloOp τ sig (Elt F)).result (after (List.take 53 ops1) W) (Proc.devRef .tc main_call1_v0) = _
  rw [unary_result, R1_call1_c W 53 (by decide)]
  rfl
theorem R1_call1_v1 (j : Nat) (hj : 54 < j) :
    after ((ops1 (F := F)).take j) W (Proc.devRef .tc main_call1_v1) = Cert.ReferenceIdeal.ReadP.val_main_call1_v1 (F := F) (W (Proc.devRef .tc main_arg2)) := by
  rw [after_take_stable ops1_writes W main_call1_v1 (54 + 1) j hj (by decide)]
  refine (congrFun (after_take_succ ops1 W 54 (Nat.lt_of_lt_of_eq (by decide : 54 < 91) ops1_length.symm)) _).trans ?_
  show (TRef.binary (TRef.of (T := ⟨S8x200x50x1, .i32⟩) main_v23) (TRef.of (T := ⟨S8x200x50x1, .i32⟩) main_call1_v0) (TRef.of (T := ⟨S8x200x50x1, .i1⟩) main_call1_v1) (cmpi .slt) : HloOp τ sig (Elt F)).result (after (List.take 54 ops1) W) (Proc.devRef .tc main_call1_v1) = _
  rw [binary_result, R1_v23 W 54 (by decide), R1_call1_v0 W 54 (by decide)]
  rfl
theorem R1_call1_c_0 (j : Nat) (hj : 55 < j) :
    after ((ops1 (F := F)).take j) W (Proc.devRef .tc main_call1_c_0) = Cert.ReferenceIdeal.ReadP.val_main_call1_c_0 (F := F) := by
  rw [after_take_stable ops1_writes W main_call1_c_0 (55 + 1) j hj (by decide)]
  refine (congrFun (after_take_succ ops1 W 55 (Nat.lt_of_lt_of_eq (by decide : 55 < 91) ops1_length.symm)) _).trans ?_
  show (TRef.nullary (TRef.of (T := ⟨S_, .i32⟩) main_call1_c_0) (constantI S_ 32 500#32) : HloOp τ sig (Elt F)).result (after (List.take 55 ops1) W) (Proc.devRef .tc main_call1_c_0) = _
  rw [nullary_result]
  rfl
theorem R1_call1_v2 (j : Nat) (hj : 56 < j) :
    after ((ops1 (F := F)).take j) W (Proc.devRef .tc main_call1_v2) = Cert.ReferenceIdeal.ReadP.val_main_call1_v2 (F := F) := by
  rw [after_take_stable ops1_writes W main_call1_v2 (56 + 1) j hj (by decide)]
  refine (congrFun (after_take_succ ops1 W 56 (Nat.lt_of_lt_of_eq (by decide : 56 < 91) ops1_length.symm)) _).trans ?_
  show (TRef.unary (TRef.of (T := ⟨S_, .i32⟩) main_call1_c_0) (TRef.of (T := ⟨S8x200x50x1, .i32⟩) main_call1_v2) (broadcastInDim S8x200x50x1 ![] bcast_S_S8x200x50x1) : HloOp τ sig (Elt F)).result (after (List.take 56 ops1) W) (Proc.devRef .tc main_call1_v2) = _
  rw [unary_result, R1_call1_c_0 W 56 (by decide)]
  rfl
theorem R1_call1_v3 (j : Nat) (hj : 57 < j) :
    after ((ops1 (F := F)).take j) W (Proc.devRef .tc main_call1_v3) = Cert.ReferenceIdeal.ReadP.val_main_call1_v3 (F := F) (W (Proc.devRef .tc main_arg2)) := by
  rw [after_take_stable ops1_writes W main_call1_v3 (57 + 1) j hj (by decide)]
  refine (congrFun (after_take_succ ops1 W 57 (Nat.lt_of_lt_of_eq (by decide : 57 < 91) ops1_length.symm)) _).trans ?_
  show (TRef.binary (TRef.of (T := ⟨S8x200x50x1, .i32⟩) main_v23) (TRef.of (T := ⟨S8x200x50x1, .i32⟩) main_call1_v2) (TRef.of (T := ⟨S8x200x50x1, .i32⟩) main_call1_v3) addi : HloOp τ sig (Elt F)).result (after (List.take 57 ops1) W) (Proc.devRef .tc main_call1_v3) = _
  rw [binary_result, R1_v23 W 57 (by decide), R1_call1_v2 W 57 (by decide)]
  rfl
theorem R1_call1_v4 (j : Nat) (hj : 58 < j) :
    after ((ops1 (F := F)).take j) W (Proc.devRef .tc main_call1_v4) = Cert.ReferenceIdeal.ReadP.val_main_call1_v4 (F := F) (W (Proc.devRef .tc main_arg2)) := by
  rw [after_take_stable ops1_writes W main_call1_v4 (58 + 1) j hj (by decide)]
  refine (congrFun (after_take_succ ops1 W 58 (Nat.lt_of_lt_of_eq (by decide : 58 < 91) ops1_length.symm)) _).trans ?_
  show (TRef.ternary (TRef.of (T := ⟨S8x200x50x1, .i1⟩) main_call1_v1) (TRef.of (T := ⟨S8x200x50x1, .i32⟩) main_call1_v3) (TRef.of (T := ⟨S8x200x50x1, .i32⟩) main_v23) (TRef.of (T := ⟨S8x200x50x1, .i32⟩) main_call1_v4) select : HloOp τ sig (Elt F)).result (after (List.take 58 ops1) W) (Proc.devRef .tc main_call1_v4) = _
  rw [ternary_result, R1_call1_v1 W 58 (by decide), R1_call1_v3 W 58 (by decide), R1_v23 W 58 (by decide)]
  rfl
theorem R1_call1_v5 (j : Nat) (hj : 59 < j) :
    after ((ops1 (F := F)).take j) W (Proc.devRef .tc main_call1_v5) = Cert.ReferenceIdeal.ReadP.val_main_call1_v5 (F := F) (W (Proc.devRef .tc main_arg2)) := by
  rw [after_take_stable ops1_writes W main_call1_v5 (59 + 1) j hj (by decide)]
  refine (congrFun (after_take_succ ops1 W 59 (Nat.lt_of_lt_of_eq (by decide : 59 < 91) ops1_length.symm)) _).trans ?_
  show (TRef.reshape (TRef.of (T := ⟨S8x200x50x1, .i32⟩) main_call1_v4) (TRef.of (T := ⟨S8x200x50x1x1, .i32⟩) main_call1_v5) rfl shapeCasts_S8x200x50x1_S8x200x50x1x1 : HloOp τ sig (Elt F)).result (after (List.take 59 ops1) W) (Proc.devRef .tc main_call1_v5) = _
  rw [reshape_result, R1_call1_v4 W 59 (by decide)]
  rfl
theorem R1_call1_c_1 (j : Nat) (hj : 60 < j) :
    after ((ops1 (F := F)).take j) W (Proc.devRef .tc main_call1_c_1) = Cert.ReferenceIdeal.ReadP.val_main_call1_c_1 (F := F) := by
  rw [after_take_stable ops1_writes W main_call1_c_1 (60 + 1) j hj (by decide)]
  refine (congrFun (after_take_succ ops1 W 60 (Nat.lt_of_lt_of_eq (by decide : 60 < 91) ops1_length.symm)) _).trans ?_
  show (TRef.nullary (TRef.of (T := ⟨S1, .i32⟩) main_call1_c_1) (constantI S1 32 499#32) : HloOp τ sig (Elt F)).result (after (List.take 60 ops1) W) (Proc.devRef .tc main_call1_c_1) = _
  rw [nullary_result]
  rfl
theorem R1_call1_c_2 (j : Nat) (hj : 61 < j) :
    after ((ops1 (F := F)).take j) W (Proc.devRef .tc main_call1_c_2) = Cert.ReferenceIdeal.ReadP.val_main_call1_c_2 (F := F) := by
  rw [after_take_stable ops1_writes W main_call1_c_2 (61 + 1) j hj (by decide)]
  refine (congrFun (after_take_succ ops1 W 61 (Nat.lt_of_lt_of_eq (by decide : 61 < 91) ops1_length.symm)) _).trans ?_
  show (TRef.nullary (TRef.of (T := ⟨S_, .i32⟩) main_call1_c_2) (constantI S_ 32 0#32) : HloOp τ sig (Elt F)).result (after (List.take 61 ops1) W) (Proc.devRef .tc main_call1_c_2) = _
  rw [nullary_result]
  rfl
theorem R1_call1_v6 (j : Nat) (hj : 62 < j) :
    after ((ops1 (F := F)).take j) W (Proc.devRef .tc main_call1_v6) = Cert.ReferenceIdeal.ReadP.val_main_call1_v6 (F := F) := by
  rw [after_take_stable ops1_writes W main_call1_v6 (62 + 1) j hj (by decide)]
  refine (congrFun (after_take_succ ops1 W 62 (Nat.lt_of_lt_of_eq (by decide : 62 < 91) ops1_length.symm)) _).trans ?_
  show (TRef.unary (TRef.of (T := ⟨S_, .i32⟩) main_call1_c_2) (TRef.of (T := ⟨S8x200x50x1x1, .i32⟩) main_call1_v6) (broadcastInDim S8x200x50x1x1 ![] bcast_S_S8x200x50x1x1) : HloOp τ sig (Elt F)).result (after (List.take 62 ops1) W) (Proc.devRef .tc main_call1_v6) = _
  rw [unary_result, R1_call1_c_2 W 62 (by decide)]
  rfl
theorem R1_call1_v7 (j : Nat) (hj : 63 < j) :
    after ((ops1 (F := F)).take j) W (Proc.devRef .tc main_call1_v7) = Cert.ReferenceIdeal.ReadP.val_main_call1_v7 (F := F) (W (Proc.devRef .tc main_arg2)) := by
  rw [after_take_stable ops1_writes W main_call1_v7 (63 + 1) j hj (by decide)]
  refine (congrFun (after_take_succ ops1 W 63 (Nat.lt_of_lt_of_eq (by decide : 63 < 91) ops1_length.symm)) _).trans ?_
  show (TRef.binary (TRef.of (T := ⟨S8x200x50x1x1, .i32⟩) main_call1_v5) (TRef.of (T := ⟨S8x200x50x1x1, .i32⟩) main_call1_v6) (TRef.of (T := ⟨S8x200x50x1x1, .i1⟩) main_call1_v7) (cmpi .sge) : HloOp τ sig (Elt F)).result (after (List.take 63 ops1) W) (Proc.devRef .tc main_call1_v7) = _
  rw [binary_result, R1_call1_v5 W 63 (by decide), R1_call1_v6 W 63 (by decide)]
  rfl
theorem R1_call1_v8 (j : Nat) (hj : 64 < j) :
    after ((ops1 (F := F)).take j) W (Proc.devRef .tc main_call1_v8) = Cert.ReferenceIdeal.ReadP.val_main_call1_v8 (F := F) := by
  rw [after_take_stable ops1_writes W main_call1_v8 (64 + 1) j hj (by decide)]
  refine (congrFun (after_take_succ ops1 W 64 (Nat.lt_of_lt_of_eq (by decide : 64 < 91) ops1_length.symm)) _).trans ?_
  show (TRef.unary (TRef.of (T := ⟨S1, .i32⟩) main_call1_c_1) (TRef.of (T := ⟨S1x1x1x1x1, .i32⟩) main_call1_v8) (broadcastInDim S1x1x1x1x1 ![4] bcast_S1_S1x1x1x1x1_4) : HloOp τ sig (Elt F)).result (after (List.take 64 ops1) W) (Proc.devRef .tc main_call1_v8) = _
  rw [unary_result, R1_call1_c_1 W 64 (by decide)]
  rfl
theorem R1_call1_v9 (j : Nat) (hj : 65 < j) :
    after ((ops1 (F := F)).take j) W (Proc.devRef .tc main_call1_v9) = Cert.ReferenceIdeal.ReadP.val_main_call1_v9 (F := F) := by
  rw [after_take_stable ops1_writes W main_call1_v9 (65 + 1) j hj (by decide)]
  refine (congrFun (after_take_succ ops1 W 65 (Nat.lt_of_lt_of_eq (by decide : 65 < 91) ops1_length.symm)) _).trans ?_
  show (TRef.unary (TRef.of (T := ⟨S1x1x1x1x1, .i32⟩) main_call1_v8) (TRef.of (T := ⟨S8x200x50x1x1, .i32⟩) main_call1_v9) (broadcastInDim S8x200x50x1x1 ![0, 1, 2, 3, 4] bcast_S1x1x1x1x1_S8x200x50x1x1_0_1_2_3_4) : HloOp τ sig (Elt F)).result (after (List.take 65 ops1) W) (Proc.devRef .tc main_call1_v9) = _
  rw [unary_result, R1_call1_v8 W 65 (by decide)]
  rfl
theorem R1_call1_v10 (j : Nat) (hj : 66 < j) :
    after ((ops1 (F := F)).take j) W (Proc.devRef .tc main_call1_v10) = Cert.ReferenceIdeal.ReadP.val_main_call1_v10 (F := F) (W (Proc.devRef .tc main_arg2)) := by
  rw [after_take_stable ops1_writes W main_call1_v10 (66 + 1) j hj (by decide)]
  refine (congrFun (after_take_succ ops1 W 66 (Nat.lt_of_lt_of_eq (by decide : 66 < 91) ops1_length.symm)) _).trans ?_
  show (TRef.binary (TRef.of (T := ⟨S8x200x50x1x1, .i32⟩) main_call1_v5) (TRef.of (T := ⟨S8x200x50x1x1, .i32⟩) main_call1_v9) (TRef.of (T := ⟨S8x200x50x1x1, .i1⟩) main_call1_v10) (cmpi .sle) : HloOp τ sig (Elt F)).result (after (List.take 66 ops1) W) (Proc.devRef .tc main_call1_v10) = _
  rw [binary_result, R1_call1_v5 W 66 (by decide), R1_call1_v9 W 66 (by decide)]
  rfl
theorem R1_call1_v11 (j : Nat) (hj : 67 < j) :
    after ((ops1 (F := F)).take j) W (Proc.devRef .tc main_call1_v11) = Cert.ReferenceIdeal.ReadP.val_main_call1_v11 (F := F) (W (Proc.devRef .tc main_arg2)) := by
  rw [after_take_stable ops1_writes W main_call1_v11 (67 + 1) j hj (by decide)]
  refine (congrFun (after_take_succ ops1 W 67 (Nat.lt_of_lt_of_eq (by decide : 67 < 91) ops1_length.symm)) _).trans ?_
  show (TRef.binary (TRef.of (T := ⟨S8x200x50x1x1, .i1⟩) main_call1_v7) (TRef.of (T := ⟨S8x200x50x1x1, .i1⟩) main_call1_v10) (TRef.of (T := ⟨S8x200x50x1x1, .i1⟩) main_call1_v11) andi : HloOp τ sig (Elt F)).result (after (List.take 67 ops1) W) (Proc.devRef .tc main_call1_v11) = _
  rw [binary_result, R1_call1_v7 W 67 (by decide), R1_call1_v10 W 67 (by decide)]
  rfl
theorem R1_call1_c_3 (j : Nat) (hj : 68 < j) :
    after ((ops1 (F := F)).take j) W (Proc.devRef .tc main_call1_c_3) = Cert.ReferenceIdeal.ReadP.val_main_call1_c_3 (F := F) := by
  rw [after_take_stable ops1_writes W main_call1_c_3 (68 + 1) j hj (by decide)]
  refine (congrFun (after_take_succ ops1 W 68 (Nat.lt_of_lt_of_eq (by decide : 68 < 91) ops1_length.symm)) _).trans ?_
  show (TRef.nullary (TRef.of (T := ⟨S_, .i1⟩) main_call1_c_3) (constantI S_ 1 1#1) : HloOp τ sig (Elt F)).result (after (List.take 68 ops1) W) (Proc.devRef .tc main_call1_c_3) = _
  rw [nullary_result]
  rfl
theorem R1_call1_v12 (j : Nat) (hj : 69 < j) :
    after ((ops1 (F := F)).take j) W (Proc.devRef .tc main_call1_v12) = Cert.ReferenceIdeal.ReadP.val_main_call1_v12 (F := F) (W (Proc.devRef .tc main_arg2)) := by
  rw [after_take_stable ops1_writes W main_call1_v12 (69 + 1) j hj (by decide)]
  refine (congrFun (after_take_succ ops1 W 69 (Nat.lt_of_lt_of_eq (by decide : 69 < 91) ops1_length.symm)) _).trans ?_
  show (TRef.binary (TRef.of (T := ⟨S8x200x50x1x1, .i1⟩) main_call1_v11) (TRef.of (T := ⟨S_, .i1⟩) main_call1_c_3) (TRef.of (T := ⟨S8x200x50x1, .i1⟩) main_call1_v12) (fun x v => Host.reduce IntOp.andi x v reducesTo_S8x200x50x1x1_S8x200x50x1_d4 h_S_) : HloOp τ sig (Elt F)).result (after (List.take 69 ops1) W) (Proc.devRef .tc main_call1_v12) = _
  rw [binary_result, R1_call1_v11 W 69 (by decide), R1_call1_c_3 W 69 (by decide)]
  beta_reduce
  rw [ofBuf_call1_v11, ofBuf_call1_c_3, toBuf_call1_v12]
  rfl
theorem R1_call1_v13 (j : Nat) (hj : 70 < j) :
    after ((ops1 (F := F)).take j) W (Proc.devRef .tc main_call1_v13) = Cert.ReferenceIdeal.ReadP.val_main_call1_v13 (F := F) (W (Proc.devRef .tc main_arg1)) (W (Proc.devRef .tc main_arg2)) := by
  rw [after_take_stable ops1_writes W main_call1_v13 (70 + 1) j hj (by decide)]
  refine (congrFun (after_take_succ ops1 W 70 (Nat.lt_of_lt_of_eq (by decide : 70 < 91) ops1_length.symm)) _).trans ?_
  show (TRef.binary (TRef.of (T := ⟨S8x200x50x500, .f32⟩) main_v21) (TRef.of (T := ⟨S8x200x50x1x1, .i32⟩) main_call1_v5) (TRef.of (T := ⟨S8x200x50x1, .f32⟩) main_call1_v13) (fun x i => Host.gather gather_S8x200x50x500_S8x200x50x1x1_S8x200x50x1_n_3_012_012_3_4_1111 x i) : HloOp τ sig (Elt F)).result (after (List.take 70 ops1) W) (Proc.devRef .tc main_call1_v13) = _
  rw [binary_result, R1_v21 W 70 (by decide), R1_call1_v5 W 70 (by decide)]
  rfl
theorem R1_call1_cst (j : Nat) (hj : 71 < j) :
    after ((ops1 (F := F)).take j) W (Proc.devRef .tc main_call1_cst) = Cert.ReferenceIdeal.ReadP.val_main_call1_cst (F := F) := by
  rw [after_take_stable ops1_writes W main_call1_cst (71 + 1) j hj (by decide)]
  refine (congrFun (after_take_succ ops1 W 71 (Nat.lt_of_lt_of_eq (by decide : 71 < 91) ops1_length.symm)) _).trans ?_
  show (TRef.nullary (TRef.of (T := ⟨S_, .f32⟩) main_call1_cst) (constant S_ .f32 0x7FC00000#32) : HloOp τ sig (Elt F)).result (after (List.take 71 ops1) W) (Proc.devRef .tc main_call1_cst) = _
  rw [nullary_result]
  rfl
theorem R1_call1_v14 (j : Nat) (hj : 72 < j) :
    after ((ops1 (F := F)).take j) W (Proc.devRef .tc main_call1_v14) = Cert.ReferenceIdeal.ReadP.val_main_call1_v14 (F := F) := by
  rw [after_take_stable ops1_writes W main_call1_v14 (72 + 1) j hj (by decide)]
  refine (congrFun (after_take_succ ops1 W 72 (Nat.lt_of_lt_of_eq (by decide : 72 < 91) ops1_length.symm)) _).trans ?_
  show (TRef.unary (TRef.of (T := ⟨S_, .f32⟩) main_call1_cst) (TRef.of (T := ⟨S8x200x50x1, .f32⟩) main_call1_v14) (broadcastInDim S8x200x50x1 ![] bcast_S_S8x200x50x1) : HloOp τ sig (Elt F)).result (after (List.take 72 ops1) W) (Proc.devRef .tc main_call1_v14) = _
  rw [unary_result, R1_call1_cst W 72 (by decide)]
  rfl
theorem R1_v25 (j : Nat) (hj : 73 < j) :
    after ((ops1 (F := F)).take j) W (Proc.devRef .tc main_v25) = Cert.ReferenceIdeal.ReadP.val_main_v25 (F := F) (W (Proc.devRef .tc main_arg1)) (W (Proc.devRef .tc main_arg2)) := by
  rw [after_take_stable ops1_writes W main_v25 (73 + 1) j hj (by decide)]
  refine (congrFun (after_take_succ ops1 W 73 (Nat.lt_of_lt_of_eq (by decide : 73 < 91) ops1_length.symm)) _).trans ?_
  show (TRef.ternary (TRef.of (T := ⟨S8x200x50x1, .i1⟩) main_call1_v12) (TRef.of (T := ⟨S8x200x50x1, .f32⟩) main_call1_v13) (TRef.of (T := ⟨S8x200x50x1, .f32⟩) main_call1_v14) (TRef.of (T := ⟨S8x200x50x1, .f32⟩) main_v25) select : HloOp τ sig (Elt F)).result (after (List.take 73 ops1) W) (Proc.devRef .tc main_v25) = _
  rw [ternary_result, R1_call1_v12 W 73 (by decide), R1_call1_v13 W 73 (by decide), R1_call1_v14 W 73 (by decide)]
  beta_reduce
  rw [ofBuf_call1_v12, ofBuf_call1_v13, ofBuf_call1_v14, toBuf_v25]
  rfl
theorem R1_v26 (j : Nat) (hj : 74 < j) :
    after ((ops1 (F := F)).take j) W (Proc.devRef .tc main_v26) = Cert.ReferenceIdeal.ReadP.val_main_v26 (F := F) (W (Proc.devRef .tc main_arg0)) := by
  rw [after_take_stable ops1_writes W main_v26 (74 + 1) j hj (by decide)]
  refine (congrFun (after_take_succ ops1 W 74 (Nat.lt_of_lt_of_eq (by decide : 74 < 91) ops1_length.symm)) _).trans ?_
  show (unary main_v10 main_v26 ((extractStridedSlice S8x200x50x1 ![0, 0, 0, 0] · slices_S8x200x50x500_S8x200x50x1_0_0_0_0) : (⟨S8x200x50x500, .f32⟩ : BufTy).Contents (Elt F) → (⟨S8x200x50x1, .f32⟩ : BufTy).Contents (Elt F)) : HloOp τ sig (Elt F)).result (after (List.take 74 ops1) W) (Proc.devRef .tc main_v26) = _
  rw [unary_result, R1_v10 W 74 (by decide)]
  rfl
theorem R1_v27 (j : Nat) (hj : 75 < j) :
    after ((ops1 (F := F)).take j) W (Proc.devRef .tc main_v27) = Cert.ReferenceIdeal.ReadP.val_main_v27 (F := F) (W (Proc.devRef .tc main_arg1)) := by
  rw [after_take_stable ops1_writes W main_v27 (75 + 1) j hj (by decide)]
  refine (congrFun (after_take_succ ops1 W 75 (Nat.lt_of_lt_of_eq (by decide : 75 < 91) ops1_length.symm)) _).trans ?_
  show (unary main_v21 main_v27 ((extractStridedSlice S8x200x50x1 ![0, 0, 0, 0] · slices_S8x200x50x500_S8x200x50x1_0_0_0_0) : (⟨S8x200x50x500, .f32⟩ : BufTy).Contents (Elt F) → (⟨S8x200x50x1, .f32⟩ : BufTy).Contents (Elt F)) : HloOp τ sig (Elt F)).result (after (List.take 75 ops1) W) (Proc.devRef .tc main_v27) = _
  rw [unary_result, R1_v21 W 75 (by decide)]
  rfl
theorem R1_cst_5 (j : Nat) (hj : 76 < j) :
    after ((ops1 (F := F)).take j) W (Proc.devRef .tc main_cst_5) = Cert.ReferenceIdeal.ReadP.val_main_cst_5 (F := F) := by
  rw [after_take_stable ops1_writes W main_cst_5 (76 + 1) j hj (by decide)]
  refine (congrFun (after_take_succ ops1 W 76 (Nat.lt_of_lt_of_eq (by decide : 76 < 91) ops1_length.symm)) _).trans ?_
  show (nullary main_cst_5 (constant S_ .f32 0x3F800000#32) : HloOp τ sig (Elt F)).result (after (List.take 76 ops1) W) (Proc.devRef .tc main_cst_5) = _
  rw [nullary_result]
  rfl
theorem R1_v28 (j : Nat) (hj : 77 < j) :
    after ((ops1 (F := F)).take j) W (Proc.devRef .tc main_v28) = Cert.ReferenceIdeal.ReadP.val_main_v28 (F := F) := by
  rw [after_take_stable ops1_writes W main_v28 (77 + 1) j hj (by decide)]
  refine (congrFun (after_take_succ ops1 W 77 (Nat.lt_of_lt_of_eq (by decide : 77 < 91) ops1_length.symm)) _).trans ?_
  show (unary main_cst_5 main_v28 (broadcastInDim S8x200x50x1 ![] bcast_S_S8x200x50x1 : (⟨S_, .f32⟩ : BufTy).Contents (Elt F) → (⟨S8x200x50x1, .f32⟩ : BufTy).Contents (Elt F)) : HloOp τ sig (Elt F)).result (after (List.take 77 ops1) W) (Proc.devRef .tc main_v28) = _
  rw [unary_result, R1_cst_5 W 77 (by decide)]
  rfl
theorem R1_v29 (j : Nat) (hj : 78 < j) :
    after ((ops1 (F := F)).take j) W (Proc.devRef .tc main_v29) = Cert.ReferenceIdeal.ReadP.val_main_v29 (F := F) (W (Proc.devRef .tc main_arg0)) (W (Proc.devRef .tc main_arg2)) := by
  rw [after_take_stable ops1_writes W main_v29 (78 + 1) j hj (by decide)]
  refine (congrFun (after_take_succ ops1 W 78 (Nat.lt_of_lt_of_eq (by decide : 78 < 91) ops1_length.symm)) _).trans ?_
  show (binary main_v28 main_v24 main_v29 (subf : (⟨S8x200x50x1, .f32⟩ : BufTy).Contents (Elt F) → (⟨S8x200x50x1, .f32⟩ : BufTy).Contents (Elt F) → (⟨S8x200x50x1, .f32⟩ : BufTy).Contents (Elt F)) : HloOp τ sig (Elt F)).result (after (List.take 78 ops1) W) (Proc.devRef .tc main_v29) = _
  rw [binary_result, R1_v28 W 78 (by decide), R1_v24 W 78 (by decide)]
  rfl
theorem R1_v30 (j : Nat) (hj : 79 < j) :
    after ((ops1 (F := F)).take j) W (Proc.devRef .tc main_v30) = Cert.ReferenceIdeal.ReadP.val_main_v30 (F := F) (W (Proc.devRef .tc main_arg0)) (W (Proc.devRef .tc main_arg2)) := by
  rw [after_take_stable ops1_writes W main_v30 (79 + 1) j hj (by decide)]
  refine (congrFun (after_take_succ ops1 W 79 (Nat.lt_of_lt_of_eq (by decide : 79 < 91) ops1_length.symm)) _).trans ?_
  show (binary main_v29 main_v26 main_v30 (subf : (⟨S8x200x50x1, .f32⟩ : BufTy).Contents (Elt F) → (⟨S8x200x50x1, .f32⟩ : BufTy).Contents (Elt F) → (⟨S8x200x50x1, .f32⟩ : BufTy).Contents (Elt F)) : HloOp τ sig (Elt F)).result (after (List.take 79 ops1) W) (Proc.devRef .tc main_v30) = _
  rw [binary_result, R1_v29 W 79 (by decide), R1_v26 W 79 (by decide)]
  rfl
theorem R1_cst_6 (j : Nat) (hj : 80 < j) :
    after ((ops1 (F := F)).take j) W (Proc.devRef .tc main_cst_6) = Cert.ReferenceIdeal.ReadP.val_main_cst_6 (F := F) := by
  rw [after_take_stable ops1_writes W main_cst_6 (80 + 1) j hj (by decide)]
  refine (congrFun (after_take_succ ops1 W 80 (Nat.lt_of_lt_of_eq (by decide : 80 < 91) ops1_length.symm)) _).trans ?_
  show (nullary main_cst_6 (constant S_ .f32 0x3F800000#32) : HloOp τ sig (Elt F)).result (after (List.take 80 ops1) W) (Proc.devRef .tc main_cst_6) = _
  rw [nullary_result]
  rfl
theorem R1_v31 (j : Nat) (hj : 81 < j) :
    after ((ops1 (F := F)).take j) W (Proc.devRef .tc main_v31) = Cert.ReferenceIdeal.ReadP.val_main_v31 (F := F) := by
  rw [after_take_stable ops1_writes W main_v31 (81 + 1) j hj (by decide)]
  refine (congrFun (after_take_succ ops1 W 81 (Nat.lt_of_lt_of_eq (by decide : 81 < 91) ops1_length.symm)) _).trans ?_
  show (unary main_cst_6 main_v31 (broadcastInDim S8x200x50x1 ![] bcast_S_S8x200x50x1 : (⟨S_, .f32⟩ : BufTy).Contents (Elt F) → (⟨S8x200x50x1, .f32⟩ : BufTy).Contents (Elt F)) : HloOp τ sig (Elt F)).result (after (List.take 81 ops1) W) (Proc.devRef .tc main_v31) = _
  rw [unary_result, R1_cst_6 W 81 (by decide)]
  rfl
theorem R1_v32 (j : Nat) (hj : 82 < j) :
    after ((ops1 (F := F)).take j) W (Proc.devRef .tc main_v32) = Cert.ReferenceIdeal.ReadP.val_main_v32 (F := F) (W (Proc.devRef .tc main_arg1)) (W (Proc.devRef .tc main_arg2)) := by
  rw [after_take_stable ops1_writes W main_v32 (82 + 1) j hj (by decide)]
  refine (congrFun (after_take_succ ops1 W 82 (Nat.lt_of_lt_of_eq (by decide : 82 < 91) ops1_length.symm)) _).trans ?_
  show (binary main_v31 main_v25 main_v32 (subf : (⟨S8x200x50x1, .f32⟩ : BufTy).Contents (Elt F) → (⟨S8x200x50x1, .f32⟩ : BufTy).Contents (Elt F) → (⟨S8x200x50x1, .f32⟩ : BufTy).Contents (Elt F)) : HloOp τ sig (Elt F)).result (after (List.take 82 ops1) W) (Proc.devRef .tc main_v32) = _
  rw [binary_result, R1_v31 W 82 (by decide), R1_v25 W 82 (by decide)]
  rfl
theorem R1_v33 (j : Nat) (hj : 83 < j) :
    after ((ops1 (F := F)).take j) W (Proc.devRef .tc main_v33) = Cert.ReferenceIdeal.ReadP.val_main_v33 (F := F) (W (Proc.devRef .tc main_arg1)) (W (Proc.devRef .tc main_arg2)) := by
  rw [after_take_stable ops1_writes W main_v33 (83 + 1) j hj (by decide)]
  refine (congrFun (after_take_succ ops1 W 83 (Nat.lt_of_lt_of_eq (by decide : 83 < 91) ops1_length.symm)) _).trans ?_
  show (binary main_v32 main_v27 main_v33 (subf : (⟨S8x200x50x1, .f32⟩ : BufTy).Contents (Elt F) → (⟨S8x200x50x1, .f32⟩ : BufTy).Contents (Elt F) → (⟨S8x200x50x1, .f32⟩ : BufTy).Contents (Elt F)) : HloOp τ sig (Elt F)).result (after (List.take 83 ops1) W) (Proc.devRef .tc main_v33) = _
  rw [binary_result, R1_v32 W 83 (by decide), R1_v27 W 83 (by decide)]
  rfl
theorem R1_cst_7 (j : Nat) (hj : 84 < j) :
    after ((ops1 (F := F)).take j) W (Proc.devRef .tc main_cst_7) = Cert.ReferenceIdeal.ReadP.val_main_cst_7 (F := F) := by
  rw [after_take_stable ops1_writes W main_cst_7 (84 + 1) j hj (by decide)]
  refine (congrFun (after_take_succ ops1 W 84 (Nat.lt_of_lt_of_eq (by decide : 84 < 91) ops1_length.symm)) _).trans ?_
  show (nullary main_cst_7 (constant S_ .f32 0x00000000#32) : HloOp τ sig (Elt F)).result (after (List.take 84 ops1) W) (Proc.devRef .tc main_cst_7) = _
  rw [nullary_result]
  rfl
theorem R1_v34 (j : Nat) (hj : 85 < j) :
    after ((ops1 (F := F)).take j) W (Proc.devRef .tc main_v34) = Cert.ReferenceIdeal.ReadP.val_main_v34 (F := F) := by
  rw [after_take_stable ops1_writes W main_v34 (85 + 1) j hj (by decide)]
  refine (congrFun (after_take_succ ops1 W 85 (Nat.lt_of_lt_of_eq (by decide : 85 < 91) ops1_length.symm)) _).trans ?_
  show (unary main_cst_7 main_v34 (broadcastInDim S8x200x50x1 ![] bcast_S_S8x200x50x1 : (⟨S_, .f32⟩ : BufTy).Contents (Elt F) → (⟨S8x200x50x1, .f32⟩ : BufTy).Contents (Elt F)) : HloOp τ sig (Elt F)).result (after (List.take 85 ops1) W) (Proc.devRef .tc main_v34) = _
  rw [unary_result, R1_cst_7 W 85 (by decide)]
  rfl
theorem R1_v35 (j : Nat) (hj : 86 < j) :
    after ((ops1 (F := F)).take j) W (Proc.devRef .tc main_v35) = Cert.ReferenceIdeal.ReadP.val_main_v35 (F := F) (W (Proc.devRef .tc main_arg1)) (W (Proc.devRef .tc main_arg2)) := by
  rw [after_take_stable ops1_writes W main_v35 (86 + 1) j hj (by decide)]
  refine (congrFun (after_take_succ ops1 W 86 (Nat.lt_of_lt_of_eq (by decide : 86 < 91) ops1_length.symm)) _).trans ?_
  show (binary main_v33 main_v34 main_v35 (cmpf .olt : (⟨S8x200x50x1, .f32⟩ : BufTy).Contents (Elt F) → (⟨S8x200x50x1, .f32⟩ : BufTy).Contents (Elt F) → (⟨S8x200x50x1, .i1⟩ : BufTy).Contents (Elt F)) : HloOp τ sig (Elt F)).result (after (List.take 86 ops1) W) (Proc.devRef .tc main_v35) = _
  rw [binary_result, R1_v33 W 86 (by decide), R1_v34 W 86 (by decide)]
  rfl
theorem R1_cst_8 (j : Nat) (hj : 87 < j) :
    after ((ops1 (F := F)).take j) W (Proc.devRef .tc main_cst_8) = Cert.ReferenceIdeal.ReadP.val_main_cst_8 (F := F) := by
  rw [after_take_stable ops1_writes W main_cst_8 (87 + 1) j hj (by decide)]
  refine (congrFun (after_take_succ ops1 W 87 (Nat.lt_of_lt_of_eq (by decide : 87 < 91) ops1_length.symm)) _).trans ?_
  show (nullary main_cst_8 (constant S_ .f32 0x2EDBE6FF#32) : HloOp τ sig (Elt F)).result (after (List.take 87 ops1) W) (Proc.devRef .tc main_cst_8) = _
  rw [nullary_result]
  rfl
theorem R1_call2_v0 (j : Nat) (hj : 88 < j) :
    after ((ops1 (F := F)).take j) W (Proc.devRef .tc main_call2_v0) = Cert.ReferenceIdeal.ReadP.val_main_call2_v0 (F := F) := by
  rw [after_take_stable ops1_writes W main_call2_v0 (88 + 1) j hj (by decide)]
  refine (congrFun (after_take_succ ops1 W 88 (Nat.lt_of_lt_of_eq (by decide : 88 < 91) ops1_length.symm)) _).trans ?_
  show (TRef.unary (TRef.of (T := ⟨S_, .f32⟩) main_cst_8) (TRef.of (T := ⟨S_, .f32⟩) main_call2_v0) id : HloOp τ sig (Elt F)).result (after (List.take 88 ops1) W) (Proc.devRef .tc main_call2_v0) = _
  rw [unary_result, R1_cst_8 W 88 (by decide)]
  rfl
theorem R1_call2_v1 (j : Nat) (hj : 89 < j) :
    after ((ops1 (F := F)).take j) W (Proc.devRef .tc main_call2_v1) = Cert.ReferenceIdeal.ReadP.val_main_call2_v1 (F := F) := by
  rw [after_take_stable ops1_writes W main_call2_v1 (89 + 1) j hj (by decide)]
  refine (congrFun (after_take_succ ops1 W 89 (Nat.lt_of_lt_of_eq (by decide : 89 < 91) ops1_length.symm)) _).trans ?_
  show (TRef.unary (TRef.of (T := ⟨S_, .f32⟩) main_call2_v0) (TRef.of (T := ⟨S8x200x50x1, .f32⟩) main_call2_v1) (broadcastInDim S8x200x50x1 ![] bcast_S_S8x200x50x1) : HloOp τ sig (Elt F)).result (after (List.take 89 ops1) W) (Proc.devRef .tc main_call2_v1) = _
  rw [unary_result, R1_call2_v0 W 89 (by decide)]
  rfl
theorem R1_v36 (j : Nat) (hj : 90 < j) :
    after ((ops1 (F := F)).take j) W (Proc.devRef .tc main_v36) = Cert.ReferenceIdeal.ReadP.val_main_v36 (F := F) (W (Proc.devRef .tc main_arg1)) (W (Proc.devRef .tc main_arg2)) := by
  rw [after_take_stable ops1_writes W main_v36 (90 + 1) j hj (by decide)]
  refine (congrFun (after_take_succ ops1 W 90 (Nat.lt_of_lt_of_eq (by decide : 90 < 91) ops1_length.symm)) _).trans ?_
  show (TRef.ternary (TRef.of (T := ⟨S8x200x50x1, .i1⟩) main_v35) (TRef.of (T := ⟨S8x200x50x1, .f32⟩) main_call2_v1) (TRef.of (T := ⟨S8x200x50x1, .f32⟩) main_v33) (TRef.of (T := ⟨S8x200x50x1, .f32⟩) main_v36) select : HloOp τ sig (Elt F)).result (after (List.take 90 ops1) W) (Proc.devRef .tc main_v36) = _
  rw [ternary_result, R1_v35 W 90 (by decide), R1_call2_v1 W 90 (by decide), R1_v33 W 90 (by decide)]
  rfl

end R1

/-! ## What each stretch leaves -/

section Stretches
variable (W : Valuation τ sig (Elt F))

theorem ops1_v24 : after ops1 W (Proc.devRef .tc main_v24) = Cert.ReferenceIdeal.ReadP.val_main_v24 (F := F) (W (Proc.devRef .tc main_arg0)) (W (Proc.devRef .tc main_arg2)) := by
  have h := R1_v24 W 91 (by decide)
  rwa [List.take_of_length_le (Nat.le_of_eq ops1_length)] at h
theorem ops1_v26 : after ops1 W (Proc.devRef .tc main_v26) = Cert.ReferenceIdeal.ReadP.val_main_v26 (F := F) (W (Proc.devRef .tc main_arg0)) := by
  have h := R1_v26 W 91 (by decide)
  rwa [List.take_of_length_le (Nat.le_of_eq ops1_length)] at h
theorem ops1_v30 : after ops1 W (Proc.devRef .tc main_v30) = Cert.ReferenceIdeal.ReadP.val_main_v30 (F := F) (W (Proc.devRef .tc main_arg0)) (W (Proc.devRef .tc main_arg2)) := by
  have h := R1_v30 W 91 (by decide)
  rwa [List.take_of_length_le (Nat.le_of_eq ops1_length)] at h
theorem ops1_v25 : after ops1 W (Proc.devRef .tc main_v25) = Cert.ReferenceIdeal.ReadP.val_main_v25 (F := F) (W (Proc.devRef .tc main_arg1)) (W (Proc.devRef .tc main_arg2)) := by
  have h := R1_v25 W 91 (by decide)
  rwa [List.take_of_length_le (Nat.le_of_eq ops1_length)] at h
theorem ops1_v27 : after ops1 W (Proc.devRef .tc main_v27) = Cert.ReferenceIdeal.ReadP.val_main_v27 (F := F) (W (Proc.devRef .tc main_arg1)) := by
  have h := R1_v27 W 91 (by decide)
  rwa [List.take_of_length_le (Nat.le_of_eq ops1_length)] at h
theorem ops1_v36 : after ops1 W (Proc.devRef .tc main_v36) = Cert.ReferenceIdeal.ReadP.val_main_v36 (F := F) (W (Proc.devRef .tc main_arg1)) (W (Proc.devRef .tc main_arg2)) := by
  have h := R1_v36 W 91 (by decide)
  rwa [List.take_of_length_le (Nat.le_of_eq ops1_length)] at h
theorem ops1_arg0 : after ops1 W (Proc.devRef .tc main_arg0) = W (Proc.devRef .tc main_arg0) := by
  have h := R1_arg0 W 91
  rwa [List.take_of_length_le (Nat.le_of_eq ops1_length)] at h
theorem ops1_arg1 : after ops1 W (Proc.devRef .tc main_arg1) = W (Proc.devRef .tc main_arg1) := by
  have h := R1_arg1 W 91
  rwa [List.take_of_length_le (Nat.le_of_eq ops1_length)] at h
theorem ops1_arg2 : after ops1 W (Proc.devRef .tc main_arg2) = W (Proc.devRef .tc main_arg2) := by
  have h := R1_arg2 W 91
  rwa [List.take_of_length_le (Nat.le_of_eq ops1_length)] at h
theorem ops1_arg3 : after ops1 W (Proc.devRef .tc main_arg3) = W (Proc.devRef .tc main_arg3) := by
  have h := R1_arg3 W 91
  rwa [List.take_of_length_le (Nat.le_of_eq ops1_length)] at h
theorem ops1_arg4 : after ops1 W (Proc.devRef .tc main_arg4) = W (Proc.devRef .tc main_arg4) := by
  have h := R1_arg4 W 91
  rwa [List.take_of_length_le (Nat.le_of_eq ops1_length)] at h

theorem ops2_v39 : after ops2 W (Proc.devRef .tc main_v39) = G39 (W (Proc.devRef .tc main_v24)) (W (Proc.devRef .tc main_v26)) (W (Proc.devRef .tc main_v30)) := by after_results_simp <;> rfl
theorem ops2_v25 : after ops2 W (Proc.devRef .tc main_v25) = W (Proc.devRef .tc main_v25) := by after_results_simp
theorem ops2_v27 : after ops2 W (Proc.devRef .tc main_v27) = W (Proc.devRef .tc main_v27) := by after_results_simp
theorem ops2_v36 : after ops2 W (Proc.devRef .tc main_v36) = W (Proc.devRef .tc main_v36) := by after_results_simp
theorem ops2_arg0 : after ops2 W (Proc.devRef .tc main_arg0) = W (Proc.devRef .tc main_arg0) := by after_results_simp
theorem ops2_arg1 : after ops2 W (Proc.devRef .tc main_arg1) = W (Proc.devRef .tc main_arg1) := by after_results_simp
theorem ops2_arg2 : after ops2 W (Proc.devRef .tc main_arg2) = W (Proc.devRef .tc main_arg2) := by after_results_simp
theorem ops2_arg3 : after ops2 W (Proc.devRef .tc main_arg3) = W (Proc.devRef .tc main_arg3) := by after_results_simp
theorem ops2_arg4 : after ops2 W (Proc.devRef .tc main_arg4) = W (Proc.devRef .tc main_arg4) := by after_results_simp

theorem ops3_v64 : after ops3 W (Proc.devRef .tc main_v64) = G64 (W (Proc.devRef .tc main_v39)) (W (Proc.devRef .tc main_arg3)) (W (Proc.devRef .tc main_arg4)) := by after_results_simp <;> rfl
theorem ops3_v65 : after ops3 W (Proc.devRef .tc main_v65) = G65 (W (Proc.devRef .tc main_v25)) (W (Proc.devRef .tc main_v27)) (W (Proc.devRef .tc main_v36)) (W (Proc.devRef .tc main_arg3)) (W (Proc.devRef .tc main_arg4)) := by after_results_simp <;> rfl
theorem ops3_arg0 : after ops3 W (Proc.devRef .tc main_arg0) = W (Proc.devRef .tc main_arg0) := by after_results_simp
theorem ops3_arg1 : after ops3 W (Proc.devRef .tc main_arg1) = W (Proc.devRef .tc main_arg1) := by after_results_simp
theorem ops3_arg2 : after ops3 W (Proc.devRef .tc main_arg2) = W (Proc.devRef .tc main_arg2) := by after_results_simp
theorem ops3_arg3 : after ops3 W (Proc.devRef .tc main_arg3) = W (Proc.devRef .tc main_arg3) := by after_results_simp
theorem ops3_arg4 : after ops3 W (Proc.devRef .tc main_arg4) = W (Proc.devRef .tc main_arg4) := by after_results_simp

theorem ops4_v66 : after ops4 W (Proc.devRef .tc main_v66) = G66 (W (Proc.devRef .tc main_v64)) (W (Proc.devRef .tc main_v65)) := by after_results_simp <;> rfl
theorem ops4_arg0 : after ops4 W (Proc.devRef .tc main_arg0) = W (Proc.devRef .tc main_arg0) := by after_results_simp
theorem ops4_arg1 : after ops4 W (Proc.devRef .tc main_arg1) = W (Proc.devRef .tc main_arg1) := by after_results_simp
theorem ops4_arg2 : after ops4 W (Proc.devRef .tc main_arg2) = W (Proc.devRef .tc main_arg2) := by after_results_simp
theorem ops4_arg3 : after ops4 W (Proc.devRef .tc main_arg3) = W (Proc.devRef .tc main_arg3) := by after_results_simp
theorem ops4_arg4 : after ops4 W (Proc.devRef .tc main_arg4) = W (Proc.devRef .tc main_arg4) := by after_results_simp

end Stretches

/-! ## The four composed -/

/-- The stacked result is the stage `val_main_v66` of the arguments' contents. -/
theorem after_v66 (V : Valuation τ sig (Elt F)) :
    after ops V (Proc.devRef .tc main_v66) = Cert.ReferenceIdeal.ReadP.val_main_v66 (F := F) (V (Proc.devRef .tc main_arg0)) (V (Proc.devRef .tc main_arg1)) (V (Proc.devRef .tc main_arg2)) (V (Proc.devRef .tc main_arg3)) (V (Proc.devRef .tc main_arg4)) := by
  rw [ops_split, after_app, after_app, after_app, ops4_v66, ops3_v64, ops3_v65, ops2_v39, ops2_v25, ops2_v27, ops2_v36, ops2_arg3, ops2_arg4,
    ops1_v24, ops1_v26, ops1_v30, ops1_v25, ops1_v27, ops1_v36, ops1_arg3, ops1_arg4]
  rfl
theorem after_arg0 (V : Valuation τ sig (Elt F)) : after ops V (Proc.devRef .tc main_arg0) = V (Proc.devRef .tc main_arg0) := by
  rw [ops_split, after_app, after_app, after_app, ops4_arg0, ops3_arg0, ops2_arg0, ops1_arg0]
theorem after_arg1 (V : Valuation τ sig (Elt F)) : after ops V (Proc.devRef .tc main_arg1) = V (Proc.devRef .tc main_arg1) := by
  rw [ops_split, after_app, after_app, after_app, ops4_arg1, ops3_arg1, ops2_arg1, ops1_arg1]
theorem after_arg2 (V : Valuation τ sig (Elt F)) : after ops V (Proc.devRef .tc main_arg2) = V (Proc.devRef .tc main_arg2) := by
  rw [ops_split, after_app, after_app, after_app, ops4_arg2, ops3_arg2, ops2_arg2, ops1_arg2]
theorem after_arg3 (V : Valuation τ sig (Elt F)) : after ops V (Proc.devRef .tc main_arg3) = V (Proc.devRef .tc main_arg3) := by
  rw [ops_split, after_app, after_app, after_app, ops4_arg3, ops3_arg3, ops2_arg3, ops1_arg3]
theorem after_arg4 (V : Valuation τ sig (Elt F)) : after ops V (Proc.devRef .tc main_arg4) = V (Proc.devRef .tc main_arg4) := by
  rw [ops_split, after_app, after_app, after_app, ops4_arg4, ops3_arg4, ops2_arg4, ops1_arg4]

/-- On every device, for any float values, from any memory with zero counters: every weakly fair execution of
    @main terminates with the result at the stage `val_main_v66` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = Cert.ReferenceIdeal.ReadP.val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v66).trans (after_v66 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c))⟩)
    (run_seq scopedRefs_eq scopedSems_eq defs main (fun _ => ops) main_eq (fun _ => ops_sub) m ρ)

end Cert.ReferenceIdeal.ValueP

end
-- ==== Proof.lean ====
/-
  The certificate: a Pallas kernel that collapses two 500-way softmaxes (student and teacher logits, [8, 200, 50, 500]) into
  three numbers per (batch row n, frame t, label position u) — the label's share, the blank's share, the rest — against the
  jnp reference that computes the softmaxes whole and reads the label's share with `take_along_axis`.

  Both programs compute, for a row x of 500 logits, e_v = exp (x_v - max x), the denominator Σ e, the blank's share e_0 / Σ e,
  the remainder (1 - share) - blank, `log (min 1 (max ε ·))` of the three for the student, the three themselves with a
  negative remainder replaced by ε for the teacher, and the mask [t < x_len n] · [u < y_len n].  They differ in how the label's
  share is taken: the reference gathers e_y / Σ e at the label y; the kernel sums e_v · [v = y] over the vocabulary and divides.
  A sum against the indicator of one entry is that entry's term — on every extended real, since a · 0 = 0 and a · 1 = a hold
  at the infinities too — PROVIDED the label names an entry: 0 ≤ y < 500, the added conjunct of the precondition (outside it
  the reference's gather wraps or fills with its NaN constant, while the indicator is zero everywhere).  The finiteness of the
  float inputs is never used.

  The kernel side: the body's loop over the eight batch rows leaves, in each output block, one piece per row holding the row's
  payload (LoopPieces, LoopValue); the payload at one element is the specification's number (PayValue); the staged blocks are
  frames [8t, 8t + 8) of the arguments (BlockRead); the 25 grid points cover the arrays (ArrayValue, KernelRun); the host swaps
  the last two axes and stacks the two arrays.  The reference side: its stages read at an index (RefValue).  The bridge joins
  them (Bridge), and both programs end with the same stacking of equal arrays.
-/
import proofs.«165065_j28913719837048_2_alg».proof.Defs
import proofs.«165065_j28913719837048_2_alg».proof.Proof.Gen.Kernel
import proofs.«165065_j28913719837048_2_alg».proof.Proof.Gen.KernelIdeal
import proofs.«165065_j28913719837048_2_alg».proof.Proof.Gen.ReferenceIdeal
import proofs.«165065_j28913719837048_2_alg».proof.Proof.Gen.Pre_finite_inputs
import proofs.«165065_j28913719837048_2_alg».proof.Proof.KernelFrameP
import proofs.«165065_j28913719837048_2_alg».proof.Proof.KernelIdealFrameP
import proofs.«165065_j28913719837048_2_alg».proof.Proof.KernelRun
import proofs.«165065_j28913719837048_2_alg».proof.Proof.Bridge
import proofs.«165065_j28913719837048_2_alg».proof.Proof.PreRange
import proofs.«165065_j28913719837048_2_alg».proof.Proof.RefRun
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- From memories that agree on the arguments, with every label in [0, 500), the two programs end with equal results. -/
theorem algebraic : Cert.algebraic_KernelIdeal_ReferenceIdeal := by
  intro m ρ m' ρ' hpre hagree
  have hy : ∀ (c : Dev Cert.KernelIdeal.nD) (n : Fin 8) (u : Fin 50),
      0 ≤ (m ((c.tc : Thread Cert.KernelIdeal.nD Cert.KernelIdeal.τ).loc Cert.KernelIdeal.main_arg2) (ix2 n u)).toInt
        ∧ (m ((c.tc : Thread Cert.KernelIdeal.nD Cert.KernelIdeal.τ).loc Cert.KernelIdeal.main_arg2) (ix2 n u)).toInt < 500 :=
    fun c n u => Cert.PreRange.label_range (F := Ideal) _ _ _ _ _ (hpre c) (ix2 n u)
  refine ⟨fun c => Cert.KernelIdeal.KernelRun.tail (Cert.KernelIdeal.KernelRun.KSt m c) (Cert.KernelIdeal.KernelRun.KTt m c),
    Cert.KernelIdeal.KernelRun.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2]
  exact Cert.Bridge.result_eq m c (hy c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
